-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v121) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg13 : FVec F S64 .f32) (main_arg14 : FVec F S64 .f32) (main_v33 : IVec S_ 1) : IVec S_ 1 :=
  let main_v34 : FVec F S64 .f32 := Host.absf main_arg13
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg14
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg10 : FVec F S64x64 .f32) (main_arg11 : FVec F S64 .f32) (main_arg12 : FVec F S64 .f32) (main_arg13 : FVec F S64 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg10
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg11
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg12
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg13 main_arg14 main_v33

def fn {F : FTy → Type} [FloatOps F] (main_arg0 : FVec F S100000x64 .f32) (main_arg1 : IVec S1200000 32) (main_arg2 : IVec S1200000 32) (main_arg3 : IVec S1200000 32) (main_arg4 : IVec S1200000 32) (main_arg5 : IVec S1200000 32) (main_arg6 : IVec S1200000 32) (main_arg7 : FVec F S64x64 .f32) (main_arg8 : FVec F S64x64 .f32) (main_arg9 : FVec F S64x64 .f32) (main_arg10 : FVec F S64x64 .f32) (main_arg11 : FVec F S64 .f32) (main_arg12 : FVec F S64 .f32) (main_arg13 : FVec F S64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg7
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg8
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg9
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg10 main_arg11 main_arg12 main_arg13 main_arg14 main_v13 main_v16
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S1x100000 : Shape := ⟨2, ![1, 100000]⟩
abbrev S2x100000 : Shape := ⟨2, ![2, 100000]⟩
abbrev S2x100000x1 : Shape := ⟨3, ![2, 100000, 1]⟩
abbrev S100000x1 : Shape := ⟨2, ![100000, 1]⟩
abbrev S1x64x64 : Shape := ⟨3, ![1, 64, 64]⟩
abbrev S2x64x64 : Shape := ⟨3, ![2, 64, 64]⟩
abbrev S1x64 : Shape := ⟨2, ![1, 64]⟩
abbrev S2x100000x64 : Shape := ⟨3, ![2, 100000, 64]⟩
abbrev S10000x64 : Shape := ⟨2, ![10000, 64]⟩
abbrev S1x10000x1 : Shape := ⟨3, ![1, 10000, 1]⟩
abbrev S1x10000x64 : Shape := ⟨3, ![1, 10000, 64]⟩
abbrev S10000x1 : Shape := ⟨2, ![10000, 1]⟩
abbrev S1x100000x64 : Shape := ⟨3, ![1, 100000, 64]⟩
abbrev S1200000x64 : Shape := ⟨2, ![1200000, 64]⟩
abbrev S5000x64 : Shape := ⟨2, ![5000, 64]⟩
abbrev S5000x1 : Shape := ⟨2, ![5000, 1]⟩
abbrev S12000x64 : Shape := ⟨2, ![12000, 64]⟩
abbrev S12000x1 : Shape := ⟨2, ![12000, 1]⟩
abbrev S12000 : Shape := ⟨1, ![12000]⟩

abbrev nBuf : Space → Nat
  | .hbm => 177
  | .vmem => 52
  | .smem => 0
  | _ => 0

abbrev hbmTy0_0 (i : Nat) : BufTy := match i % 128 with
  | 0 => ⟨S100000x64, .f32⟩
  | 1 => ⟨S1200000, .i32⟩
  | 2 => ⟨S1200000, .i32⟩
  | 3 => ⟨S1200000, .i32⟩
  | 4 => ⟨S1200000, .i32⟩
  | 5 => ⟨S1200000, .i32⟩
  | 6 => ⟨S1200000, .i32⟩
  | 7 => ⟨S64x64, .f32⟩
  | 8 => ⟨S64x64, .f32⟩
  | 9 => ⟨S64x64, .f32⟩
  | 10 => ⟨S64x64, .f32⟩
  | 11 => ⟨S64, .f32⟩
  | 12 => ⟨S64, .f32⟩
  | 13 => ⟨S64, .f32⟩
  | 14 => ⟨S64, .f32⟩
  | 15 => ⟨S_, .f32⟩
  | 16 => ⟨S1200000, .f32⟩
  | 17 => ⟨S_, .f32⟩
  | 18 => ⟨S100000, .f32⟩
  | 19 => ⟨S1200000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S100000, .f32⟩
  | 26 => ⟨S_, .f32⟩
  | 27 => ⟨S1200000, .f32⟩
  | 28 => ⟨S_, .f32⟩
  | 29 => ⟨S100000, .f32⟩
  | 30 => ⟨S1200000x1, .i32⟩
  | 31 => ⟨S100000, .f32⟩
  | 32 => ⟨S_, .f32⟩
  | 33 => ⟨S_, .f32⟩
  | 34 => ⟨S100000, .f32⟩
  | 35 => ⟨S100000, .f32⟩
  | 36 => ⟨S100000, .f32⟩
  | 37 => ⟨S_, .f32⟩
  | 38 => ⟨S1200000, .f32⟩
  | 39 => ⟨S_, .f32⟩
  | 40 => ⟨S100000, .f32⟩
  | 41 => ⟨S1200000x1, .i32⟩
  | 42 => ⟨S100000, .f32⟩
  | 43 => ⟨S_, .f32⟩
  | 44 => ⟨S_, .f32⟩
  | 45 => ⟨S100000, .f32⟩
  | 46 => ⟨S100000, .f32⟩
  | 47 => ⟨S100000, .f32⟩
  | 48 => ⟨S_, .f32⟩
  | 49 => ⟨S1200000, .f32⟩
  | 50 => ⟨S_, .f32⟩
  | 51 => ⟨S100000, .f32⟩
  | 52 => ⟨S1200000x1, .i32⟩
  | 53 => ⟨S100000, .f32⟩
  | 54 => ⟨S_, .f32⟩
  | 55 => ⟨S_, .f32⟩
  | 56 => ⟨S100000, .f32⟩
  | 57 => ⟨S100000, .f32⟩
  | 58 => ⟨S100000, .f32⟩
  | 59 => ⟨S1x100000, .f32⟩
  | 60 => ⟨S1x100000, .f32⟩
  | 61 => ⟨S2x100000, .f32⟩
  | 62 => ⟨S2x100000x1, .f32⟩
  | 63 => ⟨S100000x1, .f32⟩
  | 64 => ⟨S100000x1, .f32⟩
  | 65 => ⟨S1x64x64, .f32⟩
  | 66 => ⟨S1x64x64, .f32⟩
  | 67 => ⟨S2x64x64, .f32⟩
  | 68 => ⟨S1x64x64, .f32⟩
  | 69 => ⟨S1x64x64, .f32⟩
  | 70 => ⟨S2x64x64, .f32⟩
  | 71 => ⟨S1x64, .f32⟩
  | 72 => ⟨S1x64, .f32⟩
  | 73 => ⟨S1x64, .f32⟩
  | 74 => ⟨S1x64, .f32⟩
  | 75 => ⟨S2x100000x64, .f32⟩
  | 76 => ⟨S1x100000x64, .f32⟩
  | 77 => ⟨S100000x64, .f32⟩
  | 78 => ⟨S_, .i32⟩
  | 79 => ⟨S1200000, .i32⟩
  | 80 => ⟨S1200000, .i1⟩
  | 81 => ⟨S_, .i32⟩
  | 82 => ⟨S1200000, .i32⟩
  | 83 => ⟨S1200000, .i32⟩
  | 84 => ⟨S1200000, .i32⟩
  | 85 => ⟨S1200000x1, .i32⟩
  | 86 => ⟨S1200000x64, .f32⟩
  | 87 => ⟨S_, .f32⟩
  | 88 => ⟨S100000x64, .f32⟩
  | 89 => ⟨S1200000x1, .i32⟩
  | 90 => ⟨S100000x64, .f32⟩
  | 91 => ⟨S1x100000x64, .f32⟩
  | 92 => ⟨S100000x64, .f32⟩
  | 93 => ⟨S_, .i32⟩
  | 94 => ⟨S1200000, .i32⟩
  | 95 => ⟨S1200000, .i1⟩
  | 96 => ⟨S_, .i32⟩
  | 97 => ⟨S1200000, .i32⟩
  | 98 => ⟨S1200000, .i32⟩
  | 99 => ⟨S1200000, .i32⟩
  | 100 => ⟨S1200000x1, .i32⟩
  | 101 => ⟨S1200000x64, .f32⟩
  | 102 => ⟨S_, .f32⟩
  | 103 => ⟨S100000x64, .f32⟩
  | 104 => ⟨S1200000x1, .i32⟩
  | 105 => ⟨S100000x64, .f32⟩
  | 106 => ⟨S100000x64, .f32⟩
  | 107 => ⟨S2x100000x64, .f32⟩
  | 108 => ⟨S1x100000x64, .f32⟩
  | 109 => ⟨S100000x64, .f32⟩
  | 110 => ⟨S_, .i32⟩
  | 111 => ⟨S1200000, .i32⟩
  | 112 => ⟨S1200000, .i1⟩
  | 113 => ⟨S_, .i32⟩
  | 114 => ⟨S1200000, .i32⟩
  | 115 => ⟨S1200000, .i32⟩
  | 116 => ⟨S1200000, .i32⟩
  | 117 => ⟨S1200000x1, .i32⟩
  | 118 => ⟨S1200000x64, .f32⟩
  | 119 => ⟨S_, .f32⟩
  | 120 => ⟨S100000x64, .f32⟩
  | 121 => ⟨S1200000x1, .i32⟩
  | 122 => ⟨S100000x64, .f32⟩
  | 123 => ⟨S1x100000x64, .f32⟩
  | 124 => ⟨S100000x64, .f32⟩
  | 125 => ⟨S_, .i32⟩
  | 126 => ⟨S1200000, .i32⟩
  | 127 => ⟨S1200000, .i1⟩
  | _ => ⟨S100000x64, .f32⟩

abbrev hbmTy0_1 (i : Nat) : BufTy := match i % 128 with
  | 0 => ⟨S_, .i32⟩
  | 1 => ⟨S1200000, .i32⟩
  | 2 => ⟨S1200000, .i32⟩
  | 3 => ⟨S1200000, .i32⟩
  | 4 => ⟨S1200000x1, .i32⟩
  | 5 => ⟨S1200000x64, .f32⟩
  | 6 => ⟨S_, .f32⟩
  | 7 => ⟨S100000x64, .f32⟩
  | 8 => ⟨S1200000x1, .i32⟩
  | 9 => ⟨S100000x64, .f32⟩
  | 10 => ⟨S100000x64, .f32⟩
  | 11 => ⟨S_, .i32⟩
  | 12 => ⟨S1200000, .i32⟩
  | 13 => ⟨S1200000, .i1⟩
  | 14 => ⟨S_, .i32⟩
  | 15 => ⟨S1200000, .i32⟩
  | 16 => ⟨S1200000, .i32⟩
  | 17 => ⟨S1200000, .i32⟩
  | 18 => ⟨S1200000x1, .i32⟩
  | 19 => ⟨S1200000x64, .f32⟩
  | 20 => ⟨S_, .i32⟩
  | 21 => ⟨S1200000, .i32⟩
  | 22 => ⟨S1200000, .i1⟩
  | 23 => ⟨S_, .i32⟩
  | 24 => ⟨S1200000, .i32⟩
  | 25 => ⟨S1200000, .i32⟩
  | 26 => ⟨S1200000, .i32⟩
  | 27 => ⟨S1200000x1, .i32⟩
  | 28 => ⟨S1200000x64, .f32⟩
  | 29 => ⟨S_, .i32⟩
  | 30 => ⟨S1200000, .i32⟩
  | 31 => ⟨S1200000, .i1⟩
  | 32 => ⟨S_, .i32⟩
  | 33 => ⟨S1200000, .i32⟩
  | 34 => ⟨S1200000, .i32⟩
  | 35 => ⟨S1200000, .i32⟩
  | 36 => ⟨S1200000x1, .i32⟩
  | 37 => ⟨S1200000x64, .f32⟩
  | 38 => ⟨S_, .i32⟩
  | 39 => ⟨S1200000, .i32⟩
  | 40 => ⟨S1200000, .i1⟩
  | 41 => ⟨S_, .i32⟩
  | 42 => ⟨S1200000, .i32⟩
  | 43 => ⟨S1200000, .i32⟩
  | 44 => ⟨S1200000, .i32⟩
  | 45 => ⟨S1200000x1, .i32⟩
  | 46 => ⟨S1200000x64, .f32⟩
  | 47 => ⟨S1200000x1, .f32⟩
  | 48 => ⟨S1200000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S1x64x64, .f32⟩
  | .local _ .vmem, ⟨3, _⟩ => ⟨S1x64x64, .f32⟩
  | .local _ .vmem, ⟨4, _⟩ => ⟨S1x10000x1, .f32⟩
  | .local _ .vmem, ⟨5, _⟩ => ⟨S1x10000x1, .f32⟩
  | .local _ .vmem, ⟨6, _⟩ => ⟨S1x10000x64, .f32⟩
  | .local _ .vmem, ⟨7, _⟩ => ⟨S1x10000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S10000x64, .f32⟩
  | .local _ .vmem, ⟨21, _⟩ => ⟨S10000x64, .f32⟩
  | .local _ .vmem, ⟨22, _⟩ => ⟨S1x64x64, .f32⟩
  | .local _ .vmem, ⟨23, _⟩ => ⟨S1x64x64, .f32⟩
  | .local _ .vmem, ⟨24, _⟩ => ⟨S1x10000x1, .f32⟩
  | .local _ .vmem, ⟨25, _⟩ => ⟨S1x10000x1, .f32⟩
  | .local _ .vmem, ⟨26, _⟩ => ⟨S1x10000x64, .f32⟩
  | .local _ .vmem, ⟨27, _⟩ => ⟨S1x10000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S12000x64, .f32⟩
  | .local _ .vmem, ⟨41, _⟩ => ⟨S12000x64, .f32⟩
  | .local _ .vmem, ⟨42, _⟩ => ⟨S12000x64, .f32⟩
  | .local _ .vmem, ⟨43, _⟩ => ⟨S12000x64, .f32⟩
  | .local _ .vmem, ⟨44, _⟩ => ⟨S12000x1, .f32⟩
  | .local _ .vmem, ⟨45, _⟩ => ⟨S12000x1, .f32⟩
  | .local _ .vmem, ⟨46, _⟩ => ⟨S12000x64, .f32⟩
  | .local _ .vmem, ⟨47, _⟩ => ⟨S12000x64, .f32⟩
  | .local _ .vmem, ⟨48, _⟩ => ⟨S12000x64, .f32⟩
  | .local _ .vmem, ⟨49, _⟩ => ⟨S12000x64, .f32⟩
  | .local _ .vmem, ⟨50, _⟩ => ⟨S12000x1, .f32⟩
  | .local _ .vmem, ⟨51, _⟩ => ⟨S12000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_cst_3 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v10 : Ref sig .tc := ⟨.hbm, 35, rfl⟩
abbrev main_v11 : Ref sig .tc := ⟨.hbm, 36, rfl⟩
abbrev main_cst_5 : Ref sig .tc := ⟨.hbm, 37, rfl⟩
abbrev main_v12 : Ref sig .tc := ⟨.hbm, 38, rfl⟩
abbrev main_cst_6 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_7 : Ref sig .tc := ⟨.hbm, 43, rfl⟩
abbrev main_call2_v0 : Ref sig .tc := ⟨.hbm, 44, rfl⟩
abbrev main_call2_v1 : Ref sig .tc := ⟨.hbm, 45, rfl⟩
abbrev main_v16 : Ref sig .tc := ⟨.hbm, 46, rfl⟩
abbrev main_v17 : Ref sig .tc := ⟨.hbm, 47, rfl⟩
abbrev main_cst_8 : Ref sig .tc := ⟨.hbm, 48, rfl⟩
abbrev main_v18 : Ref sig .tc := ⟨.hbm, 49, rfl⟩
abbrev main_cst_9 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_10 : Ref sig .tc := ⟨.hbm, 54, rfl⟩
abbrev main_call3_v0 : Ref sig .tc := ⟨.hbm, 55, rfl⟩
abbrev main_call3_v1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c : Ref sig .tc := ⟨.hbm, 78, rfl⟩
abbrev main_v43 : Ref sig .tc := ⟨.hbm, 79, rfl⟩
abbrev main_v44 : Ref sig .tc := ⟨.hbm, 80, rfl⟩
abbrev main_c_11 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_12 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_13 : Ref sig .tc := ⟨.hbm, 93, rfl⟩
abbrev main_v55 : Ref sig .tc := ⟨.hbm, 94, rfl⟩
abbrev main_v56 : Ref sig .tc := ⟨.hbm, 95, rfl⟩
abbrev main_c_14 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_15 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_16 : Ref sig .tc := ⟨.hbm, 110, rfl⟩
abbrev main_v69 : Ref sig .tc := ⟨.hbm, 111, rfl⟩
abbrev main_v70 : Ref sig .tc := ⟨.hbm, 112, rfl⟩
abbrev main_c_17 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_18 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_c_19 : Ref sig .tc := ⟨.hbm, 125, rfl⟩
abbrev main_v81 : Ref sig .tc := ⟨.hbm, 126, rfl⟩
abbrev main_v82 : Ref sig .tc := ⟨.hbm, 127, rfl⟩
abbrev main_c_20 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_21 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_22 : Ref sig .tc := ⟨.hbm, 139, rfl⟩
abbrev main_v92 : Ref sig .tc := ⟨.hbm, 140, rfl⟩
abbrev main_v93 : Ref sig .tc := ⟨.hbm, 141, rfl⟩
abbrev main_c_23 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_c_24 : Ref sig .tc := ⟨.hbm, 148, rfl⟩
abbrev main_v99 : Ref sig .tc := ⟨.hbm, 149, rfl⟩
abbrev main_v100 : Ref sig .tc := ⟨.hbm, 150, rfl⟩
abbrev main_c_25 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_c_26 : Ref sig .tc := ⟨.hbm, 157, rfl⟩
abbrev main_v106 : Ref sig .tc := ⟨.hbm, 158, rfl⟩
abbrev main_v107 : Ref sig .tc := ⟨.hbm, 159, rfl⟩
abbrev main_c_27 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_c_28 : Ref sig .tc := ⟨.hbm, 166, rfl⟩
abbrev main_v113 : Ref sig .tc := ⟨.hbm, 167, rfl⟩
abbrev main_v114 : Ref sig .tc := ⟨.hbm, 168, rfl⟩
abbrev main_c_29 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x64x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S12000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S12000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S12000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S12000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S12000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S12000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S1x100000_1 : S100000.BroadcastsInDim S1x100000 (![1] : Fin 1 → Fin S1x100000.rank)
  concatenates_S1x100000_S1x100000_S2x100000_d0 : Shape.Concatenates [S1x100000, S1x100000] S2x100000 0
  bcast_S2x100000_S2x100000x1_0_1 : S2x100000.BroadcastsInDim S2x100000x1 (![0, 1] : Fin 2 → Fin S2x100000x1.rank)
  bcast_S100000_S100000x1_0 : S100000.BroadcastsInDim S100000x1 (![0] : Fin 1 → Fin S100000x1.rank)
  bcast_S64x64_S1x64x64_1_2 : S64x64.BroadcastsInDim S1x64x64 (![1, 2] : Fin 2 → Fin S1x64x64.rank)
  concatenates_S1x64x64_S1x64x64_S2x64x64_d0 : Shape.Concatenates [S1x64x64, S1x64x64] S2x64x64 0
  bcast_S64_S1x64_1 : S64.BroadcastsInDim S1x64 (![1] : Fin 1 → Fin S1x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x10000x1_S1x10000x1_0_0_0 : ∀ a, (![0, 0, 0] : Fin 3 → Nat) a + S1x10000x1.size a ≤ S1x10000x1.size a
  h_S1x10000x1 : 0 < S1x10000x1.numel
  shapeCasts_S1x10000x1_S10000x1 : S1x10000x1.ShapeCasts S10000x1
  broadcasts_S10000x1_S10000x64 : S10000x1.Broadcasts S10000x64
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  shapeCasts_S10000x64_S1x10000x64 : S10000x64.ShapeCasts S1x10000x64
  slices_S2x100000x64_S1x100000x64_0_0_0 : S2x100000x64.Slices ![0, 0, 0] S1x100000x64
  shapeCasts_S1x100000x64_S100000x64 : S1x100000x64.ShapeCasts S100000x64
  bcast_S_S100000x64 : S_.BroadcastsInDim S100000x64 (![] : Fin 0 → Fin S100000x64.rank)
  slices_S2x100000x64_S1x100000x64_1_0_0 : S2x100000x64.Slices ![1, 0, 0] S1x100000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S10000x64_S10000x64 : S10000x64.ShapeCasts S10000x64
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  reduces_S12000x64_S12000 : S12000x64.Reduces [1] S12000
  shapeCasts_S12000_S12000x1 : S12000.ShapeCasts S12000x1
  inb_S12000x1_S12000x1_0_0 : ∀ a, (![0, 0] : Fin 2 → Nat) a + S12000x1.size a ≤ S12000x1.size a
  h_S12000x1 : 0 < S12000x1.numel
  scatter_S100000_S1200000x1_S1200000_n_0_0_1_wf : ScatterDims.WF S100000 S1200000x1 S1200000 [] [0] [0] 1
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S2x64x64.size a
  hwx0_1 : ∀ i : grid0.Coords, EltTy.bits .f32 = 32 ∨ (Rect.block (s := S2x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x1.size a ≤ S2x100000x1.size a
  hwx0_2 : ∀ i : grid0.Coords, EltTy.bits .f32 = 32 ∨ (Rect.block (s := S2x100000x1) S1x10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10000x64.size a ≤ S2x100000x64.size a
  hwx0_3 : ∀ i : grid0.Coords, EltTy.bits .f32 = 32 ∨ (Rect.block (s := S2x100000x64) S1x10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x64.size a ≤ S2x64x64.size a
  hwx2_1 : ∀ i : grid2.Coords, EltTy.bits .f32 = 32 ∨ (Rect.block (s := S2x64x64) S1x64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x10000x1.size a ≤ S2x100000x1.size a
  hwx2_2 : ∀ i : grid2.Coords, EltTy.bits .f32 = 32 ∨ (Rect.block (s := S2x100000x1) S1x10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x10000x64.size a ≤ S2x100000x64.size a
  hwx2_3 : ∀ i : grid2.Coords, EltTy.bits .f32 = 32 ∨ (Rect.block (s := S2x100000x64) S1x10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12000x64.size a ≤ S1200000x64.size a
  hwx4_0 : ∀ i : grid4.Coords, EltTy.bits .f32 = 32 ∨ (Rect.block (s := S1200000x64) S12000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S12000x64.size a ≤ S1200000x64.size a
  hwx4_1 : ∀ i : grid4.Coords, EltTy.bits .f32 = 32 ∨ (Rect.block (s := S1200000x64) S12000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S12000x1.size a ≤ S1200000x1.size a
  hwx4_2 : ∀ i : grid4.Coords, EltTy.bits .f32 = 32 ∨ (Rect.block (s := S1200000x1) S12000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S12000x64.size a ≤ S1200000x64.size a
  hwx5_0 : ∀ i : grid5.Coords, EltTy.bits .f32 = 32 ∨ (Rect.block (s := S1200000x64) S12000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S12000x64.size a ≤ S1200000x64.size a
  hwx5_1 : ∀ i : grid5.Coords, EltTy.bits .f32 = 32 ∨ (Rect.block (s := S1200000x64) S12000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S12000x1.size a ≤ S1200000x1.size a
  hwx5_2 : ∀ i : grid5.Coords, EltTy.bits .f32 = 32 ∨ (Rect.block (s := S1200000x1) S12000x1.size (cc5_transform_2 i) (hinb5_2 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v65) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v65) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x64x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v38) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v98) S12000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S12000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v120) S12000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v112) S12000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v119) S12000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v121) S12000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩

abbrev nBuf : Space → Nat
  | .hbm => 236
  | .vmem => 0
  | .smem => 0
  | _ => 0

abbrev hbmTy0_0 (i : Nat) : BufTy := match i % 128 with
  | 0 => ⟨S100000x64, .f32⟩
  | 1 => ⟨S1200000, .i32⟩
  | 2 => ⟨S1200000, .i32⟩
  | 3 => ⟨S1200000, .i32⟩
  | 4 => ⟨S1200000, .i32⟩
  | 5 => ⟨S1200000, .i32⟩
  | 6 => ⟨S1200000, .i32⟩
  | 7 => ⟨S64x64, .f32⟩
  | 8 => ⟨S64x64, .f32⟩
  | 9 => ⟨S64x64, .f32⟩
  | 10 => ⟨S64x64, .f32⟩
  | 11 => ⟨S64, .f32⟩
  | 12 => ⟨S64, .f32⟩
  | 13 => ⟨S64, .f32⟩
  | 14 => ⟨S64, .f32⟩
  | 15 => ⟨S_, .f32⟩
  | 16 => ⟨S1200000, .f32⟩
  | 17 => ⟨S_, .f32⟩
  | 18 => ⟨S100000, .f32⟩
  | 19 => ⟨S1200000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S1200000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S100000x64, .f32⟩
  | 34 => ⟨S100000, .f32⟩
  | 35 => ⟨S100000x1, .f32⟩
  | 36 => ⟨S100000x64, .f32⟩
  | 37 => ⟨S100000x64, .f32⟩
  | 38 => ⟨S_, .i32⟩
  | 39 => ⟨S1200000, .i32⟩
  | 40 => ⟨S1200000, .i1⟩
  | 41 => ⟨S_, .i32⟩
  | 42 => ⟨S1200000, .i32⟩
  | 43 => ⟨S1200000, .i32⟩
  | 44 => ⟨S1200000, .i32⟩
  | 45 => ⟨S1200000x1, .i32⟩
  | 46 => ⟨S1200000x64, .f32⟩
  | 47 => ⟨S_, .f32⟩
  | 48 => ⟨S100000x64, .f32⟩
  | 49 => ⟨S1200000x1, .i32⟩
  | 50 => ⟨S100000x64, .f32⟩
  | 51 => ⟨S100000, .f32⟩
  | 52 => ⟨S100000x1, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S_, .f32⟩
  | 59 => ⟨S1200000, .f32⟩
  | 60 => ⟨S_, .f32⟩
  | 61 => ⟨S100000, .f32⟩
  | 62 => ⟨S1200000x1, .i32⟩
  | 63 => ⟨S100000, .f32⟩
  | 64 => ⟨S_, .f32⟩
  | 65 => ⟨S_, .f32⟩
  | 66 => ⟨S100000, .f32⟩
  | 67 => ⟨S100000, .f32⟩
  | 68 => ⟨S_, .f32⟩
  | 69 => ⟨S100000, .f32⟩
  | 70 => ⟨S1200000x1, .i32⟩
  | 71 => ⟨S100000, .f32⟩
  | 72 => ⟨S_, .f32⟩
  | 73 => ⟨S_, .f32⟩
  | 74 => ⟨S100000, .f32⟩
  | 75 => ⟨S100000, .f32⟩
  | 76 => ⟨S100000x64, .f32⟩
  | 77 => ⟨S100000, .f32⟩
  | 78 => ⟨S100000x1, .f32⟩
  | 79 => ⟨S100000x64, .f32⟩
  | 80 => ⟨S100000x64, .f32⟩
  | 81 => ⟨S_, .i32⟩
  | 82 => ⟨S1200000, .i32⟩
  | 83 => ⟨S1200000, .i1⟩
  | 84 => ⟨S_, .i32⟩
  | 85 => ⟨S1200000, .i32⟩
  | 86 => ⟨S1200000, .i32⟩
  | 87 => ⟨S1200000, .i32⟩
  | 88 => ⟨S1200000x1, .i32⟩
  | 89 => ⟨S1200000x64, .f32⟩
  | 90 => ⟨S_, .f32⟩
  | 91 => ⟨S100000x64, .f32⟩
  | 92 => ⟨S1200000x1, .i32⟩
  | 93 => ⟨S100000x64, .f32⟩
  | 94 => ⟨S100000, .f32⟩
  | 95 => ⟨S100000x1, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S_, .f32⟩
  | 106 => ⟨S1200000, .f32⟩
  | 107 => ⟨S_, .f32⟩
  | 108 => ⟨S100000, .f32⟩
  | 109 => ⟨S1200000x1, .i32⟩
  | 110 => ⟨S100000, .f32⟩
  | 111 => ⟨S_, .f32⟩
  | 112 => ⟨S_, .f32⟩
  | 113 => ⟨S100000, .f32⟩
  | 114 => ⟨S100000, .f32⟩
  | 115 => ⟨S_, .f32⟩
  | 116 => ⟨S100000, .f32⟩
  | 117 => ⟨S1200000x1, .i32⟩
  | 118 => ⟨S100000, .f32⟩
  | 119 => ⟨S_, .f32⟩
  | 120 => ⟨S_, .f32⟩
  | 121 => ⟨S100000, .f32⟩
  | 122 => ⟨S100000, .f32⟩
  | 123 => ⟨S100000x64, .f32⟩
  | 124 => ⟨S100000, .f32⟩
  | 125 => ⟨S100000x1, .f32⟩
  | 126 => ⟨S100000x64, .f32⟩
  | 127 => ⟨S100000x64, .f32⟩
  | _ => ⟨S100000x64, .f32⟩

abbrev hbmTy0_1 (i : Nat) : BufTy := match i % 128 with
  | 0 => ⟨S_, .i32⟩
  | 1 => ⟨S1200000, .i32⟩
  | 2 => ⟨S1200000, .i1⟩
  | 3 => ⟨S_, .i32⟩
  | 4 => ⟨S1200000, .i32⟩
  | 5 => ⟨S1200000, .i32⟩
  | 6 => ⟨S1200000, .i32⟩
  | 7 => ⟨S1200000x1, .i32⟩
  | 8 => ⟨S1200000x64, .f32⟩
  | 9 => ⟨S_, .f32⟩
  | 10 => ⟨S100000x64, .f32⟩
  | 11 => ⟨S1200000x1, .i32⟩
  | 12 => ⟨S100000x64, .f32⟩
  | 13 => ⟨S100000, .f32⟩
  | 14 => ⟨S100000x1, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S1200000, .f32⟩
  | 22 => ⟨S_, .f32⟩
  | 23 => ⟨S100000, .f32⟩
  | 24 => ⟨S1200000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S1200000x1, .i32⟩
  | 33 => ⟨S100000, .f32⟩
  | 34 => ⟨S_, .f32⟩
  | 35 => ⟨S_, .f32⟩
  | 36 => ⟨S100000, .f32⟩
  | 37 => ⟨S100000, .f32⟩
  | 38 => ⟨S100000x64, .f32⟩
  | 39 => ⟨S100000, .f32⟩
  | 40 => ⟨S100000x1, .f32⟩
  | 41 => ⟨S100000x64, .f32⟩
  | 42 => ⟨S100000x64, .f32⟩
  | 43 => ⟨S_, .i32⟩
  | 44 => ⟨S1200000, .i32⟩
  | 45 => ⟨S1200000, .i1⟩
  | 46 => ⟨S_, .i32⟩
  | 47 => ⟨S1200000, .i32⟩
  | 48 => ⟨S1200000, .i32⟩
  | 49 => ⟨S1200000, .i32⟩
  | 50 => ⟨S1200000x1, .i32⟩
  | 51 => ⟨S1200000x64, .f32⟩
  | 52 => ⟨S_, .f32⟩
  | 53 => ⟨S100000x64, .f32⟩
  | 54 => ⟨S1200000x1, .i32⟩
  | 55 => ⟨S100000x64, .f32⟩
  | 56 => ⟨S100000, .f32⟩
  | 57 => ⟨S100000x1, .f32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S100000x64, .f32⟩
  | 64 => ⟨S_, .i32⟩
  | 65 => ⟨S1200000, .i32⟩
  | 66 => ⟨S1200000, .i1⟩
  | 67 => ⟨S_, .i32⟩
  | 68 => ⟨S1200000, .i32⟩
  | 69 => ⟨S1200000, .i32⟩
  | 70 => ⟨S1200000, .i32⟩
  | 71 => ⟨S1200000x1, .i32⟩
  | 72 => ⟨S1200000x64, .f32⟩
  | 73 => ⟨S_, .i32⟩
  | 74 => ⟨S1200000, .i32⟩
  | 75 => ⟨S1200000, .i1⟩
  | 76 => ⟨S_, .i32⟩
  | 77 => ⟨S1200000, .i32⟩
  | 78 => ⟨S1200000, .i32⟩
  | 79 => ⟨S1200000, .i32⟩
  | 80 => ⟨S1200000x1, .i32⟩
  | 81 => ⟨S1200000x64, .f32⟩
  | 82 => ⟨S1200000x64, .f32⟩
  | 83 => ⟨S_, .f32⟩
  | 84 => ⟨S1200000, .f32⟩
  | 85 => ⟨S1200000x1, .f32⟩
  | 86 => ⟨S_, .i32⟩
  | 87 => ⟨S1200000, .i32⟩
  | 88 => ⟨S1200000, .i1⟩
  | 89 => ⟨S_, .i32⟩
  | 90 => ⟨S1200000, .i32⟩
  | 91 => ⟨S1200000, .i32⟩
  | 92 => ⟨S1200000, .i32⟩
  | 93 => ⟨S1200000x1, .i32⟩
  | 94 => ⟨S1200000x64, .f32⟩
  | 95 => ⟨S_, .i32⟩
  | 96 => ⟨S1200000, .i32⟩
  | 97 => ⟨S1200000, .i1⟩
  | 98 => ⟨S_, .i32⟩
  | 99 => ⟨S1200000, .i32⟩
  | 100 => ⟨S1200000, .i32⟩
  | 101 => ⟨S1200000, .i32⟩
  | 102 => ⟨S1200000x1, .i32⟩
  | 103 => ⟨S1200000x64, .f32⟩
  | 104 => ⟨S1200000x64, .f32⟩
  | 105 => ⟨S_, .f32⟩
  | 106 => ⟨S1200000, .f32⟩
  | 107 => ⟨S1200000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_8 : Ref sig .tc := ⟨.hbm, 64, rfl⟩
abbrev main_call2_v0 : Ref sig .tc := ⟨.hbm, 65, rfl⟩
abbrev main_call2_v1 : Ref sig .tc := ⟨.hbm, 66, rfl⟩
abbrev main_v35 : Ref sig .tc := ⟨.hbm, 67, rfl⟩
abbrev main_cst_9 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_10 : Ref sig .tc := ⟨.hbm, 72, rfl⟩
abbrev main_call3_v0 : Ref sig .tc := ⟨.hbm, 73, rfl⟩
abbrev main_call3_v1 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_11 : Ref sig .tc := ⟨.hbm, 81, rfl⟩
abbrev main_v45 : Ref sig .tc := ⟨.hbm, 82, rfl⟩
abbrev main_v46 : Ref sig .tc := ⟨.hbm, 83, rfl⟩
abbrev main_c_12 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_13 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call4_cst : Ref sig .tc := ⟨.hbm, 102, rfl⟩
abbrev main_call4_v0 : Ref sig .tc := ⟨.hbm, 103, rfl⟩
abbrev main_v63 : Ref sig .tc := ⟨.hbm, 104, rfl⟩
abbrev main_cst_14 : Ref sig .tc := ⟨.hbm, 105, rfl⟩
abbrev main_v64 : Ref sig .tc := ⟨.hbm, 106, rfl⟩
abbrev main_cst_15 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_16 : Ref sig .tc := ⟨.hbm, 111, rfl⟩
abbrev main_call5_v0 : Ref sig .tc := ⟨.hbm, 112, rfl⟩
abbrev main_call5_v1 : Ref sig .tc := ⟨.hbm, 113, rfl⟩
abbrev main_v68 : Ref sig .tc := ⟨.hbm, 114, rfl⟩
abbrev main_cst_17 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_18 : Ref sig .tc := ⟨.hbm, 119, rfl⟩
abbrev main_call6_v0 : Ref sig .tc := ⟨.hbm, 120, rfl⟩
abbrev main_call6_v1 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_19 : Ref sig .tc := ⟨.hbm, 128, rfl⟩
abbrev main_v78 : Ref sig .tc := ⟨.hbm, 129, rfl⟩
abbrev main_v79 : Ref sig .tc := ⟨.hbm, 130, rfl⟩
abbrev main_c_20 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_21 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_22 : Ref sig .tc := ⟨.hbm, 148, rfl⟩
abbrev main_v95 : Ref sig .tc := ⟨.hbm, 149, rfl⟩
abbrev main_cst_23 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_24 : Ref sig .tc := ⟨.hbm, 154, rfl⟩
abbrev main_call7_v0 : Ref sig .tc := ⟨.hbm, 155, rfl⟩
abbrev main_call7_v1 : Ref sig .tc := ⟨.hbm, 156, rfl⟩
abbrev main_v99 : Ref sig .tc := ⟨.hbm, 157, rfl⟩
abbrev main_cst_25 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_26 : Ref sig .tc := ⟨.hbm, 162, rfl⟩
abbrev main_call8_v0 : Ref sig .tc := ⟨.hbm, 163, rfl⟩
abbrev main_call8_v1 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_c_27 : Ref sig .tc := ⟨.hbm, 171, rfl⟩
abbrev main_v109 : Ref sig .tc := ⟨.hbm, 172, rfl⟩
abbrev main_v110 : Ref sig .tc := ⟨.hbm, 173, rfl⟩
abbrev main_c_28 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_cst_29 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_c_30 : Ref sig .tc := ⟨.hbm, 192, rfl⟩
abbrev main_v127 : Ref sig .tc := ⟨.hbm, 193, rfl⟩
abbrev main_v128 : Ref sig .tc := ⟨.hbm, 194, rfl⟩
abbrev main_c_31 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_c_32 : Ref sig .tc := ⟨.hbm, 201, rfl⟩
abbrev main_v134 : Ref sig .tc := ⟨.hbm, 202, rfl⟩
abbrev main_v135 : Ref sig .tc := ⟨.hbm, 203, rfl⟩
abbrev main_c_33 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_cst_34 : Ref sig .tc := ⟨.hbm, 211, rfl⟩
abbrev main_v142 : Ref sig .tc := ⟨.hbm, 212, rfl⟩
abbrev main_v143 : Ref sig .tc := ⟨.hbm, 213, rfl⟩
abbrev main_c_35 : Ref sig .tc := ⟨.hbm, 214, rfl⟩
abbrev main_v144 : Ref sig .tc := ⟨.hbm, 215, rfl⟩
abbrev main_v145 : Ref sig .tc := ⟨.hbm, 216, rfl⟩
abbrev main_c_36 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_c_37 : Ref sig .tc := ⟨.hbm, 223, rfl⟩
abbrev main_v151 : Ref sig .tc := ⟨.hbm, 224, rfl⟩
abbrev main_v152 : Ref sig .tc := ⟨.hbm, 225, rfl⟩
abbrev main_c_38 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_cst_39 : Ref sig .tc := ⟨.hbm, 233, rfl⟩
abbrev main_v159 : Ref sig .tc := ⟨.hbm, 234, rfl⟩
abbrev main_v160 : Ref sig .tc := ⟨.hbm, 235, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S1200000x64_S1200000_d1 : S1200000x64.ReducesTo [1] S1200000
  h_S_ : 0 < S_.numel
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.RefSpec.lean ====
/-
  The reference network as a composition of named whole-array stages, each written with the host operations the
  reference program applies: the degree factor of an index list (`invDeg`: one over the square root of the
  clamped count), a graph convolution (`conv`: the features times the weight, scaled per source node, gathered
  along the edges' sources and added up at their destinations, scaled per destination node, plus the bias), the hidden
  layer (`hidden`: the two relations' convolutions added, positive part), the output layer (`final`) and the edge score
  (`edgeScore`: the inner product of the two endpoint rows). The reference run's two result terms ARE these
  compositions of the argument arrays.
-/
import proofs.«176044_j68092411510979_2_alg».proof.Proof.Gen.ReferenceIdeal.Run

set_option maxRecDepth 16384

noncomputable section

namespace Cert.ReferenceIdeal.RefSpec

open Cert.ReferenceIdeal Cert.ReferenceIdeal.Gen Idealize.ShloMosaic Idealize.ShloMosaic.TcCoe Idealize.SL.Sem Idealize.ShloMosaic.StableHlo

variable {F : FTy → Type} [FloatOps F]

abbrev Nodes := (⟨S100000x64, .f32⟩ : BufTy).Contents (Elt F)
abbrev Edges := (⟨S1200000x64, .f32⟩ : BufTy).Contents (Elt F)
abbrev NodeVec := (⟨S100000, .f32⟩ : BufTy).Contents (Elt F)
abbrev Weight := (⟨S64x64, .f32⟩ : BufTy).Contents (Elt F)
abbrev Bias := (⟨S64, .f32⟩ : BufTy).Contents (Elt F)
abbrev IdxList := (⟨S1200000, .i32⟩ : BufTy).Contents (Elt F)
abbrev IdxCol := (⟨S1200000x1, .i32⟩ : BufTy).Contents (Elt F)
abbrev Scores := (⟨S1200000x1, .f32⟩ : BufTy).Contents (Elt F)

/-- `rsqrt (max 1 (number of entries of idx equal to n))` at node `n`. -/
def invDeg (idx : IdxList (F := F)) : NodeVec (F := F) :=
  Host.rsqrt (maximumf (broadcastInDim S100000 ![] bcast_S_S100000 (id (constant S_ .f32 0x3F800000#32))) (Host.scatterAdd scatter_S100000_S1200000x1_S1200000_n_0_0_1 (broadcastInDim S100000 ![] bcast_S_S100000 (constant S_ .f32 0x00000000#32)) (broadcastInDim S1200000x1 ![0] bcast_S1200000_S1200000x1_0 idx) (broadcastInDim S1200000 ![] bcast_S_S1200000 (constant S_ .f32 0x3F800000#32))))

/-- A per-node factor repeated along the 64 features. -/
def perNode (v : NodeVec (F := F)) : Nodes (F := F) :=
  broadcastInDim S100000x64 ![0, 1] bcast_S100000x1_S100000x64_0_1 (broadcastInDim S100000x1 ![0] bcast_S100000_S100000x1_0 v)

/-- A per-feature bias repeated along the nodes. -/
def perFeature (b : Bias (F := F)) : Nodes (F := F) :=
  broadcastInDim S100000x64 ![0, 1] bcast_S1x64_S100000x64_0_1 (broadcastInDim S1x64 ![1] bcast_S64_S1x64_1 b)

/-- The index list as a column, a negative entry moved up by the number of nodes. -/
def wrapped (idx : IdxList (F := F)) : IdxCol (F := F) :=
  broadcastInDim S1200000x1 ![0] bcast_S1200000_S1200000x1_0 (select (cmpi .slt idx (broadcastInDim S1200000 ![] bcast_S_S1200000 (constantI S_ 32 0#32))) (addi idx (broadcastInDim S1200000 ![] bcast_S_S1200000 (constantI S_ 32 100000#32))) idx)

/-- The rows of `h` at the listed nodes. -/
def rowsAt (h : Nodes (F := F)) (idx : IdxList (F := F)) : Edges (F := F) :=
  Host.gather gather_S100000x64_S1200000x1_S1200000x64_1_0_n_n_0_1_164 h (wrapped idx)

/-- `(h · W)` scaled per node by the out-degree factor of `src`. -/
def scaledLinear (h : Nodes (F := F)) (W : Weight (F := F)) (src : IdxList (F := F)) : Nodes (F := F) :=
  mulf (Host.dotGeneral dot_S100000x64_S64x64_S100000x64_1_0_0_1_n_n none h W) (perNode (invDeg src))

/-- The messages `hl[src e]` added up at `dst e`. -/
def aggregate (hl : Nodes (F := F)) (src dst : IdxList (F := F)) : Nodes (F := F) :=
  Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 dst) (rowsAt hl src)

/-- One relation's graph convolution. -/
def conv (h : Nodes (F := F)) (W : Weight (F := F)) (b : Bias (F := F)) (src dst : IdxList (F := F)) : Nodes (F := F) :=
  addf (mulf (aggregate (scaledLinear h W src) src dst) (perNode (invDeg dst))) (perFeature b)

/-- The hidden layer: both relations' convolutions of the input features, added, positive part. -/
def hidden (x : Nodes (F := F)) (s0 d0 s1 d1 : IdxList (F := F)) (W0 W1 : Weight (F := F)) (b0 b1 : Bias (F := F)) : Nodes (F := F) :=
  maximumf (addf (conv x W0 b0 s0 d0) (conv x W1 b1 s1 d1)) (broadcastInDim S100000x64 ![] bcast_S_S100000x64 (constant S_ .f32 0x00000000#32))

/-- The output layer: both relations' convolutions of the hidden features, added. -/
def final (h : Nodes (F := F)) (s0 d0 s1 d1 : IdxList (F := F)) (W0 W1 : Weight (F := F)) (b0 b1 : Bias (F := F)) : Nodes (F := F) :=
  addf (conv h W0 b0 s0 d0) (conv h W1 b1 s1 d1)

/-- The score of every edge `(s e, d e)`: the inner product of the two endpoint rows. -/
def edgeScore (h : Nodes (F := F)) (s d : IdxList (F := F)) : Scores (F := F) :=
  broadcastInDim S1200000x1 ![0] bcast_S1200000_S1200000x1_0 (Host.reduceAdd (mulf (rowsAt h s) (rowsAt h d)) (constant S_ .f32 0x00000000#32) reducesTo_S1200000x64_S1200000_d1 h_S_)

/-- The whole network's node features, as a function of the argument arrays. -/
def network (x : Nodes (F := F)) (s0 d0 s1 d1 : IdxList (F := F)) (W10 W11 W20 W21 : Weight (F := F)) (b10 b11 b20 b21 : Bias (F := F)) : Nodes (F := F) :=
  final (hidden x s0 d0 s1 d1 W10 W11 b10 b11) s0 d0 s1 d1 W20 W21 b20 b21

variable (m : (ℓ : Loc nD τ sig) → Buf (Elt F) ℓ) (c : Dev nD)

/-- The node features the reference computes from the launch memory. -/
abbrev networkOf : Nodes (F := F) :=
  network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg7)) (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13)) (m ((c.tc : Thread nD τ).loc main_arg14))

/-- The reference's first result is the score of the first relation's edges. -/
theorem res_pos : Value.res_main_v143 m c = edgeScore (networkOf m c) (m ((c.tc : Thread nD τ).loc main_arg1)) (m ((c.tc : Thread nD τ).loc main_arg2)) := rfl

/-- The reference's second result is the score of the sampled negative edges. -/
theorem res_neg : Value.res_main_v160 m c = edgeScore (networkOf m c) (m ((c.tc : Thread nD τ).loc main_arg5)) (m ((c.tc : Thread nD τ).loc main_arg6)) := rfl

end Cert.ReferenceIdeal.RefSpec

end
-- ==== Proof.RunResults.lean ====
/-
  The run of the idealized kernel program with its two results NAMED: every weakly fair execution of @main
  terminates, nothing faulting, the two score arrays end at what the last boundary of the program's fold through
  its host stretches and its six regions holds for them, and the fifteen argument arrays end as launched.
  The fold's last boundary is opened, region by region, in the modules that import this one.
-/
import proofs.«176044_j68092411510979_2_alg».proof.Proof.Gen.KernelIdeal.Frame

set_option maxRecDepth 16384

noncomputable section

namespace Cert.KernelIdeal.RunResults

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents; read at the two result buffers and at the arguments. -/
theorem run_results : θ_run defs (onTc (τ := τ) (main (F := F))) ⟨m, fun _ => 0, ρ⟩ (fun r => ∀ c : Dev nD,
      r.2.mem ((c.tc : Thread nD τ).loc main_v120) = W18 m ρ c (Proc.devRef .tc main_v120)
      ∧ r.2.mem ((c.tc : Thread nD τ).loc main_v121) = W18 m ρ c (Proc.devRef .tc main_v121)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v120 (by decide)),
       h c _ (mem_uc main_v121 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c)⟩)

end Cert.KernelIdeal.RunResults

end
-- ==== Proof.Spec.lean ====
/-
  The three dense computations of the message-passing network, each as ONE function of whole arrays, index by index,
  on the extended reals.

  * `linScale x W s`: for each relation `r`, node `n` and feature `d`, the row `x[n, ·]` times the column
    `W[r, ·, d]`, scaled by the node's out-degree factor `s[r, n, 0]`.
  * `combine relu a0 a1 s0 s1 b0 b1`: the two relations' aggregated messages, each scaled by its in-degree factor and
    shifted by its bias, added; with `relu`, the positive part.
  * `score hs hd`: the inner product over the 64 features of the two endpoint rows of an edge.
-/
import Idealize.ShloMosaic.PureOps.Ideal
import Idealize.ShloMosaic.Lib.ValueIdx

noncomputable section

namespace Cert.Spec

open Idealize.ShloMosaic Idealize.ShloMosaic.ValueIdx

/-- `out[r, n, d] = (∑ k, x[n, k] · W[r, k, d]) · s[r, n, 0]`. -/
def linScale (x : FVec Ideal ⟨2, ![100000, 64]⟩ .f32) (W : FVec Ideal ⟨3, ![2, 64, 64]⟩ .f32)
    (s : FVec Ideal ⟨3, ![2, 100000, 1]⟩ .f32) : FVec Ideal ⟨3, ![2, 100000, 64]⟩ .f32 :=
  fun i => (∑ k : Fin 64, x (ix2 (i 1) k) * W (ix3 (i 0) k (i 2))) * s (ix3 (i 0) (i 1) 0)

/-- `out[n, d] = (a0[n, d] · s0[n, 0] + b0[0, d]) + (a1[n, d] · s1[n, 0] + b1[0, d])`, and its maximum with `0` when `relu`. -/
def combine (relu : Bool) (a0 a1 : FVec Ideal ⟨2, ![100000, 64]⟩ .f32) (s0 s1 : FVec Ideal ⟨2, ![100000, 1]⟩ .f32)
    (b0 b1 : FVec Ideal ⟨2, ![1, 64]⟩ .f32) : FVec Ideal ⟨2, ![100000, 64]⟩ .f32 :=
  fun i =>
    let v : EReal := (a0 (ix2 (i 0) (i 1)) * s0 (ix2 (i 0) 0) + b0 (ix2 0 (i 1))) + (a1 (ix2 (i 0) (i 1)) * s1 (ix2 (i 0) 0) + b1 (ix2 0 (i 1)))
    if relu then max v 0 else v

/-- `out[e, 0] = ∑ d, hs[e, d] · hd[e, d]`. -/
def score (hs hd : FVec Ideal ⟨2, ![1200000, 64]⟩ .f32) : FVec Ideal ⟨2, ![1200000, 1]⟩ .f32 :=
  fun i => ∑ d : Fin 64, hs (ix2 (i 0) d) * hd (ix2 (i 0) d)

end Cert.Spec

end
-- ==== Proof.HostForms.lean ====
/-
  The three dense computations (`Cert.Spec`), fed with the host's stacked and re-laid operands, ARE the reference's
  host operations on the unstacked ones: relation `r`'s slab of the stacked product-and-scale is `(x · W_r)` scaled per
  node; the two-relation combination is the sum of the two scaled-and-shifted aggregates (and its positive part); the
  edge score is the host's sum over the features of the product of the two row lists.

  Each statement is proved index by index: a layout operation (a broadcast that adds or repeats an axis, a two-piece
  concatenation along a new leading axis, a unit-stride slice, a re-laying that drops a leading unit axis) reads ONE
  element of its operand, the host's contraction is the sum over the 64 contracted coordinates of the products, and
  the host's sum over the features is its zero initial value plus the sum over the 64 features.
-/
import proofs.«176044_j68092411510979_2_alg».proof.KernelIdeal
import proofs.«176044_j68092411510979_2_alg».proof.Proof.Gen.KernelIdeal
import proofs.«176044_j68092411510979_2_alg».proof.Proof.RefSpec
import proofs.«176044_j68092411510979_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.HostForms

open Idealize.ShloMosaic Idealize.ShloMosaic.ValueIdx
open Cert.ReferenceIdeal.RefSpec

/-- The two weights stacked along a new leading axis. -/
abbrev stackW (W0 W1 : FVec Ideal Cert.KernelIdeal.S64x64 .f32) : FVec Ideal Cert.KernelIdeal.S2x64x64 .f32 :=
  concatenate Cert.KernelIdeal.S2x64x64 0 [⟨Cert.KernelIdeal.S1x64x64, broadcastInDim Cert.KernelIdeal.S1x64x64 ![1, 2] Cert.KernelIdeal.Gen.bcast_S64x64_S1x64x64_1_2 W0⟩, ⟨Cert.KernelIdeal.S1x64x64, broadcastInDim Cert.KernelIdeal.S1x64x64 ![1, 2] Cert.KernelIdeal.Gen.bcast_S64x64_S1x64x64_1_2 W1⟩] Cert.KernelIdeal.Gen.concatenates_S1x64x64_S1x64x64_S2x64x64_d0

/-- The two per-node factors stacked along a new leading axis, with a trailing unit axis. -/
abbrev stackV (v0 v1 : FVec Ideal Cert.KernelIdeal.S100000 .f32) : FVec Ideal Cert.KernelIdeal.S2x100000x1 .f32 :=
  broadcastInDim Cert.KernelIdeal.S2x100000x1 ![0, 1] Cert.KernelIdeal.Gen.bcast_S2x100000_S2x100000x1_0_1 (concatenate Cert.KernelIdeal.S2x100000 0 [⟨Cert.KernelIdeal.S1x100000, broadcastInDim Cert.KernelIdeal.S1x100000 ![1] Cert.KernelIdeal.Gen.bcast_S100000_S1x100000_1 v0⟩, ⟨Cert.KernelIdeal.S1x100000, broadcastInDim Cert.KernelIdeal.S1x100000 ![1] Cert.KernelIdeal.Gen.bcast_S100000_S1x100000_1 v1⟩] Cert.KernelIdeal.Gen.concatenates_S1x100000_S1x100000_S2x100000_d0)

/-! ## The broadcasts that add a unit axis, read at an index -/

section Reads
variable {α : Type}

/-- A list of `N` entries as an `[N, 1]` column reads its entry. -/
theorem col_apply {N : Nat} (hN : N ≠ 1) (h : (⟨1, ![N]⟩ : Shape).BroadcastsInDim ⟨2, ![N, 1]⟩ ![0])
    (v : (⟨1, ![N]⟩ : Shape).Idx → α) (n : Fin N) (z : Fin 1) :
    broadcastInDim ⟨2, ![N, 1]⟩ ![0] h v (ix2 n z) = v (ix1 n) :=
  broadcastInDim_apply _ h v (ix2 n z) (ix1 n) (fun a => match a with
    | ⟨0, _⟩ => by show n.val = if N = 1 then 0 else n.val; rw [if_neg hN])

/-- A list of `N` entries as a `[1, N]` row reads its entry. -/
theorem row_apply {N : Nat} (hN : N ≠ 1) (h : (⟨1, ![N]⟩ : Shape).BroadcastsInDim ⟨2, ![1, N]⟩ ![1])
    (v : (⟨1, ![N]⟩ : Shape).Idx → α) (z : Fin 1) (n : Fin N) :
    broadcastInDim ⟨2, ![1, N]⟩ ![1] h v (ix2 z n) = v (ix1 n) :=
  broadcastInDim_apply _ h v (ix2 z n) (ix1 n) (fun a => match a with
    | ⟨0, _⟩ => by show n.val = if N = 1 then 0 else n.val; rw [if_neg hN])

/-- A column repeated along `D` features reads its row's entry. -/
theorem colRep_apply {N D : Nat} (hN : N ≠ 1) (h : (⟨2, ![N, 1]⟩ : Shape).BroadcastsInDim ⟨2, ![N, D]⟩ ![0, 1])
    (v : (⟨2, ![N, 1]⟩ : Shape).Idx → α) (n : Fin N) (d : Fin D) :
    broadcastInDim ⟨2, ![N, D]⟩ ![0, 1] h v (ix2 n d) = v (ix2 n 0) :=
  broadcastInDim_apply _ h v (ix2 n d) (ix2 n 0) (fun a => match a with
    | ⟨0, _⟩ => by show n.val = if N = 1 then 0 else n.val; rw [if_neg hN]
    | ⟨1, _⟩ => by show (0 : Nat) = if (1 : Nat) = 1 then 0 else d.val; rw [if_pos rfl])

/-- A row repeated along `N` nodes reads its column's entry. -/
theorem rowRep_apply {N D : Nat} (hD : D ≠ 1) (h : (⟨2, ![1, D]⟩ : Shape).BroadcastsInDim ⟨2, ![N, D]⟩ ![0, 1])
    (v : (⟨2, ![1, D]⟩ : Shape).Idx → α) (n : Fin N) (d : Fin D) :
    broadcastInDim ⟨2, ![N, D]⟩ ![0, 1] h v (ix2 n d) = v (ix2 0 d) :=
  broadcastInDim_apply _ h v (ix2 n d) (ix2 0 d) (fun a => match a with
    | ⟨0, _⟩ => by show (0 : Nat) = if (1 : Nat) = 1 then 0 else n.val; rw [if_pos rfl]
    | ⟨1, _⟩ => by show d.val = if D = 1 then 0 else d.val; rw [if_neg hD])

end Reads

/-- The per-node factor repeated along the features reads the node's factor. -/
theorem perNode_apply (v : FVec Ideal Cert.ReferenceIdeal.S100000 .f32) (n : Fin 100000) (d : Fin 64) :
    perNode (F := Ideal) v (ix2 n d) = v (ix1 n) := by
  unfold perNode
  rw [colRep_apply (by decide), col_apply (by decide)]

/-- The per-feature bias repeated along the nodes reads the feature's bias. -/
theorem perFeature_apply (b : FVec Ideal Cert.ReferenceIdeal.S64 .f32) (n : Fin 100000) (d : Fin 64) :
    perFeature (F := Ideal) b (ix2 n d) = b (ix1 d) := by
  unfold perFeature
  rw [rowRep_apply (by decide), row_apply (by decide)]

/-- The zero splat reads zero. -/
theorem zeros_apply (i : Cert.ReferenceIdeal.S100000x64.Idx) :
    broadcastInDim Cert.ReferenceIdeal.S100000x64 ![] Cert.ReferenceIdeal.Gen.bcast_S_S100000x64 (constant (F := Ideal) Cert.ReferenceIdeal.S_ .f32 0x00000000#32) i = 0 := by
  rw [broadcastInDim_apply _ _ _ i ix0 (fun a => a.elim0), constant_apply, Ideal.ofBits_zero_f32]

local notation "D₁" => Cert.ReferenceIdeal.dot_S100000x64_S64x64_S100000x64_1_0_0_1_n_n

/-- The left operand's index of the product: the node, … -/
theorem lhs0 (i : Cert.ReferenceIdeal.S100000x64.Idx) (q : (D₁).contr.Idx) : (DotDims.lhsIdx D₁ i q 0).val = (i 0).val := by
  unfold DotDims.lhsIdx
  rw [dif_neg (show ¬(0 : Fin Cert.ReferenceIdeal.S100000x64.rank) ∈ (D₁).lhsBatch by decide),
    dif_pos (show (0 : Fin Cert.ReferenceIdeal.S100000x64.rank) ∈ (D₁).lhsNonContracting by decide)]
  rfl
/-- … and the right operand's: the feature. -/
theorem rhs1 (i : Cert.ReferenceIdeal.S100000x64.Idx) (q : (D₁).contr.Idx) : (DotDims.rhsIdx D₁ i q 1).val = (i 1).val := by
  unfold DotDims.rhsIdx
  rw [dif_neg (show ¬(1 : Fin Cert.ReferenceIdeal.S64x64.rank) ∈ (D₁).rhsBatch by decide),
    dif_pos (show (1 : Fin Cert.ReferenceIdeal.S64x64.rank) ∈ (D₁).rhsNonContracting by decide)]
  rfl

/-- The reference's product of the features with one weight, read at an index: the row times the column. -/
theorem dot_apply (x : FVec Ideal Cert.ReferenceIdeal.S100000x64 .f32) (W : FVec Ideal Cert.ReferenceIdeal.S64x64 .f32) (n : Fin 100000) (d : Fin 64) :
    Host.dotGeneral D₁ none x W (ix2 n d) = ∑ k : Fin 64, x (ix2 n k) * W (ix2 k d) := by
  simp only [Host.dotGeneral]
  rw [Ideal.dotGeneral_apply, ← Equiv.sum_comp (contrEquiv1 D₁ 64 rfl rfl).symm]
  refine Finset.sum_congr rfl fun k _ => ?_
  have hk := contrEquiv1_symm_val D₁ 64 rfl rfl k
  have el : DotDims.lhsIdx D₁ (ix2 n d) ((contrEquiv1 D₁ 64 rfl rfl).symm k) = ix2 n k := funext fun a => Fin.ext (by
    match a with
    | ⟨0, _⟩ => exact lhs0 _ _
    | ⟨1, _⟩ => exact (DotDims.lhsIdx_val_of_single D₁ rfl _ _).trans hk)
  have er : DotDims.rhsIdx D₁ (ix2 n d) ((contrEquiv1 D₁ 64 rfl rfl).symm k) = ix2 k d := funext fun a => Fin.ext (by
    match a with
    | ⟨0, _⟩ => exact (DotDims.rhsIdx_val_of_single D₁ rfl _ _).trans hk
    | ⟨1, _⟩ => exact rhs1 _ _)
  rw [el, er]

/-- A weight given a leading unit axis reads the weight. -/
theorem unitW_apply (W : FVec Ideal Cert.KernelIdeal.S64x64 .f32) (z : Fin 1) (k d : Fin 64) :
    broadcastInDim Cert.KernelIdeal.S1x64x64 ![1, 2] Cert.KernelIdeal.Gen.bcast_S64x64_S1x64x64_1_2 W (ix3 z k d) = W (ix2 k d) :=
  broadcastInDim_apply _ _ W (ix3 z k d) (ix2 k d) (fun a => match a with
    | ⟨0, _⟩ => by show k.val = if (64 : Nat) = 1 then 0 else k.val; rw [if_neg (by decide)]
    | ⟨1, _⟩ => by show d.val = if (64 : Nat) = 1 then 0 else d.val; rw [if_neg (by decide)])

/-- The stacked weights' slab 0 is the first weight. -/
theorem stackW_apply0 (W0 W1 : FVec Ideal Cert.KernelIdeal.S64x64 .f32) (k d : Fin 64) :
    stackW W0 W1 (ix3 0 k d) = W0 (ix2 k d) := by
  unfold stackW
  rw [concatenate_pair_apply_left (t := Cert.KernelIdeal.S2x64x64) (s₁ := Cert.KernelIdeal.S1x64x64) (s₂ := Cert.KernelIdeal.S1x64x64) 0 _ _ _ (ix3 (0 : Fin 2) k d) rfl (ix3 (0 : Fin 1) k d) (fun b => match b with
    | ⟨0, _⟩ => rfl | ⟨1, _⟩ => rfl | ⟨2, _⟩ => rfl)]
  exact unitW_apply W0 0 k d

/-- The stacked weights' slab 1 is the second weight. -/
theorem stackW_apply1 (W0 W1 : FVec Ideal Cert.KernelIdeal.S64x64 .f32) (k d : Fin 64) :
    stackW W0 W1 (ix3 1 k d) = W1 (ix2 k d) := by
  unfold stackW
  rw [concatenate_pair_apply_right (t := Cert.KernelIdeal.S2x64x64) (s₁ := Cert.KernelIdeal.S1x64x64) (s₂ := Cert.KernelIdeal.S1x64x64) 0 _ _ _ (ix3 (1 : Fin 2) k d) rfl rfl (ix3 (0 : Fin 1) k d) (fun b => match b with
    | ⟨0, _⟩ => fun h => absurd rfl h | ⟨1, _⟩ => fun _ => rfl | ⟨2, _⟩ => fun _ => rfl) rfl]
  exact unitW_apply W1 0 k d

/-- The stacked factors, as a column per relation, read the stacked list. -/
theorem stackCol_apply (C : FVec Ideal Cert.KernelIdeal.S2x100000 .f32) (r : Fin 2) (n : Fin 100000) (z : Fin 1) :
    broadcastInDim Cert.KernelIdeal.S2x100000x1 ![0, 1] Cert.KernelIdeal.Gen.bcast_S2x100000_S2x100000x1_0_1 C (ix3 r n z) = C (ix2 r n) :=
  broadcastInDim_apply _ _ C (ix3 r n z) (ix2 r n) (fun a => match a with
    | ⟨0, _⟩ => by show r.val = if (2 : Nat) = 1 then 0 else r.val; rw [if_neg (by decide)]
    | ⟨1, _⟩ => by show n.val = if (100000 : Nat) = 1 then 0 else n.val; rw [if_neg (by decide)])

/-- The stacked factors' slab 0 is the first list. -/
theorem stackV_apply0 (v0 v1 : FVec Ideal Cert.KernelIdeal.S100000 .f32) (n : Fin 100000) (z : Fin 1) :
    stackV v0 v1 (ix3 0 n z) = v0 (ix1 n) := by
  unfold stackV
  rw [stackCol_apply, concatenate_pair_apply_left (t := Cert.KernelIdeal.S2x100000) (s₁ := Cert.KernelIdeal.S1x100000) (s₂ := Cert.KernelIdeal.S1x100000) 0 _ _ _ (ix2 (0 : Fin 2) n) rfl (ix2 (0 : Fin 1) n) (fun b => match b with
    | ⟨0, _⟩ => rfl | ⟨1, _⟩ => rfl)]
  exact row_apply (by decide) _ v0 0 n

/-- The stacked factors' slab 1 is the second list. -/
theorem stackV_apply1 (v0 v1 : FVec Ideal Cert.KernelIdeal.S100000 .f32) (n : Fin 100000) (z : Fin 1) :
    stackV v0 v1 (ix3 1 n z) = v1 (ix1 n) := by
  unfold stackV
  rw [stackCol_apply, concatenate_pair_apply_right (t := Cert.KernelIdeal.S2x100000) (s₁ := Cert.KernelIdeal.S1x100000) (s₂ := Cert.KernelIdeal.S1x100000) 0 _ _ _ (ix2 (1 : Fin 2) n) rfl rfl (ix2 (0 : Fin 1) n) (fun b => match b with
    | ⟨0, _⟩ => fun h => absurd rfl h | ⟨1, _⟩ => fun _ => rfl) rfl]
  exact row_apply (by decide) _ v1 0 n

/-- A `[1, N, D]` slab re-laid as `[N, D]` reads the same node and feature. -/
theorem relaid_apply (y : FVec Ideal Cert.KernelIdeal.S1x100000x64 .f32) (n : Fin 100000) (d : Fin 64) :
    shapeCast Cert.KernelIdeal.S100000x64 y Cert.KernelIdeal.Gen.shapeCasts_S1x100000x64_S100000x64 (ix2 n d) = y (ix3 0 n d) :=
  shapeCast_apply y _ (ix2 n d) (ix3 0 n d) (by
    rw [Shape.rowMajor_val_three, Shape.rowMajor_val_two]
    show (0 * 100000 + n.val) * 64 + d.val = n.val * 64 + d.val
    omega)

/-- Relation 0's slab of the stacked product. -/
theorem slab0 (x : FVec Ideal Cert.KernelIdeal.S100000x64 .f32) (W0 W1 : FVec Ideal Cert.KernelIdeal.S64x64 .f32) (v0 v1 : FVec Ideal Cert.KernelIdeal.S100000 .f32) :
    (fun i => shapeCast Cert.KernelIdeal.S100000x64 (extractStridedSlice Cert.KernelIdeal.S1x100000x64 ![0, 0, 0] (Cert.Spec.linScale x (stackW W0 W1) (stackV v0 v1)) Cert.KernelIdeal.Gen.slices_S2x100000x64_S1x100000x64_0_0_0) Cert.KernelIdeal.Gen.shapeCasts_S1x100000x64_S100000x64 i)
      = mulf (Host.dotGeneral Cert.ReferenceIdeal.dot_S100000x64_S64x64_S100000x64_1_0_0_1_n_n none x W0) (perNode (F := Ideal) v0) := by
  funext i
  obtain ⟨n, d, rfl⟩ : ∃ (n : Fin 100000) (d : Fin 64), i = ix2 n d := ⟨i 0, i 1, eq_ix2 i⟩
  rw [mulf_apply, dot_apply, perNode_apply]
  show shapeCast Cert.KernelIdeal.S100000x64 _ _ (ix2 n d) = _
  rw [relaid_apply, extractStridedSlice_apply _ _ _ (ix3 (0 : Fin 1) n d) (ix3 (0 : Fin 2) n d) (fun a => match a with
    | ⟨0, _⟩ => rfl
    | ⟨1, _⟩ => by show n.val = 0 + n.val; omega
    | ⟨2, _⟩ => by show d.val = 0 + d.val; omega)]
  show (∑ k : Fin 64, x (ix2 n k) * stackW W0 W1 (ix3 0 k d)) * stackV v0 v1 (ix3 0 n 0) = _
  simp only [stackW_apply0, stackV_apply0]

/-- Relation 1's slab of the stacked product. -/
theorem slab1 (x : FVec Ideal Cert.KernelIdeal.S100000x64 .f32) (W0 W1 : FVec Ideal Cert.KernelIdeal.S64x64 .f32) (v0 v1 : FVec Ideal Cert.KernelIdeal.S100000 .f32) :
    (fun i => shapeCast Cert.KernelIdeal.S100000x64 (extractStridedSlice Cert.KernelIdeal.S1x100000x64 ![1, 0, 0] (Cert.Spec.linScale x (stackW W0 W1) (stackV v0 v1)) Cert.KernelIdeal.Gen.slices_S2x100000x64_S1x100000x64_1_0_0) Cert.KernelIdeal.Gen.shapeCasts_S1x100000x64_S100000x64 i)
      = mulf (Host.dotGeneral Cert.ReferenceIdeal.dot_S100000x64_S64x64_S100000x64_1_0_0_1_n_n none x W1) (perNode (F := Ideal) v1) := by
  funext i
  obtain ⟨n, d, rfl⟩ : ∃ (n : Fin 100000) (d : Fin 64), i = ix2 n d := ⟨i 0, i 1, eq_ix2 i⟩
  rw [mulf_apply, dot_apply, perNode_apply]
  show shapeCast Cert.KernelIdeal.S100000x64 _ _ (ix2 n d) = _
  rw [relaid_apply, extractStridedSlice_apply _ _ _ (ix3 (0 : Fin 1) n d) (ix3 (1 : Fin 2) n d) (fun a => match a with
    | ⟨0, _⟩ => rfl
    | ⟨1, _⟩ => by show n.val = 0 + n.val; omega
    | ⟨2, _⟩ => by show d.val = 0 + d.val; omega)]
  show (∑ k : Fin 64, x (ix2 n k) * stackW W0 W1 (ix3 1 k d)) * stackV v0 v1 (ix3 1 n 0) = _
  simp only [stackW_apply1, stackV_apply1]

/-- The combination with the positive part is the reference's hidden-layer expression. -/
theorem combine_relu (a0 a1 : FVec Ideal Cert.KernelIdeal.S100000x64 .f32) (v0 v1 : FVec Ideal Cert.KernelIdeal.S100000 .f32) (b0 b1 : FVec Ideal Cert.KernelIdeal.S64 .f32) :
    Cert.Spec.combine true a0 a1 (broadcastInDim Cert.KernelIdeal.S100000x1 ![0] Cert.KernelIdeal.Gen.bcast_S100000_S100000x1_0 v0) (broadcastInDim Cert.KernelIdeal.S100000x1 ![0] Cert.KernelIdeal.Gen.bcast_S100000_S100000x1_0 v1)
        (broadcastInDim Cert.KernelIdeal.S1x64 ![1] Cert.KernelIdeal.Gen.bcast_S64_S1x64_1 b0) (broadcastInDim Cert.KernelIdeal.S1x64 ![1] Cert.KernelIdeal.Gen.bcast_S64_S1x64_1 b1)
      = maximumf (addf (addf (mulf a0 (perNode (F := Ideal) v0)) (perFeature (F := Ideal) b0)) (addf (mulf a1 (perNode (F := Ideal) v1)) (perFeature (F := Ideal) b1)))
          (broadcastInDim Cert.ReferenceIdeal.S100000x64 ![] Cert.ReferenceIdeal.Gen.bcast_S_S100000x64 (constant Cert.ReferenceIdeal.S_ .f32 0x00000000#32)) := by
  funext i
  obtain ⟨n, d, rfl⟩ : ∃ (n : Fin 100000) (d : Fin 64), i = ix2 n d := ⟨i 0, i 1, eq_ix2 i⟩
  rw [maximumf_apply, zeros_apply, addf_apply, addf_apply, addf_apply, mulf_apply, mulf_apply,
    perNode_apply, perNode_apply, perFeature_apply, perFeature_apply]
  unfold Cert.Spec.combine
  show (if true = true then max _ 0 else _) = _
  rw [if_pos rfl, col_apply (by decide), col_apply (by decide), row_apply (by decide), row_apply (by decide)]

/-- The combination without it is the reference's output-layer expression. -/
theorem combine_plain (a0 a1 : FVec Ideal Cert.KernelIdeal.S100000x64 .f32) (v0 v1 : FVec Ideal Cert.KernelIdeal.S100000 .f32) (b0 b1 : FVec Ideal Cert.KernelIdeal.S64 .f32) :
    Cert.Spec.combine false a0 a1 (broadcastInDim Cert.KernelIdeal.S100000x1 ![0] Cert.KernelIdeal.Gen.bcast_S100000_S100000x1_0 v0) (broadcastInDim Cert.KernelIdeal.S100000x1 ![0] Cert.KernelIdeal.Gen.bcast_S100000_S100000x1_0 v1)
        (broadcastInDim Cert.KernelIdeal.S1x64 ![1] Cert.KernelIdeal.Gen.bcast_S64_S1x64_1 b0) (broadcastInDim Cert.KernelIdeal.S1x64 ![1] Cert.KernelIdeal.Gen.bcast_S64_S1x64_1 b1)
      = addf (addf (mulf a0 (perNode (F := Ideal) v0)) (perFeature (F := Ideal) b0)) (addf (mulf a1 (perNode (F := Ideal) v1)) (perFeature (F := Ideal) b1)) := by
  funext i
  obtain ⟨n, d, rfl⟩ : ∃ (n : Fin 100000) (d : Fin 64), i = ix2 n d := ⟨i 0, i 1, eq_ix2 i⟩
  rw [addf_apply, addf_apply, addf_apply, mulf_apply, mulf_apply,
    perNode_apply, perNode_apply, perFeature_apply, perFeature_apply]
  unfold Cert.Spec.combine
  show (if false = true then max _ 0 else _) = _
  rw [if_neg (by decide), col_apply (by decide), col_apply (by decide), row_apply (by decide), row_apply (by decide)]

/-- The edge score is the host's feature sum of the product, as a column. -/
theorem score_host (hs hd : FVec Ideal Cert.KernelIdeal.S1200000x64 .f32) :
    Cert.Spec.score hs hd
      = broadcastInDim Cert.ReferenceIdeal.S1200000x1 ![0] Cert.ReferenceIdeal.Gen.bcast_S1200000_S1200000x1_0 (Host.reduceAdd (mulf hs hd) (constant Cert.ReferenceIdeal.S_ .f32 0x00000000#32) Cert.ReferenceIdeal.Gen.reducesTo_S1200000x64_S1200000_d1 Cert.ReferenceIdeal.Gen.h_S_) := by
  funext i
  obtain ⟨e, z, rfl⟩ : ∃ (e : Fin 1200000) (z : Fin 1), i = ix2 e z := ⟨i 0, i 1, eq_ix2 i⟩
  rw [col_apply (by decide)]
  simp only [Host.reduceAdd, Ideal.hostReduceAdd_def]
  rw [Ideal.hostReduceAdd_single Cert.ReferenceIdeal.Gen.reducesTo_S1200000x64_S1200000_d1 (by decide)]
  rw [constant_apply, Ideal.ofBits_zero_f32, zero_add]
  refine Finset.sum_congr rfl fun d _ => ?_
  rw [mulf_apply]
  have e1 : ∀ y : FVec Ideal Cert.KernelIdeal.S1200000x64 .f32, y (ix2 e d) = y ((by decide : Shape.Reduces Cert.ReferenceIdeal.S1200000x64 [1] Cert.ReferenceIdeal.S1200000).lift (ix1 e) d) := fun y =>
    congrArg y (funext fun a => Fin.ext (by match a with | ⟨0, _⟩ => rfl | ⟨1, _⟩ => rfl))
  rw [e1 hs, e1 hd]

end Cert.HostForms

end
-- ==== Proof.RegionLin.lean ====
/-
  The two regions that run the scaled linear map (regions 0 and 2): from what each grid point writes back to the whole
  output array.

  A grid point is a relation `r` and a block `b` of 10000 nodes. The body multiplies the point's `[10000, 64]` block of node
  features by the relation's `[64, 64]` weight matrix and scales row `p` of the product by the node's degree factor. Read at
  one entry, that is entry `(r, 10000·b + p, d)` of `Spec.linScale` of the three whole arrays; the 20 output blocks tile the
  `[2, 100000, 64]` array, so after the region the array is `Spec.linScale` of the arrays the region found.
-/
import proofs.«176044_j68092411510979_2_alg».proof.Proof.Gen.KernelIdeal.Frame
import proofs.«176044_j68092411510979_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/-! ## One column broadcast along the features -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The row-by-matrix product at an entry -/

/-- The dot's left operand index at output `i` and contraction index `q`: row `i 0` … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … column `q`; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand's: row `q` … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … column `i 1`. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product of a `[10000, 64]` block with a `[64, 64]` matrix into the zero accumulator, at entry `(p, d)`: row `p`
    of the block times column `d` of the matrix. -/
theorem matmul_entry {φ₁ φ₂ : FTy} (x : FVec Ideal S10000x64 φ₁) (w : FVec Ideal S64x64 φ₂) (p : Fin 10000) (d : Fin 64) :
    matmul dot_S10000x64_S64x64_S10000x64_1_0_0_1_n_n none x w (constant (F := Ideal) S10000x64 .f32 0x00000000#32) (ix2 p d)
      = ∑ k : Fin 64, x (ix2 p k) * w (ix2 k d) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p d) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p d) ((ValueIdx.contrEquiv1 dot_S10000x64_S64x64_S10000x64_1_0_0_1_n_n 64 rfl rfl).symm k) = ix2 k d := funext fun a => Fin.ext (by
    match a with
    | ⟨0, _⟩ => exact (rhs_row _ _).trans hk
    | ⟨1, _⟩ => exact rhs_col _ _)
  rw [el, er]

/-! ## The body's payload at an entry -/

/-- Region 0's body at entry `(u, p, d)` of its output block: row `p` of the node block times column `d` of the relation's
    weight matrix, scaled by the node's degree factor. -/
theorem pay0_entry (x : Vec Ideal S10000x64 .f32) (w : Vec Ideal S1x64x64 .f32) (s : Vec Ideal S1x10000x1 .f32)
    (u : Fin 1) (p : Fin 10000) (d : Fin 64) :
    k0_pay1 x w s (ix3 u p d) = (∑ k : Fin 64, x (ix2 p k) * w (ix3 (0 : Fin 1) k d)) * s (ix3 (0 : Fin 1) p (0 : Fin 1)) := by
  unfold k0_pay1
  refine (shapeCast_ab_1ab_apply _ shapeCasts_S10000x64_S1x10000x64 u p d).trans ?_
  refine (mulf_apply _ _ (ix2 p d)).trans ?_
  refine congrArg₂ (· * ·) ?_ ?_
  · refine (matmul_entry _ _ p d).trans ?_
    refine Finset.sum_congr rfl fun k _ => ?_
    refine congrArg₂ (· * ·) rfl ?_
    exact shapeCast_1ab_ab_apply w shapeCasts_S1x64x64_S64x64 k d
  · refine (broadcastTo_a1_ab_apply _ broadcasts_S10000x1_S10000x64 p d).trans ?_
    exact shapeCast_1ab_ab_apply s shapeCasts_S1x10000x1_S10000x1 p (0 : Fin 1)

/-- Region 2's body at an entry: the same (its extra cast of the node block onto its own shape is the identity). -/
theorem pay2_entry (x : Vec Ideal S10000x64 .f32) (w : Vec Ideal S1x64x64 .f32) (s : Vec Ideal S1x10000x1 .f32)
    (u : Fin 1) (p : Fin 10000) (d : Fin 64) :
    k2_pay1 x w s (ix3 u p d) = (∑ k : Fin 64, x (ix2 p k) * w (ix3 (0 : Fin 1) k d)) * s (ix3 (0 : Fin 1) p (0 : Fin 1)) := by
  unfold k2_pay1
  rw [shapeCast_self]
  refine (shapeCast_ab_1ab_apply _ shapeCasts_S10000x64_S1x10000x64 u p d).trans ?_
  refine (mulf_apply _ _ (ix2 p d)).trans ?_
  refine congrArg₂ (· * ·) ?_ ?_
  · refine (matmul_entry _ _ p d).trans ?_
    refine Finset.sum_congr rfl fun k _ => ?_
    refine congrArg₂ (· * ·) rfl ?_
    exact shapeCast_1ab_ab_apply w shapeCasts_S1x64x64_S64x64 k d
  · refine (broadcastTo_a1_ab_apply _ broadcasts_S10000x1_S10000x64 p d).trans ?_
    exact shapeCast_1ab_ab_apply s shapeCasts_S1x10000x1_S10000x1 p (0 : Fin 1)

/-! ## An entry of a block against an entry of the arrays -/

/-- If row `p` of a node block is row `n` of the features, a weight block is matrix `r` of the weights, and entry `p` of a
    degree block is entry `(r, n)` of the degree factors, then the block's product-and-scale at `(p, d)` is the scaled linear
    map of the whole arrays at `(r, n, d)`. -/
theorem lin_entry (A : FVec Ideal S100000x64 .f32) (W : FVec Ideal S2x64x64 .f32) (S : FVec Ideal S2x100000x1 .f32)
    (x : Vec Ideal S10000x64 .f32) (w : Vec Ideal S1x64x64 .f32) (s : Vec Ideal S1x10000x1 .f32)
    (r : Fin 2) (n : Fin 100000) (f : Fin 64) (p : Fin 10000) (d : Fin 64)
    (hx : ∀ k : Fin 64, x (ix2 p k) = A (ix2 n k)) (hw : ∀ k : Fin 64, w (ix3 (0 : Fin 1) k d) = W (ix3 r k f))
    (hs : s (ix3 (0 : Fin 1) p (0 : Fin 1)) = S (ix3 r n (0 : Fin 1))) :
    (∑ k : Fin 64, x (ix2 p k) * w (ix3 (0 : Fin 1) k d)) * s (ix3 (0 : Fin 1) p (0 : Fin 1))
      = Cert.Spec.linScale A W S (ix3 r n f) := by
  show _ = (∑ k : Fin 64, A (ix2 n k) * W (ix3 r k f)) * S (ix3 r n (0 : Fin 1))
  rw [hs]
  exact congrArg (· * S (ix3 r n (0 : Fin 1))) (Finset.sum_congr rfl fun k _ => by rw [hx k, hw k])

/-! ## Region 0: from the blocks to the array -/

section Region0
variable (V : (c : Dev nD) → (b : Ref sig .tc) → Buf (Elt Ideal) ((c : Thread nD τ).loc b))

/-- How the four windows' block indices move over the grid (relation `r`, node block `b`): the node block is row block `b`
    of the features, the weight block is matrix `r`, the degree block and the output block are block `(r, b)`. -/
theorem block_indices0 : ∀ t : Fin cfg0.N,
    win0_0.index t (0 : Fin 2) = win0_3.index t (1 : Fin 3)
    ∧ win0_0.index t (1 : Fin 2) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = win0_3.index t (1 : Fin 3)
    ∧ win0_2.index t (2 : Fin 3) = 0
    ∧ win0_3.index t (2 : Fin 3) = 0 :=
  (by decide +kernel : ∀ t : Fin grid0.N, _)

/-- Every block `(r, b)` of the output array is some point's. -/
theorem every_block0 : ∀ (q0 : Fin 2) (q1 : Fin 10), ∃ t : Fin cfg0.N, win0_3.index t = ![q0.val, q1.val, 0] :=
  (by decide +kernel : ∀ (q0 : Fin 2) (q1 : Fin 10), ∃ t : Fin grid0.N, win0_3.index t = ![q0.val, q1.val, 0])

theorem zeros2 : (![0, 0] : Fin 2 → Nat) = fun _ => 0 := funext fun a => by fin_cases a <;> rfl
theorem zeros3 : (![0, 0, 0] : Fin 3 → Nat) = fun _ => 0 := funext fun a => by fin_cases a <;> rfl

/-- What point `t` writes back is block `t` of the scaled linear map of the three arrays as the region finds them: entry
    `(u, p, d)` of the block is entry `(r, n, d)` of the array, `r` the point's relation and `n` row `p` of its node block, and the
    three input blocks hold rows `n` of the features, matrix `r` of the weights and entry `(r, n)` of the degree factors. -/
theorem written_block0 (c : Dev nD) (t : Fin cfg0.N) :
    (dat0 (F := Ideal) V c).flushed 3 t
      = ((cfg0.win 3).blk t).view.read (Elt Ideal) (Cert.Spec.linScale (V c main_arg0) (V c main_v32) (V c main_v27)) := by
  show (cfg0.win 3).cut (grid0.coords t) ((dat0 V c).after 3 t) = _
  rw [after0_3]
  unfold out0_3
  rw [View.canon_unit_zero zeros3]
  simp only [View.ld_unit_zero (S := S10000x64) zeros2, View.ld_unit_zero (S := S1x64x64) zeros3, View.ld_unit_zero (S := S1x10000x1) zeros3]
  obtain ⟨e0, e1, e2, e3, e4, e5, e6, e7, e8⟩ := block_indices0 t
  refine funext fun (j : S1x10000x64.Idx) => ?_
  obtain ⟨u, p, d, rfl⟩ : ∃ (u : Fin 1) (p : Fin 10000) (d : Fin 64), j = ix3 u p d := ⟨j 0, j 1, j 2, eq_ix3 j⟩
  have hu : u.val = 0 := by omega
  obtain ⟨r, n, f, hi⟩ : ∃ (r : Fin 2) (n : Fin 100000) (f : Fin 64), ((cfg0.win 3).blk t).view.emb (ix3 u p d) = ix3 r n f :=
    ⟨_, _, _, eq_ix3 (n0 := 2) (n1 := 100000) (n2 := 64) _⟩
  have hr : win0_3.index t (0 : Fin 3) * 1 + 1 * u.val = r.val := congrArg (fun i : S2x100000x64.Idx => (i 0).val) hi
  have hn : win0_3.index t (1 : Fin 3) * 10000 + 1 * p.val = n.val := congrArg (fun i : S2x100000x64.Idx => (i 1).val) hi
  have hf : win0_3.index t (2 : Fin 3) * 64 + 1 * d.val = f.val := congrArg (fun i : S2x100000x64.Idx => (i 2).val) hi
  have h0 : ∀ k : Fin 64, ((cfg0.win 0).blk t).view.emb (ix2 p k) = ix2 n k := fun k => by
    funext a; apply Fin.ext
    match a with
    | ⟨0, _⟩ => show win0_0.index t (0 : Fin 2) * 10000 + 1 * p.val = n.val; rw [e0]; exact hn
    | ⟨1, _⟩ => show win0_0.index t (1 : Fin 2) * 64 + 1 * k.val = k.val; omega
  have h1 : ∀ k : Fin 64, ((cfg0.win 1).blk t).view.emb (ix3 (0 : Fin 1) k d) = ix3 r k f := fun k => by
    funext a; apply Fin.ext
    match a with
    | ⟨0, _⟩ => show win0_1.index t (0 : Fin 3) * 1 + 1 * 0 = r.val; omega
    | ⟨1, _⟩ => show win0_1.index t (1 : Fin 3) * 64 + 1 * k.val = k.val; omega
    | ⟨2, _⟩ => show win0_1.index t (2 : Fin 3) * 64 + 1 * d.val = f.val; omega
  have h2 : ((cfg0.win 2).blk t).view.emb (ix3 (0 : Fin 1) p (0 : Fin 1)) = ix3 r n (0 : Fin 1) := by
    funext a; apply Fin.ext
    match a with
    | ⟨0, _⟩ => show win0_2.index t (0 : Fin 3) * 1 + 1 * 0 = r.val; omega
    | ⟨1, _⟩ => show win0_2.index t (1 : Fin 3) * 10000 + 1 * p.val = n.val; rw [e6]; exact hn
    | ⟨2, _⟩ => show win0_2.index t (2 : Fin 3) * 1 + 1 * 0 = 0; omega
  refine (pay0_entry (iblk0 V c 0 t) (iblk0 V c 1 t) (iblk0 V c 2 t) u p d).trans ?_
  refine (lin_entry (V c main_arg0) (V c main_v32) (V c main_v27) (iblk0 V c 0 t) (iblk0 V c 1 t) (iblk0 V c 2 t) r n f p d
    (fun k => ?_) (fun k => ?_) ?_).trans (congrArg (Cert.Spec.linScale (V c main_arg0) (V c main_v32) (V c main_v27)) hi).symm
  · show V c main_arg0 (((cfg0.win 0).blk t).view.emb (ix2 p k)) = V c main_arg0 (ix2 n k)
    rw [h0 k]
  · show V c main_v32 (((cfg0.win 1).blk t).view.emb (ix3 (0 : Fin 1) k d)) = V c main_v32 (ix3 r k f)
    rw [h1 k]
  · show V c main_v27 (((cfg0.win 2).blk t).view.emb (ix3 (0 : Fin 1) p (0 : Fin 1))) = V c main_v27 (ix3 r n (0 : Fin 1))
    rw [h2]

/-- An index of the output array is in point `t`'s block iff each coordinate is in the block's range on its axis. -/
theorem mem_out_block0 (t : Fin cfg0.N) (i : S2x100000x64.Idx) :
    i ∈ ((cfg0.win 3).blk t).view.set ↔ ∀ a : Fin 3, win0_3.index t a * S1x10000x64.size a ≤ (i a).val ∧ (i a).val < win0_3.index t a * S1x10000x64.size a + S1x10000x64.size a := by
  show i ∈ ((View.whole main_v40).slice (win0_3.rect t)).set ↔ _
  rw [View.set_slice_whole, Rect.mem_set_unit]
  exact Iff.rfl

/-- The output's blocks cover the array: entry `(r, n, d)` is in the block of relation `r` and node block `n / 10000`. -/
theorem out_blocks_cover0 (i : S2x100000x64.Idx) : ∃ t : Fin cfg0.N, (cfg0.win 3).flush t = true ∧ i ∈ ((cfg0.win 3).blk t).view.set := by
  have hi0 : (i 0).val < 2 := (i 0).isLt
  have hi1 : (i 1).val < 100000 := (i 1).isLt
  have hi2 : (i 2).val < 64 := (i 2).isLt
  obtain ⟨t, ht⟩ := every_block0 ⟨(i 0).val, hi0⟩ ⟨(i 1).val / 10000, by omega⟩
  have q0 : win0_3.index t (0 : Fin 3) = (i 0).val := congrFun ht 0
  have q1 : win0_3.index t (1 : Fin 3) = (i 1).val / 10000 := congrFun ht 1
  have q2 : win0_3.index t (2 : Fin 3) = 0 := congrFun ht 2
  refine ⟨t, flush0_3 t, ?_⟩
  rw [mem_out_block0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 10000 ≤ (i 1).val ∧ (i 1).val < win0_3.index t (1 : Fin 3) * 10000 + 10000; omega
  | ⟨2, _⟩ => show win0_3.index t (2 : Fin 3) * 64 ≤ (i 2).val ∧ (i 2).val < win0_3.index t (2 : Fin 3) * 64 + 64; omega

/-- The output array after region 0: the scaled linear map of the three arrays as the region finds them. -/
theorem final0 (c : Dev nD) :
    (dat0 (F := Ideal) V c).arrAt 3 cfg0.N = Cert.Spec.linScale (V c main_arg0) (V c main_v32) (V c main_v27) :=
  (dat0 V c).arrAt_eq_of_cover 3 (Cert.Spec.linScale (V c main_arg0) (V c main_v32) (V c main_v27)) (fun t _ => written_block0 V c t) out_blocks_cover0

end Region0

/-! ## Region 2: from the blocks to the array -/

section Region2
variable (V : (c : Dev nD) → (b : Ref sig .tc) → Buf (Elt Ideal) ((c : Thread nD τ).loc b))

/-- How the four windows' block indices move over the grid (relation `r`, node block `b`): the node block is row block `b`
    of the features, the weight block is matrix `r`, the degree block and the output block are block `(r, b)`. -/
theorem block_indices2 : ∀ t : Fin cfg2.N,
    win2_0.index t (0 : Fin 2) = win2_3.index t (1 : Fin 3)
    ∧ win2_0.index t (1 : Fin 2) = 0
    ∧ win2_1.index t (0 : Fin 3) = win2_3.index t (0 : Fin 3)
    ∧ win2_1.index t (1 : Fin 3) = 0
    ∧ win2_1.index t (2 : Fin 3) = 0
    ∧ win2_2.index t (0 : Fin 3) = win2_3.index t (0 : Fin 3)
    ∧ win2_2.index t (1 : Fin 3) = win2_3.index t (1 : Fin 3)
    ∧ win2_2.index t (2 : Fin 3) = 0
    ∧ win2_3.index t (2 : Fin 3) = 0 :=
  (by decide +kernel : ∀ t : Fin grid2.N, _)

/-- Every block `(r, b)` of the output array is some point's. -/
theorem every_block2 : ∀ (q0 : Fin 2) (q1 : Fin 10), ∃ t : Fin cfg2.N, win2_3.index t = ![q0.val, q1.val, 0] :=
  (by decide +kernel : ∀ (q0 : Fin 2) (q1 : Fin 10), ∃ t : Fin grid2.N, win2_3.index t = ![q0.val, q1.val, 0])

/-- What point `t` writes back is block `t` of the scaled linear map of the three arrays as the region finds them: entry
    `(u, p, d)` of the block is entry `(r, n, d)` of the array, `r` the point's relation and `n` row `p` of its node block, and the
    three input blocks hold rows `n` of the features, matrix `r` of the weights and entry `(r, n)` of the degree factors. -/
theorem written_block2 (c : Dev nD) (t : Fin cfg2.N) :
    (dat2 (F := Ideal) V c).flushed 3 t
      = ((cfg2.win 3).blk t).view.read (Elt Ideal) (Cert.Spec.linScale (V c main_v65) (V c main_v35) (V c main_v27)) := by
  show (cfg2.win 3).cut (grid2.coords t) ((dat2 V c).after 3 t) = _
  rw [after2_3]
  unfold out2_3
  rw [View.canon_unit_zero zeros3]
  simp only [View.ld_unit_zero (S := S10000x64) zeros2, View.ld_unit_zero (S := S1x64x64) zeros3, View.ld_unit_zero (S := S1x10000x1) zeros3]
  obtain ⟨e0, e1, e2, e3, e4, e5, e6, e7, e8⟩ := block_indices2 t
  refine funext fun (j : S1x10000x64.Idx) => ?_
  obtain ⟨u, p, d, rfl⟩ : ∃ (u : Fin 1) (p : Fin 10000) (d : Fin 64), j = ix3 u p d := ⟨j 0, j 1, j 2, eq_ix3 j⟩
  have hu : u.val = 0 := by omega
  obtain ⟨r, n, f, hi⟩ : ∃ (r : Fin 2) (n : Fin 100000) (f : Fin 64), ((cfg2.win 3).blk t).view.emb (ix3 u p d) = ix3 r n f :=
    ⟨_, _, _, eq_ix3 (n0 := 2) (n1 := 100000) (n2 := 64) _⟩
  have hr : win2_3.index t (0 : Fin 3) * 1 + 1 * u.val = r.val := congrArg (fun i : S2x100000x64.Idx => (i 0).val) hi
  have hn : win2_3.index t (1 : Fin 3) * 10000 + 1 * p.val = n.val := congrArg (fun i : S2x100000x64.Idx => (i 1).val) hi
  have hf : win2_3.index t (2 : Fin 3) * 64 + 1 * d.val = f.val := congrArg (fun i : S2x100000x64.Idx => (i 2).val) hi
  have h0 : ∀ k : Fin 64, ((cfg2.win 0).blk t).view.emb (ix2 p k) = ix2 n k := fun k => by
    funext a; apply Fin.ext
    match a with
    | ⟨0, _⟩ => show win2_0.index t (0 : Fin 2) * 10000 + 1 * p.val = n.val; rw [e0]; exact hn
    | ⟨1, _⟩ => show win2_0.index t (1 : Fin 2) * 64 + 1 * k.val = k.val; omega
  have h1 : ∀ k : Fin 64, ((cfg2.win 1).blk t).view.emb (ix3 (0 : Fin 1) k d) = ix3 r k f := fun k => by
    funext a; apply Fin.ext
    match a with
    | ⟨0, _⟩ => show win2_1.index t (0 : Fin 3) * 1 + 1 * 0 = r.val; omega
    | ⟨1, _⟩ => show win2_1.index t (1 : Fin 3) * 64 + 1 * k.val = k.val; omega
    | ⟨2, _⟩ => show win2_1.index t (2 : Fin 3) * 64 + 1 * d.val = f.val; omega
  have h2 : ((cfg2.win 2).blk t).view.emb (ix3 (0 : Fin 1) p (0 : Fin 1)) = ix3 r n (0 : Fin 1) := by
    funext a; apply Fin.ext
    match a with
    | ⟨0, _⟩ => show win2_2.index t (0 : Fin 3) * 1 + 1 * 0 = r.val; omega
    | ⟨1, _⟩ => show win2_2.index t (1 : Fin 3) * 10000 + 1 * p.val = n.val; rw [e6]; exact hn
    | ⟨2, _⟩ => show win2_2.index t (2 : Fin 3) * 1 + 1 * 0 = 0; omega
  refine (pay2_entry (iblk2 V c 0 t) (iblk2 V c 1 t) (iblk2 V c 2 t) u p d).trans ?_
  refine (lin_entry (V c main_v65) (V c main_v35) (V c main_v27) (iblk2 V c 0 t) (iblk2 V c 1 t) (iblk2 V c 2 t) r n f p d
    (fun k => ?_) (fun k => ?_) ?_).trans (congrArg (Cert.Spec.linScale (V c main_v65) (V c main_v35) (V c main_v27)) hi).symm
  · show V c main_v65 (((cfg2.win 0).blk t).view.emb (ix2 p k)) = V c main_v65 (ix2 n k)
    rw [h0 k]
  · show V c main_v35 (((cfg2.win 1).blk t).view.emb (ix3 (0 : Fin 1) k d)) = V c main_v35 (ix3 r k f)
    rw [h1 k]
  · show V c main_v27 (((cfg2.win 2).blk t).view.emb (ix3 (0 : Fin 1) p (0 : Fin 1))) = V c main_v27 (ix3 r n (0 : Fin 1))
    rw [h2]

/-- An index of the output array is in point `t`'s block iff each coordinate is in the block's range on its axis. -/
theorem mem_out_block2 (t : Fin cfg2.N) (i : S2x100000x64.Idx) :
    i ∈ ((cfg2.win 3).blk t).view.set ↔ ∀ a : Fin 3, win2_3.index t a * S1x10000x64.size a ≤ (i a).val ∧ (i a).val < win2_3.index t a * S1x10000x64.size a + S1x10000x64.size a := by
  show i ∈ ((View.whole main_v66).slice (win2_3.rect t)).set ↔ _
  rw [View.set_slice_whole, Rect.mem_set_unit]
  exact Iff.rfl

/-- The output's blocks cover the array: entry `(r, n, d)` is in the block of relation `r` and node block `n / 10000`. -/
theorem out_blocks_cover2 (i : S2x100000x64.Idx) : ∃ t : Fin cfg2.N, (cfg2.win 3).flush t = true ∧ i ∈ ((cfg2.win 3).blk t).view.set := by
  have hi0 : (i 0).val < 2 := (i 0).isLt
  have hi1 : (i 1).val < 100000 := (i 1).isLt
  have hi2 : (i 2).val < 64 := (i 2).isLt
  obtain ⟨t, ht⟩ := every_block2 ⟨(i 0).val, hi0⟩ ⟨(i 1).val / 10000, by omega⟩
  have q0 : win2_3.index t (0 : Fin 3) = (i 0).val := congrFun ht 0
  have q1 : win2_3.index t (1 : Fin 3) = (i 1).val / 10000 := congrFun ht 1
  have q2 : win2_3.index t (2 : Fin 3) = 0 := congrFun ht 2
  refine ⟨t, flush2_3 t, ?_⟩
  rw [mem_out_block2]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 10000 ≤ (i 1).val ∧ (i 1).val < win2_3.index t (1 : Fin 3) * 10000 + 10000; omega
  | ⟨2, _⟩ => show win2_3.index t (2 : Fin 3) * 64 ≤ (i 2).val ∧ (i 2).val < win2_3.index t (2 : Fin 3) * 64 + 64; omega

/-- The output array after region 2: the scaled linear map of the three arrays as the region finds them. -/
theorem final2 (c : Dev nD) :
    (dat2 (F := Ideal) V c).arrAt 3 cfg2.N = Cert.Spec.linScale (V c main_v65) (V c main_v35) (V c main_v27) :=
  (dat2 V c).arrAt_eq_of_cover 3 (Cert.Spec.linScale (V c main_v65) (V c main_v35) (V c main_v27)) (fun t _ => written_block2 V c t) out_blocks_cover2

end Region2

end Cert.KernelIdeal.RegionValue

end
-- ==== Proof.RegionCombine.lean ====
/-
  The two combine regions. A block of 5000 nodes of a region's result holds, at node `p` of the block and feature `d`,
  the two relations' aggregated messages, each scaled by the node's in-degree factor and shifted by the relation's bias
  at `d`, added — and, in the first layer, the maximum of that with zero. Block `t` of each aggregate and of each column of
  factors is its rows `5000 t … 5000 t + 4999`, the two bias rows are read whole at every point, and the twenty blocks
  fill the 100000 nodes: so each region leaves, in its result array, `Spec.combine` of its six argument arrays.
-/
import proofs.«176044_j68092411510979_2_alg».proof.Proof.Gen.KernelIdeal.Frame
import proofs.«176044_j68092411510979_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/-! ## Reading the two broadcasts at an index -/

/-- An `[a, 1]` column broadcast to `[a, b]` reads, at `(p, c)`, the column's entry of row `p`. -/
theorem columnBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One relation's term of a block, at node `p` and feature `d`: the aggregate times the node's factor, plus the bias
    at `d` (the casts are to the same shapes; the factor's column and the bias's row are broadcast over the block). -/
theorem scaleShift_apply (x : FVec Ideal S5000x64 .f32) (s : FVec Ideal S5000x1 .f32) (b : FVec Ideal S1x64 .f32)
    (h1 : S5000x64.ShapeCasts S5000x64) (h2 : S5000x1.ShapeCasts S5000x1) (h3 : S5000x1.Broadcasts S5000x64)
    (h4 : S1x64.ShapeCasts S1x64) (h5 : S1x64.Broadcasts S5000x64) (p : Fin 5000) (d : Fin 64) :
    addf (mulf (shapeCast S5000x64 x h1) (broadcastTo S5000x64 (shapeCast S5000x1 s h2) h3))
        (broadcastTo S5000x64 (shapeCast S1x64 b h4) h5) (ix2 p d)
      = x (ix2 p d) * s (ix2 p (0 : Fin 1)) + b (ix2 (0 : Fin 1) d) := by
  rw [shapeCast_self, shapeCast_self, shapeCast_self]
  show x (ix2 p d) * broadcastTo S5000x64 s h3 (ix2 p d) + broadcastTo S5000x64 b h5 (ix2 p d) = _
  rw [columnBroadcast_apply, broadcastTo_1b_ab_apply]

/-- The combined value of node `r` and feature `d`, with the index written by its coordinates. -/
theorem combine_ix2 (relu : Bool) (a0 a1 : FVec Ideal ⟨2, ![100000, 64]⟩ .f32) (s0 s1 : FVec Ideal ⟨2, ![100000, 1]⟩ .f32)
    (b0 b1 : FVec Ideal ⟨2, ![1, 64]⟩ .f32) (r : Fin 100000) (d : Fin 64) :
    Cert.Spec.combine relu a0 a1 s0 s1 b0 b1 (ix2 r d)
      = if relu then max ((a0 (ix2 r d) * s0 (ix2 r 0) + b0 (ix2 0 d)) + (a1 (ix2 r d) * s1 (ix2 r 0) + b1 (ix2 0 d))) 0
        else (a0 (ix2 r d) * s0 (ix2 r 0) + b0 (ix2 0 d)) + (a1 (ix2 r d) * s1 (ix2 r 0) + b1 (ix2 0 d)) := rfl

/-- The zero offsets of a whole-buffer access. -/
theorem combineOff0 : (![0, 0] : Fin 2 → Nat) = fun _ => 0 := funext fun a => by fin_cases a <;> rfl

variable (V : (c : Dev nD) → (b : Ref sig .tc) → Buf (Elt Ideal) ((c : Thread nD τ).loc b))

/-! ## Region 1: the first layer's combination -/

/-- The body's result at node `p` and feature `d` of a block, from the six blocks it loads. -/
theorem combineBlock1_apply (x0 : Vec Ideal S5000x64 .f32) (s0 : Vec Ideal S5000x1 .f32) (b0 : Vec Ideal S1x64 .f32)
    (x1 : Vec Ideal S5000x64 .f32) (s1 : Vec Ideal S5000x1 .f32) (b1 : Vec Ideal S1x64 .f32) (p : Fin 5000) (d : Fin 64) :
    k1_pay1 x0 s0 b0 x1 s1 b1 (ix2 p d) = max ((x0 (ix2 p d) * s0 (ix2 p (0 : Fin 1)) + b0 (ix2 (0 : Fin 1) d)) + (x1 (ix2 p d) * s1 (ix2 p (0 : Fin 1)) + b1 (ix2 (0 : Fin 1) d))) 0 := by
  unfold k1_pay1
  exact congrArg₂ max (congrArg₂ (· + ·) (scaleShift_apply x0 s0 b0 _ _ _ _ _ p d) (scaleShift_apply x1 s1 b1 _ _ _ _ _ p d))
    Ideal.ofBits_zero_f32

/-- The block index of every row-blocked window at point `t` is `(t, 0)`, and of the two bias windows `(0, 0)`. -/
theorem combineIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the combination of the six arrays as the region finds them. -/
theorem combineFlushed1 (c : Dev nD) (t : Fin cfg1.N) :
    (dat1 (F := Ideal) V c).flushed 6 t
      = ((cfg1.win 6).blk t).view.read (Elt Ideal) (Cert.Spec.combine true (V c main_v52) (V c main_v64) (V c main_v28) (V c main_v29) (V c main_v36) (V c main_v37)) := by
  show (cfg1.win 6).cut (grid1.coords t) ((dat1 V c).after 6 t) = _
  rw [after1_6]
  unfold out1_6
  rw [View.canon_unit_zero combineOff0]
  simp only [View.ld_unit_zero (S := S5000x64) combineOff0, View.ld_unit_zero (S := S5000x1) combineOff0,
    View.ld_unit_zero (S := S1x64) combineOff0]
  obtain ⟨e00, e01, e10, e11, e20, e21, e30, e31, e40, e41, e50, e51, e60, e61⟩ := combineIdx1 t
  have ht : t.val < 20 := lt_of_lt_of_eq t.isLt N_1
  refine funext fun (j : S5000x64.Idx) => ?_
  obtain ⟨p, d, rfl⟩ : ∃ (p : Fin 5000) (d : Fin 64), j = ix2 p d := ⟨j 0, j 1, eq_ix2 j⟩
  have hp : p.val < 5000 := p.isLt
  show k1_pay1 (iblk1 V c 0 t) (iblk1 V c 2 t) (iblk1 V c 4 t) (iblk1 V c 1 t) (iblk1 V c 3 t) (iblk1 V c 5 t) (ix2 p d)
    = Cert.Spec.combine true (V c main_v52) (V c main_v64) (V c main_v28) (V c main_v29) (V c main_v36) (V c main_v37) (((cfg1.win 6).blk t).view.emb (ix2 p d))
  have hout : ((cfg1.win 6).blk t).view.emb (ix2 p d)
      = (ix2 (⟨t.val * 5000 + p.val, by omega⟩ : Fin 100000) d : S100000x64.Idx) := by
    funext a; apply Fin.ext
    match a with
    | ⟨0, _⟩ => show win1_6.index t (0 : Fin 2) * 5000 + 1 * p.val = t.val * 5000 + p.val; omega
    | ⟨1, _⟩ => show win1_6.index t (1 : Fin 2) * 64 + 1 * d.val = d.val; omega
  rw [hout, combine_ix2]
  refine (combineBlock1_apply (iblk1 V c 0 t) (iblk1 V c 2 t) (iblk1 V c 4 t) (iblk1 V c 1 t) (iblk1 V c 3 t) (iblk1 V c 5 t) p d).trans ?_
  have h0 : ((cfg1.win 0).blk t).view.emb (ix2 p d)
      = (ix2 (⟨t.val * 5000 + p.val, by omega⟩ : Fin 100000) d : S100000x64.Idx) := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * d.val = d.val; omega
  have h1 : ((cfg1.win 1).blk t).view.emb (ix2 p d)
      = (ix2 (⟨t.val * 5000 + p.val, by omega⟩ : Fin 100000) d : S100000x64.Idx) := by
    funext a; apply Fin.ext
    match a with
    | ⟨0, _⟩ => show win1_1.index t (0 : Fin 2) * 5000 + 1 * p.val = t.val * 5000 + p.val; omega
    | ⟨1, _⟩ => show win1_1.index t (1 : Fin 2) * 64 + 1 * d.val = d.val; omega
  have h2 : ((cfg1.win 2).blk t).view.emb (ix2 p (0 : Fin 1))
      = (ix2 (⟨t.val * 5000 + p.val, by omega⟩ : Fin 100000) (0 : Fin 1) : S100000x1.Idx) := by
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : ((cfg1.win 3).blk t).view.emb (ix2 p (0 : Fin 1))
      = (ix2 (⟨t.val * 5000 + p.val, by omega⟩ : Fin 100000) (0 : Fin 1) : S100000x1.Idx) := by
    funext a; apply Fin.ext
    match a with
    | ⟨0, _⟩ => show win1_3.index t (0 : Fin 2) * 5000 + 1 * p.val = t.val * 5000 + p.val; omega
    | ⟨1, _⟩ => show win1_3.index t (1 : Fin 2) * 1 + 1 * 0 = 0; omega
  have h4 : ((cfg1.win 4).blk t).view.emb (ix2 (0 : Fin 1) d) = (ix2 (0 : Fin 1) d : S1x64.Idx) := by
    funext a; apply Fin.ext
    match a with
    | ⟨0, _⟩ => show win1_4.index t (0 : Fin 2) * 1 + 1 * 0 = 0; omega
    | ⟨1, _⟩ => show win1_4.index t (1 : Fin 2) * 64 + 1 * d.val = d.val; omega
  have h5 : ((cfg1.win 5).blk t).view.emb (ix2 (0 : Fin 1) d) = (ix2 (0 : Fin 1) d : S1x64.Idx) := by
    funext a; apply Fin.ext
    match a with
    | ⟨0, _⟩ => show win1_5.index t (0 : Fin 2) * 1 + 1 * 0 = 0; omega
    | ⟨1, _⟩ => show win1_5.index t (1 : Fin 2) * 64 + 1 * d.val = d.val; omega
  refine Eq.trans ?_ (if_pos rfl).symm
  exact congrArg₂ (fun a b : EReal => max a b)
    (congrArg₂ (fun a b : EReal => a + b)
      (congrArg₂ (fun a b : EReal => a + b) (congrArg₂ (fun a b : EReal => a * b) (congrArg (V c main_v52 : S100000x64.Idx → EReal) h0) (congrArg (V c main_v28 : S100000x1.Idx → EReal) h2)) (congrArg (V c main_v36 : S1x64.Idx → EReal) h4))
      (congrArg₂ (fun a b : EReal => a + b) (congrArg₂ (fun a b : EReal => a * b) (congrArg (V c main_v64 : S100000x64.Idx → EReal) h1) (congrArg (V c main_v29 : S100000x1.Idx → EReal) h3)) (congrArg (V c main_v37 : S1x64.Idx → EReal) h5))) rfl

/-- A node's entry is in point `t`'s block of the result iff each coordinate is in the block's range on its axis. -/
theorem combineMem1 (t : Fin cfg1.N) (i : S100000x64.Idx) :
    i ∈ ((cfg1.win 6).blk t).view.set
      ↔ ∀ a : Fin 2, win1_6.index t a * S5000x64.size a ≤ (i a).val ∧ (i a).val < win1_6.index t a * S5000x64.size a + S5000x64.size a := by
  show i ∈ ((View.whole main_v65).slice (win1_6.rect t)).set ↔ _
  rw [View.set_slice_whole, Rect.mem_set_unit]
  exact Iff.rfl

/-- Node `n` is in the block of point `n / 5000`, which is written back: the blocks fill the array. -/
theorem combineCover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : grid1.N = 20 := N_1
  let t : Fin cfg1.N := ⟨(i 0).val / 5000, by show (i 0).val / 5000 < grid1.N; omega⟩
  have htv : t.val = (i 0).val / 5000 := rfl
  obtain ⟨e00, e01, e10, e11, e20, e21, e30, e31, e40, e41, e50, e51, e60, e61⟩ := combineIdx1 t
  refine ⟨t, flush1_6 t, ?_⟩
  rw [combineMem1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The result array after region 1: the combination of the six arrays as the region finds them. -/
theorem final1 (c : Dev nD) :
    (dat1 (F := Ideal) V c).arrAt 6 cfg1.N = Cert.Spec.combine true (V c main_v52) (V c main_v64) (V c main_v28) (V c main_v29) (V c main_v36) (V c main_v37) :=
  (dat1 V c).arrAt_eq_of_cover 6 (Cert.Spec.combine true (V c main_v52) (V c main_v64) (V c main_v28) (V c main_v29) (V c main_v36) (V c main_v37)) (fun t _ => combineFlushed1 V c t) (combineCover1)

/-! ## Region 3: the second layer's combination -/

/-- The body's result at node `p` and feature `d` of a block, from the six blocks it loads. -/
theorem combineBlock3_apply (x0 : Vec Ideal S5000x64 .f32) (s0 : Vec Ideal S5000x1 .f32) (b0 : Vec Ideal S1x64 .f32)
    (x1 : Vec Ideal S5000x64 .f32) (s1 : Vec Ideal S5000x1 .f32) (b1 : Vec Ideal S1x64 .f32) (p : Fin 5000) (d : Fin 64) :
    k3_pay1 x0 s0 b0 x1 s1 b1 (ix2 p d) = (x0 (ix2 p d) * s0 (ix2 p (0 : Fin 1)) + b0 (ix2 (0 : Fin 1) d)) + (x1 (ix2 p d) * s1 (ix2 p (0 : Fin 1)) + b1 (ix2 (0 : Fin 1) d)) := by
  unfold k3_pay1
  exact congrArg₂ (· + ·) (scaleShift_apply x0 s0 b0 _ _ _ _ _ p d) (scaleShift_apply x1 s1 b1 _ _ _ _ _ p d)

/-- The block index of every row-blocked window at point `t` is `(t, 0)`, and of the two bias windows `(0, 0)`. -/
theorem combineIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point `t` writes back is block `t` of the combination of the six arrays as the region finds them. -/
theorem combineFlushed3 (c : Dev nD) (t : Fin cfg3.N) :
    (dat3 (F := Ideal) V c).flushed 6 t
      = ((cfg3.win 6).blk t).view.read (Elt Ideal) (Cert.Spec.combine false (V c main_v78) (V c main_v90) (V c main_v28) (V c main_v29) (V c main_v38) (V c main_v39)) := by
  show (cfg3.win 6).cut (grid3.coords t) ((dat3 V c).after 6 t) = _
  rw [after3_6]
  unfold out3_6
  rw [View.canon_unit_zero combineOff0]
  simp only [View.ld_unit_zero (S := S5000x64) combineOff0, View.ld_unit_zero (S := S5000x1) combineOff0,
    View.ld_unit_zero (S := S1x64) combineOff0]
  obtain ⟨e00, e01, e10, e11, e20, e21, e30, e31, e40, e41, e50, e51, e60, e61⟩ := combineIdx3 t
  have ht : t.val < 20 := lt_of_lt_of_eq t.isLt N_3
  refine funext fun (j : S5000x64.Idx) => ?_
  obtain ⟨p, d, rfl⟩ : ∃ (p : Fin 5000) (d : Fin 64), j = ix2 p d := ⟨j 0, j 1, eq_ix2 j⟩
  have hp : p.val < 5000 := p.isLt
  show k3_pay1 (iblk3 V c 0 t) (iblk3 V c 2 t) (iblk3 V c 4 t) (iblk3 V c 1 t) (iblk3 V c 3 t) (iblk3 V c 5 t) (ix2 p d)
    = Cert.Spec.combine false (V c main_v78) (V c main_v90) (V c main_v28) (V c main_v29) (V c main_v38) (V c main_v39) (((cfg3.win 6).blk t).view.emb (ix2 p d))
  have hout : ((cfg3.win 6).blk t).view.emb (ix2 p d)
      = (ix2 (⟨t.val * 5000 + p.val, by omega⟩ : Fin 100000) d : S100000x64.Idx) := by
    funext a; apply Fin.ext
    match a with
    | ⟨0, _⟩ => show win3_6.index t (0 : Fin 2) * 5000 + 1 * p.val = t.val * 5000 + p.val; omega
    | ⟨1, _⟩ => show win3_6.index t (1 : Fin 2) * 64 + 1 * d.val = d.val; omega
  rw [hout, combine_ix2]
  refine (combineBlock3_apply (iblk3 V c 0 t) (iblk3 V c 2 t) (iblk3 V c 4 t) (iblk3 V c 1 t) (iblk3 V c 3 t) (iblk3 V c 5 t) p d).trans ?_
  have h0 : ((cfg3.win 0).blk t).view.emb (ix2 p d)
      = (ix2 (⟨t.val * 5000 + p.val, by omega⟩ : Fin 100000) d : S100000x64.Idx) := by
    funext a; apply Fin.ext
    match a with
    | ⟨0, _⟩ => show win3_0.index t (0 : Fin 2) * 5000 + 1 * p.val = t.val * 5000 + p.val; omega
    | ⟨1, _⟩ => show win3_0.index t (1 : Fin 2) * 64 + 1 * d.val = d.val; omega
  have h1 : ((cfg3.win 1).blk t).view.emb (ix2 p d)
      = (ix2 (⟨t.val * 5000 + p.val, by omega⟩ : Fin 100000) d : S100000x64.Idx) := by
    funext a; apply Fin.ext
    match a with
    | ⟨0, _⟩ => show win3_1.index t (0 : Fin 2) * 5000 + 1 * p.val = t.val * 5000 + p.val; omega
    | ⟨1, _⟩ => show win3_1.index t (1 : Fin 2) * 64 + 1 * d.val = d.val; omega
  have h2 : ((cfg3.win 2).blk t).view.emb (ix2 p (0 : Fin 1))
      = (ix2 (⟨t.val * 5000 + p.val, by omega⟩ : Fin 100000) (0 : Fin 1) : S100000x1.Idx) := by
    funext a; apply Fin.ext
    match a with
    | ⟨0, _⟩ => show win3_2.index t (0 : Fin 2) * 5000 + 1 * p.val = t.val * 5000 + p.val; omega
    | ⟨1, _⟩ => show win3_2.index t (1 : Fin 2) * 1 + 1 * 0 = 0; omega
  have h3 : ((cfg3.win 3).blk t).view.emb (ix2 p (0 : Fin 1))
      = (ix2 (⟨t.val * 5000 + p.val, by omega⟩ : Fin 100000) (0 : Fin 1) : S100000x1.Idx) := by
    funext a; apply Fin.ext
    match a with
    | ⟨0, _⟩ => show win3_3.index t (0 : Fin 2) * 5000 + 1 * p.val = t.val * 5000 + p.val; omega
    | ⟨1, _⟩ => show win3_3.index t (1 : Fin 2) * 1 + 1 * 0 = 0; omega
  have h4 : ((cfg3.win 4).blk t).view.emb (ix2 (0 : Fin 1) d) = (ix2 (0 : Fin 1) d : S1x64.Idx) := by
    funext a; apply Fin.ext
    match a with
    | ⟨0, _⟩ => show win3_4.index t (0 : Fin 2) * 1 + 1 * 0 = 0; omega
    | ⟨1, _⟩ => show win3_4.index t (1 : Fin 2) * 64 + 1 * d.val = d.val; omega
  have h5 : ((cfg3.win 5).blk t).view.emb (ix2 (0 : Fin 1) d) = (ix2 (0 : Fin 1) d : S1x64.Idx) := by
    funext a; apply Fin.ext
    match a with
    | ⟨0, _⟩ => show win3_5.index t (0 : Fin 2) * 1 + 1 * 0 = 0; omega
    | ⟨1, _⟩ => show win3_5.index t (1 : Fin 2) * 64 + 1 * d.val = d.val; omega
  refine Eq.trans ?_ (if_neg (by decide)).symm
  exact (congrArg₂ (fun a b : EReal => a + b)
      (congrArg₂ (fun a b : EReal => a + b) (congrArg₂ (fun a b : EReal => a * b) (congrArg (V c main_v78 : S100000x64.Idx → EReal) h0) (congrArg (V c main_v28 : S100000x1.Idx → EReal) h2)) (congrArg (V c main_v38 : S1x64.Idx → EReal) h4))
      (congrArg₂ (fun a b : EReal => a + b) (congrArg₂ (fun a b : EReal => a * b) (congrArg (V c main_v90 : S100000x64.Idx → EReal) h1) (congrArg (V c main_v29 : S100000x1.Idx → EReal) h3)) (congrArg (V c main_v39 : S1x64.Idx → EReal) h5)))

/-- A node's entry is in point `t`'s block of the result iff each coordinate is in the block's range on its axis. -/
theorem combineMem3 (t : Fin cfg3.N) (i : S100000x64.Idx) :
    i ∈ ((cfg3.win 6).blk t).view.set
      ↔ ∀ a : Fin 2, win3_6.index t a * S5000x64.size a ≤ (i a).val ∧ (i a).val < win3_6.index t a * S5000x64.size a + S5000x64.size a := by
  show i ∈ ((View.whole main_v91).slice (win3_6.rect t)).set ↔ _
  rw [View.set_slice_whole, Rect.mem_set_unit]
  exact Iff.rfl

/-- Node `n` is in the block of point `n / 5000`, which is written back: the blocks fill the array. -/
theorem combineCover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : grid3.N = 20 := N_3
  let t : Fin cfg3.N := ⟨(i 0).val / 5000, by show (i 0).val / 5000 < grid3.N; omega⟩
  have htv : t.val = (i 0).val / 5000 := rfl
  obtain ⟨e00, e01, e10, e11, e20, e21, e30, e31, e40, e41, e50, e51, e60, e61⟩ := combineIdx3 t
  refine ⟨t, flush3_6 t, ?_⟩
  rw [combineMem3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- The result array after region 3: the combination of the six arrays as the region finds them. -/
theorem final3 (c : Dev nD) :
    (dat3 (F := Ideal) V c).arrAt 6 cfg3.N = Cert.Spec.combine false (V c main_v78) (V c main_v90) (V c main_v28) (V c main_v29) (V c main_v38) (V c main_v39) :=
  (dat3 V c).arrAt_eq_of_cover 6 (Cert.Spec.combine false (V c main_v78) (V c main_v90) (V c main_v28) (V c main_v29) (V c main_v38) (V c main_v39)) (fun t _ => combineFlushed3 V c t) (combineCover3)

end Cert.KernelIdeal.RegionValue

end
-- ==== Proof.RegionScore.lean ====
/-
  The two edge-score regions. A block of 12000 edges of a region's result holds, at edge `e` of the block, the sum
  over the 64 features of the products of the two endpoint rows of that edge. Block `t` of either endpoint array is its
  rows `12000 t … 12000 t + 11999`, block `t` of the result the same edges, and the hundred blocks fill the 1200000
  edges: so each region leaves, in its result array, `Spec.score` of its two endpoint arrays.
-/
import proofs.«176044_j68092411510979_2_alg».proof.Proof.Gen.KernelIdeal.Frame
import proofs.«176044_j68092411510979_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/-! ## Reading a column cast and a lane sum at an index -/

/-- An `[a]` array cast to the column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the 64 lanes of an `[n, 64]` block, at row `p`, is the sum over `d` of the block at `(p, d)`. -/
theorem laneSum_apply {n : ℕ} (v : FVec Ideal ⟨2, ![n, 64]⟩ .f32) (h : (⟨2, ![n, 64]⟩ : Shape).Reduces [1] ⟨1, ![n]⟩)
    (hφ : FKind.Formats .f32) (hacc : (0x00000000#32 : BitVec 32) = FKind.add.neutral .f32 hφ) (p : Fin n) :
    multiReduction .add [1] ⟨1, ![n]⟩ v 0x00000000#32 h hφ hacc (ix1 p) = ∑ d : Fin 64, v (ix2 p d) := by
  refine (Ideal.multiReduction_add_single v _ h hφ hacc (ix1 p)).trans ?_
  refine Finset.sum_congr rfl fun d _ => congrArg v ?_
  funext ax
  match ax with
  | ⟨0, _⟩ => rfl
  | ⟨1, _⟩ => rfl

/-- The score of edge `r`, with the edge's index written by its coordinates. -/
theorem score_ix2 (hs hd : FVec Ideal ⟨2, ![1200000, 64]⟩ .f32) (r : Fin 1200000) (u : Fin 1) :
    Cert.Spec.score hs hd (ix2 r u) = ∑ d : Fin 64, hs (ix2 r d) * hd (ix2 r d) := rfl

/-- The zero offsets of a whole-buffer access. -/
theorem scoreOff0 : (![0, 0] : Fin 2 → Nat) = fun _ => 0 := funext fun a => by fin_cases a <;> rfl

variable (V : (c : Dev nD) → (b : Ref sig .tc) → Buf (Elt Ideal) ((c : Thread nD τ).loc b))

/-! ## Region 4: the scores of the positive edges -/

/-- The body's result at edge `p` of a block: the inner product of the two endpoint blocks' rows `p`. -/
theorem scoreBlock4_apply (x0 x1 : Vec Ideal S12000x64 .f32) (p : Fin 12000) (q : Fin 1) :
    k4_pay1 x0 x1 (ix2 p q) = ∑ d : Fin 64, x0 (ix2 p d) * x1 (ix2 p d) := by
  unfold k4_pay1
  refine (shapeCast_a_a1_apply _ _ p q).trans ?_
  refine (laneSum_apply _ _ _ _ p).trans ?_
  refine Finset.sum_congr rfl fun d _ => ?_
  show shapeCast S12000x64 x0 _ (ix2 p d) * shapeCast S12000x64 x1 _ (ix2 p d) = _
  rw [shapeCast_self, shapeCast_self]

/-- Every window's block index at point `t` is `(t, 0)`: the three windows move together along the edges. -/
theorem scoreIdx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the scores of the two endpoint arrays as the region finds them. -/
theorem scoreFlushed4 (c : Dev nD) (t : Fin cfg4.N) :
    (dat4 (F := Ideal) V c).flushed 2 t
      = ((cfg4.win 2).blk t).view.read (Elt Ideal) (Cert.Spec.score (V c main_v98) (V c main_v105)) := by
  show (cfg4.win 2).cut (grid4.coords t) ((dat4 V c).after 2 t) = _
  rw [after4_2]
  unfold out4_2
  rw [View.canon_unit_zero scoreOff0]
  simp only [View.ld_unit_zero (S := S12000x64) scoreOff0]
  obtain ⟨e0, e1, e2, e3, e4, e5⟩ := scoreIdx4 t
  have ht : t.val < 100 := lt_of_lt_of_eq t.isLt N_4
  refine funext fun (j : S12000x1.Idx) => ?_
  obtain ⟨p, q, rfl⟩ : ∃ (p : Fin 12000) (q : Fin 1), j = ix2 p q := ⟨j 0, j 1, eq_ix2 j⟩
  have hp : p.val < 12000 := p.isLt
  show k4_pay1 (iblk4 V c 0 t) (iblk4 V c 1 t) (ix2 p q)
    = Cert.Spec.score (V c main_v98) (V c main_v105) (((cfg4.win 2).blk t).view.emb (ix2 p q))
  have hout : ((cfg4.win 2).blk t).view.emb (ix2 p q)
      = (ix2 (⟨t.val * 12000 + p.val, by omega⟩ : Fin 1200000) q : S1200000x1.Idx) := by
    funext a; apply Fin.ext
    match a with
    | ⟨0, _⟩ => show win4_2.index t (0 : Fin 2) * 12000 + 1 * p.val = t.val * 12000 + p.val; omega
    | ⟨1, _⟩ => show win4_2.index t (1 : Fin 2) * 1 + 1 * q.val = q.val; omega
  rw [hout, score_ix2]
  refine (scoreBlock4_apply (iblk4 V c 0 t) (iblk4 V c 1 t) p q).trans ?_
  refine Finset.sum_congr rfl fun d _ => ?_
  have h0 : ((cfg4.win 0).blk t).view.emb (ix2 p d)
      = (ix2 (⟨t.val * 12000 + p.val, by omega⟩ : Fin 1200000) d : S1200000x64.Idx) := by
    funext a; apply Fin.ext
    match a with
    | ⟨0, _⟩ => show win4_0.index t (0 : Fin 2) * 12000 + 1 * p.val = t.val * 12000 + p.val; omega
    | ⟨1, _⟩ => show win4_0.index t (1 : Fin 2) * 64 + 1 * d.val = d.val; omega
  have h1 : ((cfg4.win 1).blk t).view.emb (ix2 p d)
      = (ix2 (⟨t.val * 12000 + p.val, by omega⟩ : Fin 1200000) d : S1200000x64.Idx) := by
    funext a; apply Fin.ext
    match a with
    | ⟨0, _⟩ => show win4_1.index t (0 : Fin 2) * 12000 + 1 * p.val = t.val * 12000 + p.val; omega
    | ⟨1, _⟩ => show win4_1.index t (1 : Fin 2) * 64 + 1 * d.val = d.val; omega
  exact congrArg₂ (fun a b : EReal => a * b) (congrArg (V c main_v98 : S1200000x64.Idx → EReal) h0)
    (congrArg (V c main_v105 : S1200000x64.Idx → EReal) h1)

/-- An edge is in point `t`'s block of the result iff each coordinate is in the block's range on its axis. -/
theorem scoreMem4 (t : Fin cfg4.N) (i : S1200000x1.Idx) :
    i ∈ ((cfg4.win 2).blk t).view.set
      ↔ ∀ a : Fin 2, win4_2.index t a * S12000x1.size a ≤ (i a).val ∧ (i a).val < win4_2.index t a * S12000x1.size a + S12000x1.size a := by
  show i ∈ ((View.whole main_v120).slice (win4_2.rect t)).set ↔ _
  rw [View.set_slice_whole, Rect.mem_set_unit]
  exact Iff.rfl

/-- Edge `e` is in the block of point `e / 12000`, which is written back: the blocks fill the array. -/
theorem scoreCover4 (i : S1200000x1.Idx) :
    ∃ t : Fin cfg4.N, (cfg4.win 2).flush t = true ∧ i ∈ ((cfg4.win 2).blk t).view.set := by
  have hi0 : (i 0).val < 1200000 := (i 0).isLt
  have hi1 : (i 1).val < 1 := (i 1).isLt
  have hN : grid4.N = 100 := N_4
  let t : Fin cfg4.N := ⟨(i 0).val / 12000, by show (i 0).val / 12000 < grid4.N; omega⟩
  have htv : t.val = (i 0).val / 12000 := rfl
  obtain ⟨e0, e1, e2, e3, e4, e5⟩ := scoreIdx4 t
  refine ⟨t, flush4_2 t, ?_⟩
  rw [scoreMem4]
  intro a
  match a with
  | ⟨0, _⟩ => show win4_2.index t (0 : Fin 2) * 12000 ≤ (i 0).val ∧ (i 0).val < win4_2.index t (0 : Fin 2) * 12000 + 12000; omega
  | ⟨1, _⟩ => show win4_2.index t (1 : Fin 2) * 1 ≤ (i 1).val ∧ (i 1).val < win4_2.index t (1 : Fin 2) * 1 + 1; omega

/-- The result array after region 4: the scores of the two endpoint arrays as the region finds them. -/
theorem final4 (c : Dev nD) :
    (dat4 (F := Ideal) V c).arrAt 2 cfg4.N = Cert.Spec.score (V c main_v98) (V c main_v105) :=
  (dat4 V c).arrAt_eq_of_cover 2 (Cert.Spec.score (V c main_v98) (V c main_v105)) (fun t _ => scoreFlushed4 V c t) (scoreCover4)

/-! ## Region 5: the scores of the negative edges -/

/-- The body's result at edge `p` of a block: the inner product of the two endpoint blocks' rows `p`. -/
theorem scoreBlock5_apply (x0 x1 : Vec Ideal S12000x64 .f32) (p : Fin 12000) (q : Fin 1) :
    k5_pay1 x0 x1 (ix2 p q) = ∑ d : Fin 64, x0 (ix2 p d) * x1 (ix2 p d) := by
  unfold k5_pay1
  refine (shapeCast_a_a1_apply _ _ p q).trans ?_
  refine (laneSum_apply _ _ _ _ p).trans ?_
  refine Finset.sum_congr rfl fun d _ => ?_
  show shapeCast S12000x64 x0 _ (ix2 p d) * shapeCast S12000x64 x1 _ (ix2 p d) = _
  rw [shapeCast_self, shapeCast_self]

/-- Every window's block index at point `t` is `(t, 0)`: the three windows move together along the edges. -/
theorem scoreIdx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the scores of the two endpoint arrays as the region finds them. -/
theorem scoreFlushed5 (c : Dev nD) (t : Fin cfg5.N) :
    (dat5 (F := Ideal) V c).flushed 2 t
      = ((cfg5.win 2).blk t).view.read (Elt Ideal) (Cert.Spec.score (V c main_v112) (V c main_v119)) := by
  show (cfg5.win 2).cut (grid5.coords t) ((dat5 V c).after 2 t) = _
  rw [after5_2]
  unfold out5_2
  rw [View.canon_unit_zero scoreOff0]
  simp only [View.ld_unit_zero (S := S12000x64) scoreOff0]
  obtain ⟨e0, e1, e2, e3, e4, e5⟩ := scoreIdx5 t
  have ht : t.val < 100 := lt_of_lt_of_eq t.isLt N_5
  refine funext fun (j : S12000x1.Idx) => ?_
  obtain ⟨p, q, rfl⟩ : ∃ (p : Fin 12000) (q : Fin 1), j = ix2 p q := ⟨j 0, j 1, eq_ix2 j⟩
  have hp : p.val < 12000 := p.isLt
  show k5_pay1 (iblk5 V c 0 t) (iblk5 V c 1 t) (ix2 p q)
    = Cert.Spec.score (V c main_v112) (V c main_v119) (((cfg5.win 2).blk t).view.emb (ix2 p q))
  have hout : ((cfg5.win 2).blk t).view.emb (ix2 p q)
      = (ix2 (⟨t.val * 12000 + p.val, by omega⟩ : Fin 1200000) q : S1200000x1.Idx) := by
    funext a; apply Fin.ext
    match a with
    | ⟨0, _⟩ => show win5_2.index t (0 : Fin 2) * 12000 + 1 * p.val = t.val * 12000 + p.val; omega
    | ⟨1, _⟩ => show win5_2.index t (1 : Fin 2) * 1 + 1 * q.val = q.val; omega
  rw [hout, score_ix2]
  refine (scoreBlock5_apply (iblk5 V c 0 t) (iblk5 V c 1 t) p q).trans ?_
  refine Finset.sum_congr rfl fun d _ => ?_
  have h0 : ((cfg5.win 0).blk t).view.emb (ix2 p d)
      = (ix2 (⟨t.val * 12000 + p.val, by omega⟩ : Fin 1200000) d : S1200000x64.Idx) := by
    funext a; apply Fin.ext
    match a with
    | ⟨0, _⟩ => show win5_0.index t (0 : Fin 2) * 12000 + 1 * p.val = t.val * 12000 + p.val; omega
    | ⟨1, _⟩ => show win5_0.index t (1 : Fin 2) * 64 + 1 * d.val = d.val; omega
  have h1 : ((cfg5.win 1).blk t).view.emb (ix2 p d)
      = (ix2 (⟨t.val * 12000 + p.val, by omega⟩ : Fin 1200000) d : S1200000x64.Idx) := by
    funext a; apply Fin.ext
    match a with
    | ⟨0, _⟩ => show win5_1.index t (0 : Fin 2) * 12000 + 1 * p.val = t.val * 12000 + p.val; omega
    | ⟨1, _⟩ => show win5_1.index t (1 : Fin 2) * 64 + 1 * d.val = d.val; omega
  exact congrArg₂ (fun a b : EReal => a * b) (congrArg (V c main_v112 : S1200000x64.Idx → EReal) h0)
    (congrArg (V c main_v119 : S1200000x64.Idx → EReal) h1)

/-- An edge is in point `t`'s block of the result iff each coordinate is in the block's range on its axis. -/
theorem scoreMem5 (t : Fin cfg5.N) (i : S1200000x1.Idx) :
    i ∈ ((cfg5.win 2).blk t).view.set
      ↔ ∀ a : Fin 2, win5_2.index t a * S12000x1.size a ≤ (i a).val ∧ (i a).val < win5_2.index t a * S12000x1.size a + S12000x1.size a := by
  show i ∈ ((View.whole main_v121).slice (win5_2.rect t)).set ↔ _
  rw [View.set_slice_whole, Rect.mem_set_unit]
  exact Iff.rfl

/-- Edge `e` is in the block of point `e / 12000`, which is written back: the blocks fill the array. -/
theorem scoreCover5 (i : S1200000x1.Idx) :
    ∃ t : Fin cfg5.N, (cfg5.win 2).flush t = true ∧ i ∈ ((cfg5.win 2).blk t).view.set := by
  have hi0 : (i 0).val < 1200000 := (i 0).isLt
  have hi1 : (i 1).val < 1 := (i 1).isLt
  have hN : grid5.N = 100 := N_5
  let t : Fin cfg5.N := ⟨(i 0).val / 12000, by show (i 0).val / 12000 < grid5.N; omega⟩
  have htv : t.val = (i 0).val / 12000 := rfl
  obtain ⟨e0, e1, e2, e3, e4, e5⟩ := scoreIdx5 t
  refine ⟨t, flush5_2 t, ?_⟩
  rw [scoreMem5]
  intro a
  match a with
  | ⟨0, _⟩ => show win5_2.index t (0 : Fin 2) * 12000 ≤ (i 0).val ∧ (i 0).val < win5_2.index t (0 : Fin 2) * 12000 + 12000; omega
  | ⟨1, _⟩ => show win5_2.index t (1 : Fin 2) * 1 ≤ (i 1).val ∧ (i 1).val < win5_2.index t (1 : Fin 2) * 1 + 1; omega

/-- The result array after region 5: the scores of the two endpoint arrays as the region finds them. -/
theorem final5 (c : Dev nD) :
    (dat5 (F := Ideal) V c).arrAt 2 cfg5.N = Cert.Spec.score (V c main_v112) (V c main_v119) :=
  (dat5 V c).arrAt_eq_of_cover 2 (Cert.Spec.score (V c main_v112) (V c main_v119)) (fun t _ => scoreFlushed5 V c t) (scoreCover5)

end Cert.KernelIdeal.RegionValue

end
-- ==== Proof.Fold.lean ====
/-
  The kernel program's fold through its host stretches and its six regions, read at the buffers the regions take and
  leave, as the reference's stages of the argument arrays: before the first region the host computes the four degree
  factors and stacks the weights and the out-degree factors; each product-and-scale region leaves both relations'
  scaled products, whose slabs the host gathers along the edges and adds up at their destinations; each combination
  region leaves a layer's node features; the two score regions leave the edge scores.
-/
import proofs.«176044_j68092411510979_2_alg».proof.Proof.Gen.KernelIdeal.Frame
import proofs.«176044_j68092411510979_2_alg».proof.Proof.RefSpec
import proofs.«176044_j68092411510979_2_alg».proof.Proof.HostForms
import proofs.«176044_j68092411510979_2_alg».proof.Proof.RegionLin
import proofs.«176044_j68092411510979_2_alg».proof.Proof.RegionCombine
import proofs.«176044_j68092411510979_2_alg».proof.Proof.RegionScore
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.RefSpec Cert.HostForms

variable (m : (ℓ : Loc nD τ sig) → Buf (Elt Ideal) ℓ) (ρ : Dev nD → PrngReg) (c : Dev nD)

/-- A buffer that no operation of a line of host operations writes keeps its contents over the line. -/
macro "host_keeps" : tactic => `(tactic| (
  refine StableHlo.after_of_forall_not_mem _ _ (List.forall_iff_forall_mem.mp ?_)
  simp only [hostOps0, hostOps0_1, hostOps0_2, hostOps0_3, hostOps0_4, hostOps0_5, hostOps0_6, hostOps0_7, hostOps0_8, hostOps1, hostOps3, hostOps4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Before the first region: the four degree factors, then the stacked and re-laid operands

The host computes, for each of the four edge-index lists in turn, the count of its entries at every node, the count
clamped below by one, and one over its square root. Each stretch of host operations is read from ANY contents `V` it
starts from; the stretches are then chained from the launch memory, a value that later stretches do not write being
carried over them untouched. No host operation and no region writes an argument array. -/

theorem counts0 (V : Valuation τ sig (Elt Ideal)) : StableHlo.after hostOps0 V (Proc.devRef .tc main_v3) = (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (V (Proc.devRef .tc main_arg1))) (broadcastInDim S1200000 ![] bcast_S_S1200000 (constant S_ .f32 0x3F800000#32))) := by
  after_results_simp
  try rfl
theorem one0 (V : Valuation τ sig (Elt Ideal)) : StableHlo.after hostOps0 V (Proc.devRef .tc main_cst_1) = (constant (F := Ideal) S_ .f32 0x3F800000#32) := by
  after_results_simp
  try rfl

theorem clamp1 (V : Valuation τ sig (Elt Ideal)) : StableHlo.after hostOps0_1 V (Proc.devRef .tc main_v4) = (maximumf (F := Ideal) (s := S100000) (φ := .f32) (broadcastInDim S100000 ![] bcast_S_S100000 (id (V (Proc.devRef .tc main_cst_1) : (⟨S_, .f32⟩ : BufTy).Contents (Elt Ideal)))) (V (Proc.devRef .tc main_v3) : (⟨S100000, .f32⟩ : BufTy).Contents (Elt Ideal)) : (⟨S100000, .f32⟩ : BufTy).Contents (Elt Ideal)) := by
  after_results_simp
  try rfl

theorem factor2 (V : Valuation τ sig (Elt Ideal)) : StableHlo.after hostOps0_2 V (Proc.devRef .tc main_v5) = (Host.rsqrt (F := Ideal) (s := S100000) (φ := .f32) (V (Proc.devRef .tc main_v4) : (⟨S100000, .f32⟩ : BufTy).Contents (Elt Ideal)) : (⟨S100000, .f32⟩ : BufTy).Contents (Elt Ideal)) := by
  after_results_simp
  try rfl
theorem counts2 (V : Valuation τ sig (Elt Ideal)) : StableHlo.after hostOps0_2 V (Proc.devRef .tc main_v9) = (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (V (Proc.devRef .tc main_arg2))) (broadcastInDim S1200000 ![] bcast_S_S1200000 (constant S_ .f32 0x3F800000#32))) := by
  after_results_simp
  try rfl
theorem one2 (V : Valuation τ sig (Elt Ideal)) : StableHlo.after hostOps0_2 V (Proc.devRef .tc main_cst_4) = (constant (F := Ideal) S_ .f32 0x3F800000#32) := by
  after_results_simp
  try rfl

theorem clamp3 (V : Valuation τ sig (Elt Ideal)) : StableHlo.after hostOps0_3 V (Proc.devRef .tc main_v10) = (maximumf (F := Ideal) (s := S100000) (φ := .f32) (broadcastInDim S100000 ![] bcast_S_S100000 (id (V (Proc.devRef .tc main_cst_4) : (⟨S_, .f32⟩ : BufTy).Contents (Elt Ideal)))) (V (Proc.devRef .tc main_v9) : (⟨S100000, .f32⟩ : BufTy).Contents (Elt Ideal)) : (⟨S100000, .f32⟩ : BufTy).Contents (Elt Ideal)) := by
  after_results_simp
  try rfl

theorem factor4 (V : Valuation τ sig (Elt Ideal)) : StableHlo.after hostOps0_4 V (Proc.devRef .tc main_v11) = (Host.rsqrt (F := Ideal) (s := S100000) (φ := .f32) (V (Proc.devRef .tc main_v10) : (⟨S100000, .f32⟩ : BufTy).Contents (Elt Ideal)) : (⟨S100000, .f32⟩ : BufTy).Contents (Elt Ideal)) := by
  after_results_simp
  try rfl
theorem counts4 (V : Valuation τ sig (Elt Ideal)) : StableHlo.after hostOps0_4 V (Proc.devRef .tc main_v15) = (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (V (Proc.devRef .tc main_arg3))) (broadcastInDim S1200000 ![] bcast_S_S1200000 (constant S_ .f32 0x3F800000#32))) := by
  after_results_simp
  try rfl
theorem one4 (V : Valuation τ sig (Elt Ideal)) : StableHlo.after hostOps0_4 V (Proc.devRef .tc main_cst_7) = (constant (F := Ideal) S_ .f32 0x3F800000#32) := by
  after_results_simp
  try rfl

theorem clamp5 (V : Valuation τ sig (Elt Ideal)) : StableHlo.after hostOps0_5 V (Proc.devRef .tc main_v16) = (maximumf (F := Ideal) (s := S100000) (φ := .f32) (broadcastInDim S100000 ![] bcast_S_S100000 (id (V (Proc.devRef .tc main_cst_7) : (⟨S_, .f32⟩ : BufTy).Contents (Elt Ideal)))) (V (Proc.devRef .tc main_v15) : (⟨S100000, .f32⟩ : BufTy).Contents (Elt Ideal)) : (⟨S100000, .f32⟩ : BufTy).Contents (Elt Ideal)) := by
  after_results_simp
  try rfl

theorem factor6 (V : Valuation τ sig (Elt Ideal)) : StableHlo.after hostOps0_6 V (Proc.devRef .tc main_v17) = (Host.rsqrt (F := Ideal) (s := S100000) (φ := .f32) (V (Proc.devRef .tc main_v16) : (⟨S100000, .f32⟩ : BufTy).Contents (Elt Ideal)) : (⟨S100000, .f32⟩ : BufTy).Contents (Elt Ideal)) := by
  after_results_simp
  try rfl
theorem counts6 (V : Valuation τ sig (Elt Ideal)) : StableHlo.after hostOps0_6 V (Proc.devRef .tc main_v21) = (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (V (Proc.devRef .tc main_arg4))) (broadcastInDim S1200000 ![] bcast_S_S1200000 (constant S_ .f32 0x3F800000#32))) := by
  after_results_simp
  try rfl
theorem one6 (V : Valuation τ sig (Elt Ideal)) : StableHlo.after hostOps0_6 V (Proc.devRef .tc main_cst_10) = (constant (F := Ideal) S_ .f32 0x3F800000#32) := by
  after_results_simp
  try rfl

theorem clamp7 (V : Valuation τ sig (Elt Ideal)) : StableHlo.after hostOps0_7 V (Proc.devRef .tc main_v22) = (maximumf (F := Ideal) (s := S100000) (φ := .f32) (broadcastInDim S100000 ![] bcast_S_S100000 (id (V (Proc.devRef .tc main_cst_10) : (⟨S_, .f32⟩ : BufTy).Contents (Elt Ideal)))) (V (Proc.devRef .tc main_v21) : (⟨S100000, .f32⟩ : BufTy).Contents (Elt Ideal)) : (⟨S100000, .f32⟩ : BufTy).Contents (Elt Ideal)) := by
  after_results_simp
  try rfl

theorem stackedFactors8 (V : Valuation τ sig (Elt Ideal)) : StableHlo.after hostOps0_8 V (Proc.devRef .tc main_v27) = stackV (V (Proc.devRef .tc main_v5)) (V (Proc.devRef .tc main_v17)) := by
  after_results_simp
  try rfl

theorem column8a (V : Valuation τ sig (Elt Ideal)) : StableHlo.after hostOps0_8 V (Proc.devRef .tc main_v28) = broadcastInDim S100000x1 ![0] bcast_S100000_S100000x1_0 (V (Proc.devRef .tc main_v11)) := by
  after_results_simp
  try rfl

theorem column8b (V : Valuation τ sig (Elt Ideal)) : StableHlo.after hostOps0_8 V (Proc.devRef .tc main_v29) = broadcastInDim S100000x1 ![0] bcast_S100000_S100000x1_0 ((Host.rsqrt (F := Ideal) (s := S100000) (φ := .f32) (V (Proc.devRef .tc main_v22) : (⟨S100000, .f32⟩ : BufTy).Contents (Elt Ideal)) : (⟨S100000, .f32⟩ : BufTy).Contents (Elt Ideal))) := by
  after_results_simp
  try rfl

theorem stackedW8a (V : Valuation τ sig (Elt Ideal)) : StableHlo.after hostOps0_8 V (Proc.devRef .tc main_v32) = stackW (V (Proc.devRef .tc main_arg7)) (V (Proc.devRef .tc main_arg8)) := by
  after_results_simp
  try rfl

theorem stackedW8b (V : Valuation τ sig (Elt Ideal)) : StableHlo.after hostOps0_8 V (Proc.devRef .tc main_v35) = stackW (V (Proc.devRef .tc main_arg9)) (V (Proc.devRef .tc main_arg10)) := by
  after_results_simp
  try rfl

theorem row8_36 (V : Valuation τ sig (Elt Ideal)) : StableHlo.after hostOps0_8 V (Proc.devRef .tc main_v36) = broadcastInDim S1x64 ![1] bcast_S64_S1x64_1 (V (Proc.devRef .tc main_arg11)) := by
  after_results_simp
  try rfl
theorem row8_37 (V : Valuation τ sig (Elt Ideal)) : StableHlo.after hostOps0_8 V (Proc.devRef .tc main_v37) = broadcastInDim S1x64 ![1] bcast_S64_S1x64_1 (V (Proc.devRef .tc main_arg12)) := by
  after_results_simp
  try rfl
theorem row8_38 (V : Valuation τ sig (Elt Ideal)) : StableHlo.after hostOps0_8 V (Proc.devRef .tc main_v38) = broadcastInDim S1x64 ![1] bcast_S64_S1x64_1 (V (Proc.devRef .tc main_arg13)) := by
  after_results_simp
  try rfl
theorem row8_39 (V : Valuation τ sig (Elt Ideal)) : StableHlo.after hostOps0_8 V (Proc.devRef .tc main_v39) = broadcastInDim S1x64 ![1] bcast_S64_S1x64_1 (V (Proc.devRef .tc main_arg14)) := by
  after_results_simp
  try rfl

theorem W2_eq : W2 m ρ c = StableHlo.after (hostOps0 ++ hostOps0_1) (W0 m ρ c) := by
  simp only [StableHlo.after_append]
theorem W4_eq : W4 m ρ c = StableHlo.after (hostOps0 ++ hostOps0_1 ++ hostOps0_2 ++ hostOps0_3) (W0 m ρ c) := by
  simp only [StableHlo.after_append]
theorem W6_eq : W6 m ρ c = StableHlo.after (hostOps0 ++ hostOps0_1 ++ hostOps0_2 ++ hostOps0_3 ++ hostOps0_4 ++ hostOps0_5) (W0 m ρ c) := by
  simp only [StableHlo.after_append]
theorem W8_eq : W8 m ρ c = StableHlo.after (hostOps0 ++ hostOps0_1 ++ hostOps0_2 ++ hostOps0_3 ++ hostOps0_4 ++ hostOps0_5 ++ hostOps0_6 ++ hostOps0_7) (W0 m ρ c) := by
  simp only [StableHlo.after_append]
theorem W9_eq : W9 m ρ c = StableHlo.after (hostOps0 ++ hostOps0_1 ++ hostOps0_2 ++ hostOps0_3 ++ hostOps0_4 ++ hostOps0_5 ++ hostOps0_6 ++ hostOps0_7 ++ hostOps0_8) (W0 m ρ c) := by
  simp only [StableHlo.after_append]
theorem W8_from3 : W8 m ρ c = StableHlo.after (hostOps0_3 ++ hostOps0_4 ++ hostOps0_5 ++ hostOps0_6 ++ hostOps0_7) (W3 m ρ c) := by
  simp only [StableHlo.after_append]
theorem W8_from5 : W8 m ρ c = StableHlo.after (hostOps0_5 ++ hostOps0_6 ++ hostOps0_7) (W5 m ρ c) := by
  simp only [StableHlo.after_append]

theorem at2_main_arg2 : W2 m ρ c (Proc.devRef .tc main_arg2) = (m ((c : Thread nD τ).loc main_arg2)) := by
  rw [W2_eq]
  show StableHlo.after _ (W0 m ρ c) (Proc.devRef .tc main_arg2) = W0 m ρ c (Proc.devRef .tc main_arg2)
  host_keeps
theorem at4_main_arg3 : W4 m ρ c (Proc.devRef .tc main_arg3) = (m ((c : Thread nD τ).loc main_arg3)) := by
  rw [W4_eq]
  show StableHlo.after _ (W0 m ρ c) (Proc.devRef .tc main_arg3) = W0 m ρ c (Proc.devRef .tc main_arg3)
  host_keeps
theorem at6_main_arg4 : W6 m ρ c (Proc.devRef .tc main_arg4) = (m ((c : Thread nD τ).loc main_arg4)) := by
  rw [W6_eq]
  show StableHlo.after _ (W0 m ρ c) (Proc.devRef .tc main_arg4) = W0 m ρ c (Proc.devRef .tc main_arg4)
  host_keeps
theorem at8_main_arg7 : W8 m ρ c (Proc.devRef .tc main_arg7) = (m ((c : Thread nD τ).loc main_arg7)) := by
  rw [W8_eq]
  show StableHlo.after _ (W0 m ρ c) (Proc.devRef .tc main_arg7) = W0 m ρ c (Proc.devRef .tc main_arg7)
  host_keeps
theorem at8_main_arg8 : W8 m ρ c (Proc.devRef .tc main_arg8) = (m ((c : Thread nD τ).loc main_arg8)) := by
  rw [W8_eq]
  show StableHlo.after _ (W0 m ρ c) (Proc.devRef .tc main_arg8) = W0 m ρ c (Proc.devRef .tc main_arg8)
  host_keeps
theorem at8_main_arg9 : W8 m ρ c (Proc.devRef .tc main_arg9) = (m ((c : Thread nD τ).loc main_arg9)) := by
  rw [W8_eq]
  show StableHlo.after _ (W0 m ρ c) (Proc.devRef .tc main_arg9) = W0 m ρ c (Proc.devRef .tc main_arg9)
  host_keeps
theorem at8_main_arg10 : W8 m ρ c (Proc.devRef .tc main_arg10) = (m ((c : Thread nD τ).loc main_arg10)) := by
  rw [W8_eq]
  show StableHlo.after _ (W0 m ρ c) (Proc.devRef .tc main_arg10) = W0 m ρ c (Proc.devRef .tc main_arg10)
  host_keeps
theorem at8_main_arg11 : W8 m ρ c (Proc.devRef .tc main_arg11) = (m ((c : Thread nD τ).loc main_arg11)) := by
  rw [W8_eq]
  show StableHlo.after _ (W0 m ρ c) (Proc.devRef .tc main_arg11) = W0 m ρ c (Proc.devRef .tc main_arg11)
  host_keeps
theorem at8_main_arg12 : W8 m ρ c (Proc.devRef .tc main_arg12) = (m ((c : Thread nD τ).loc main_arg12)) := by
  rw [W8_eq]
  show StableHlo.after _ (W0 m ρ c) (Proc.devRef .tc main_arg12) = W0 m ρ c (Proc.devRef .tc main_arg12)
  host_keeps
theorem at8_main_arg13 : W8 m ρ c (Proc.devRef .tc main_arg13) = (m ((c : Thread nD τ).loc main_arg13)) := by
  rw [W8_eq]
  show StableHlo.after _ (W0 m ρ c) (Proc.devRef .tc main_arg13) = W0 m ρ c (Proc.devRef .tc main_arg13)
  host_keeps
theorem at8_main_arg14 : W8 m ρ c (Proc.devRef .tc main_arg14) = (m ((c : Thread nD τ).loc main_arg14)) := by
  rw [W8_eq]
  show StableHlo.after _ (W0 m ρ c) (Proc.devRef .tc main_arg14) = W0 m ρ c (Proc.devRef .tc main_arg14)
  host_keeps
theorem at9_main_arg0 : W9 m ρ c (Proc.devRef .tc main_arg0) = (m ((c : Thread nD τ).loc main_arg0)) := by
  rw [W9_eq]
  show StableHlo.after _ (W0 m ρ c) (Proc.devRef .tc main_arg0) = W0 m ρ c (Proc.devRef .tc main_arg0)
  host_keeps
theorem at9_main_arg1 : W9 m ρ c (Proc.devRef .tc main_arg1) = (m ((c : Thread nD τ).loc main_arg1)) := by
  rw [W9_eq]
  show StableHlo.after _ (W0 m ρ c) (Proc.devRef .tc main_arg1) = W0 m ρ c (Proc.devRef .tc main_arg1)
  host_keeps
theorem at9_main_arg2 : W9 m ρ c (Proc.devRef .tc main_arg2) = (m ((c : Thread nD τ).loc main_arg2)) := by
  rw [W9_eq]
  show StableHlo.after _ (W0 m ρ c) (Proc.devRef .tc main_arg2) = W0 m ρ c (Proc.devRef .tc main_arg2)
  host_keeps
theorem at9_main_arg3 : W9 m ρ c (Proc.devRef .tc main_arg3) = (m ((c : Thread nD τ).loc main_arg3)) := by
  rw [W9_eq]
  show StableHlo.after _ (W0 m ρ c) (Proc.devRef .tc main_arg3) = W0 m ρ c (Proc.devRef .tc main_arg3)
  host_keeps
theorem at9_main_arg4 : W9 m ρ c (Proc.devRef .tc main_arg4) = (m ((c : Thread nD τ).loc main_arg4)) := by
  rw [W9_eq]
  show StableHlo.after _ (W0 m ρ c) (Proc.devRef .tc main_arg4) = W0 m ρ c (Proc.devRef .tc main_arg4)
  host_keeps
theorem at9_main_arg5 : W9 m ρ c (Proc.devRef .tc main_arg5) = (m ((c : Thread nD τ).loc main_arg5)) := by
  rw [W9_eq]
  show StableHlo.after _ (W0 m ρ c) (Proc.devRef .tc main_arg5) = W0 m ρ c (Proc.devRef .tc main_arg5)
  host_keeps
theorem at9_main_arg6 : W9 m ρ c (Proc.devRef .tc main_arg6) = (m ((c : Thread nD τ).loc main_arg6)) := by
  rw [W9_eq]
  show StableHlo.after _ (W0 m ρ c) (Proc.devRef .tc main_arg6) = W0 m ρ c (Proc.devRef .tc main_arg6)
  host_keeps

theorem at1_main_v3 : W1 m ρ c (Proc.devRef .tc main_v3) = (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (m ((c : Thread nD τ).loc main_arg1))) (broadcastInDim S1200000 ![] bcast_S_S1200000 (constant S_ .f32 0x3F800000#32))) := counts0 (W0 m ρ c)
theorem at1_main_cst_1 : W1 m ρ c (Proc.devRef .tc main_cst_1) = (constant (F := Ideal) S_ .f32 0x3F800000#32) := one0 (W0 m ρ c)
theorem at2_main_v4 : W2 m ρ c (Proc.devRef .tc main_v4) = (maximumf (F := Ideal) (s := S100000) (φ := .f32) (broadcastInDim S100000 ![] bcast_S_S100000 (id (constant S_ .f32 0x3F800000#32))) (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (m ((c : Thread nD τ).loc main_arg1))) (broadcastInDim S1200000 ![] bcast_S_S1200000 (constant S_ .f32 0x3F800000#32)))) := by
  refine (clamp1 (W1 m ρ c)).trans ?_
  rw [at1_main_cst_1, at1_main_v3]

theorem at3_main_v5 : W3 m ρ c (Proc.devRef .tc main_v5) = (invDeg (F := Ideal) (m ((c : Thread nD τ).loc main_arg1))) := by
  refine (factor2 (W2 m ρ c)).trans ?_
  rw [at2_main_v4]; rfl

theorem at3_main_v9 : W3 m ρ c (Proc.devRef .tc main_v9) = (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (m ((c : Thread nD τ).loc main_arg2))) (broadcastInDim S1200000 ![] bcast_S_S1200000 (constant S_ .f32 0x3F800000#32))) := by
  refine (counts2 (W2 m ρ c)).trans ?_
  rw [at2_main_arg2]

theorem at3_main_cst_4 : W3 m ρ c (Proc.devRef .tc main_cst_4) = (constant (F := Ideal) S_ .f32 0x3F800000#32) := one2 (W2 m ρ c)
theorem at4_main_v10 : W4 m ρ c (Proc.devRef .tc main_v10) = (maximumf (F := Ideal) (s := S100000) (φ := .f32) (broadcastInDim S100000 ![] bcast_S_S100000 (id (constant S_ .f32 0x3F800000#32))) (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (m ((c : Thread nD τ).loc main_arg2))) (broadcastInDim S1200000 ![] bcast_S_S1200000 (constant S_ .f32 0x3F800000#32)))) := by
  refine (clamp3 (W3 m ρ c)).trans ?_
  rw [at3_main_cst_4, at3_main_v9]

theorem at5_main_v11 : W5 m ρ c (Proc.devRef .tc main_v11) = (invDeg (F := Ideal) (m ((c : Thread nD τ).loc main_arg2))) := by
  refine (factor4 (W4 m ρ c)).trans ?_
  rw [at4_main_v10]; rfl

theorem at5_main_v15 : W5 m ρ c (Proc.devRef .tc main_v15) = (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (m ((c : Thread nD τ).loc main_arg3))) (broadcastInDim S1200000 ![] bcast_S_S1200000 (constant S_ .f32 0x3F800000#32))) := by
  refine (counts4 (W4 m ρ c)).trans ?_
  rw [at4_main_arg3]

theorem at5_main_cst_7 : W5 m ρ c (Proc.devRef .tc main_cst_7) = (constant (F := Ideal) S_ .f32 0x3F800000#32) := one4 (W4 m ρ c)
theorem at6_main_v16 : W6 m ρ c (Proc.devRef .tc main_v16) = (maximumf (F := Ideal) (s := S100000) (φ := .f32) (broadcastInDim S100000 ![] bcast_S_S100000 (id (constant S_ .f32 0x3F800000#32))) (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (m ((c : Thread nD τ).loc main_arg3))) (broadcastInDim S1200000 ![] bcast_S_S1200000 (constant S_ .f32 0x3F800000#32)))) := by
  refine (clamp5 (W5 m ρ c)).trans ?_
  rw [at5_main_cst_7, at5_main_v15]

theorem at7_main_v17 : W7 m ρ c (Proc.devRef .tc main_v17) = (invDeg (F := Ideal) (m ((c : Thread nD τ).loc main_arg3))) := by
  refine (factor6 (W6 m ρ c)).trans ?_
  rw [at6_main_v16]; rfl

theorem at7_main_v21 : W7 m ρ c (Proc.devRef .tc main_v21) = (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (m ((c : Thread nD τ).loc main_arg4))) (broadcastInDim S1200000 ![] bcast_S_S1200000 (constant S_ .f32 0x3F800000#32))) := by
  refine (counts6 (W6 m ρ c)).trans ?_
  rw [at6_main_arg4]

theorem at7_main_cst_10 : W7 m ρ c (Proc.devRef .tc main_cst_10) = (constant (F := Ideal) S_ .f32 0x3F800000#32) := one6 (W6 m ρ c)
theorem at8_main_v22 : W8 m ρ c (Proc.devRef .tc main_v22) = (maximumf (F := Ideal) (s := S100000) (φ := .f32) (broadcastInDim S100000 ![] bcast_S_S100000 (id (constant S_ .f32 0x3F800000#32))) (Host.scatterAdd (F := Ideal) scatter_S100000_S1200000x1_S1200000_n_0_0_1 (broadcastInDim S100000 ![] bcast_S_S100000 (constant S_ .f32 0x00000000#32)) (broadcastInDim S1200000x1 ![0] bcast_S1200000_S1200000x1_0 (m ((c : Thread nD τ).loc main_arg4))) (broadcastInDim S1200000 ![] bcast_S_S1200000 (constant S_ .f32 0x3F800000#32)))) := by
  refine (clamp7 (W7 m ρ c)).trans ?_
  rw [at7_main_cst_10, at7_main_v21]

/-- the first three factors, carried to the last stretch -/
theorem at8_main_v5 : W8 m ρ c (Proc.devRef .tc main_v5) = (invDeg (F := Ideal) (m ((c : Thread nD τ).loc main_arg1))) := by
  rw [W8_from3]
  exact (by host_keeps : StableHlo.after _ (W3 m ρ c) (Proc.devRef .tc main_v5) = W3 m ρ c (Proc.devRef .tc main_v5)).trans (at3_main_v5 m ρ c)
theorem at8_main_v11 : W8 m ρ c (Proc.devRef .tc main_v11) = (invDeg (F := Ideal) (m ((c : Thread nD τ).loc main_arg2))) := by
  rw [W8_from5]
  exact (by host_keeps : StableHlo.after _ (W5 m ρ c) (Proc.devRef .tc main_v11) = W5 m ρ c (Proc.devRef .tc main_v11)).trans (at5_main_v11 m ρ c)
theorem at8_main_v17 : W8 m ρ c (Proc.devRef .tc main_v17) = (invDeg (F := Ideal) (m ((c : Thread nD τ).loc main_arg3))) :=
  (by host_keeps : StableHlo.after hostOps0_7 (W7 m ρ c) (Proc.devRef .tc main_v17) = W7 m ρ c (Proc.devRef .tc main_v17)).trans (at7_main_v17 m ρ c)

/-! ## What the first region finds, and what is carried to the later ones -/
theorem at9_main_v27 : W9 m ρ c (Proc.devRef .tc main_v27) = stackV (invDeg (F := Ideal) (m ((c : Thread nD τ).loc main_arg1))) (invDeg (F := Ideal) (m ((c : Thread nD τ).loc main_arg3))) := by
  refine (stackedFactors8 (W8 m ρ c)).trans ?_
  rw [at8_main_v5, at8_main_v17]

theorem at9_main_v28 : W9 m ρ c (Proc.devRef .tc main_v28) = (broadcastInDim S100000x1 ![0] bcast_S100000_S100000x1_0 (invDeg (F := Ideal) (m ((c : Thread nD τ).loc main_arg2)))) := by
  refine (column8a (W8 m ρ c)).trans ?_
  rw [at8_main_v11]

theorem at9_main_v29 : W9 m ρ c (Proc.devRef .tc main_v29) = (broadcastInDim S100000x1 ![0] bcast_S100000_S100000x1_0 (invDeg (F := Ideal) (m ((c : Thread nD τ).loc main_arg4)))) := by
  refine (column8b (W8 m ρ c)).trans ?_
  rw [at8_main_v22]; rfl

theorem at9_main_v32 : W9 m ρ c (Proc.devRef .tc main_v32) = stackW (m ((c : Thread nD τ).loc main_arg7)) (m ((c : Thread nD τ).loc main_arg8)) := by
  refine (stackedW8a (W8 m ρ c)).trans ?_
  rw [at8_main_arg7, at8_main_arg8]

theorem at9_main_v35 : W9 m ρ c (Proc.devRef .tc main_v35) = stackW (m ((c : Thread nD τ).loc main_arg9)) (m ((c : Thread nD τ).loc main_arg10)) := by
  refine (stackedW8b (W8 m ρ c)).trans ?_
  rw [at8_main_arg9, at8_main_arg10]

theorem at9_main_v36 : W9 m ρ c (Proc.devRef .tc main_v36) = (broadcastInDim S1x64 ![1] bcast_S64_S1x64_1 (m ((c : Thread nD τ).loc main_arg11))) := by
  refine (row8_36 (W8 m ρ c)).trans ?_
  rw [at8_main_arg11]
theorem at9_main_v37 : W9 m ρ c (Proc.devRef .tc main_v37) = (broadcastInDim S1x64 ![1] bcast_S64_S1x64_1 (m ((c : Thread nD τ).loc main_arg12))) := by
  refine (row8_37 (W8 m ρ c)).trans ?_
  rw [at8_main_arg12]
theorem at9_main_v38 : W9 m ρ c (Proc.devRef .tc main_v38) = (broadcastInDim S1x64 ![1] bcast_S64_S1x64_1 (m ((c : Thread nD τ).loc main_arg13))) := by
  refine (row8_38 (W8 m ρ c)).trans ?_
  rw [at8_main_arg13]
theorem at9_main_v39 : W9 m ρ c (Proc.devRef .tc main_v39) = (broadcastInDim S1x64 ![1] bcast_S64_S1x64_1 (m ((c : Thread nD τ).loc main_arg14))) := by
  refine (row8_39 (W8 m ρ c)).trans ?_
  rw [at8_main_arg14]

theorem at10_main_arg1 : W10 m ρ c (Proc.devRef .tc main_arg1) = (m ((c : Thread nD τ).loc main_arg1)) :=
  (W10_of_ne m ρ c main_arg1 (by decide)).trans (at9_main_arg1 m ρ c)
theorem at11_main_arg1 : W11 m ρ c (Proc.devRef .tc main_arg1) = (m ((c : Thread nD τ).loc main_arg1)) :=
  (by host_keeps : StableHlo.after hostOps1 (W10 m ρ c) (Proc.devRef .tc main_arg1) = W10 m ρ c (Proc.devRef .tc main_arg1)).trans (at10_main_arg1 m ρ c)
theorem at12_main_arg1 : W12 m ρ c (Proc.devRef .tc main_arg1) = (m ((c : Thread nD τ).loc main_arg1)) :=
  (W12_of_ne m ρ c main_arg1 (by decide)).trans (at11_main_arg1 m ρ c)
theorem at13_main_arg1 : W13 m ρ c (Proc.devRef .tc main_arg1) = (m ((c : Thread nD τ).loc main_arg1)) :=
  (W13_of_ne m ρ c main_arg1 (by decide)).trans (at12_main_arg1 m ρ c)
theorem at14_main_arg1 : W14 m ρ c (Proc.devRef .tc main_arg1) = (m ((c : Thread nD τ).loc main_arg1)) :=
  (by host_keeps : StableHlo.after hostOps3 (W13 m ρ c) (Proc.devRef .tc main_arg1) = W13 m ρ c (Proc.devRef .tc main_arg1)).trans (at13_main_arg1 m ρ c)
theorem at15_main_arg1 : W15 m ρ c (Proc.devRef .tc main_arg1) = (m ((c : Thread nD τ).loc main_arg1)) :=
  (W15_of_ne m ρ c main_arg1 (by decide)).trans (at14_main_arg1 m ρ c)

theorem at10_main_arg2 : W10 m ρ c (Proc.devRef .tc main_arg2) = (m ((c : Thread nD τ).loc main_arg2)) :=
  (W10_of_ne m ρ c main_arg2 (by decide)).trans (at9_main_arg2 m ρ c)
theorem at11_main_arg2 : W11 m ρ c (Proc.devRef .tc main_arg2) = (m ((c : Thread nD τ).loc main_arg2)) :=
  (by host_keeps : StableHlo.after hostOps1 (W10 m ρ c) (Proc.devRef .tc main_arg2) = W10 m ρ c (Proc.devRef .tc main_arg2)).trans (at10_main_arg2 m ρ c)
theorem at12_main_arg2 : W12 m ρ c (Proc.devRef .tc main_arg2) = (m ((c : Thread nD τ).loc main_arg2)) :=
  (W12_of_ne m ρ c main_arg2 (by decide)).trans (at11_main_arg2 m ρ c)
theorem at13_main_arg2 : W13 m ρ c (Proc.devRef .tc main_arg2) = (m ((c : Thread nD τ).loc main_arg2)) :=
  (W13_of_ne m ρ c main_arg2 (by decide)).trans (at12_main_arg2 m ρ c)
theorem at14_main_arg2 : W14 m ρ c (Proc.devRef .tc main_arg2) = (m ((c : Thread nD τ).loc main_arg2)) :=
  (by host_keeps : StableHlo.after hostOps3 (W13 m ρ c) (Proc.devRef .tc main_arg2) = W13 m ρ c (Proc.devRef .tc main_arg2)).trans (at13_main_arg2 m ρ c)
theorem at15_main_arg2 : W15 m ρ c (Proc.devRef .tc main_arg2) = (m ((c : Thread nD τ).loc main_arg2)) :=
  (W15_of_ne m ρ c main_arg2 (by decide)).trans (at14_main_arg2 m ρ c)

theorem at10_main_arg3 : W10 m ρ c (Proc.devRef .tc main_arg3) = (m ((c : Thread nD τ).loc main_arg3)) :=
  (W10_of_ne m ρ c main_arg3 (by decide)).trans (at9_main_arg3 m ρ c)
theorem at11_main_arg3 : W11 m ρ c (Proc.devRef .tc main_arg3) = (m ((c : Thread nD τ).loc main_arg3)) :=
  (by host_keeps : StableHlo.after hostOps1 (W10 m ρ c) (Proc.devRef .tc main_arg3) = W10 m ρ c (Proc.devRef .tc main_arg3)).trans (at10_main_arg3 m ρ c)
theorem at12_main_arg3 : W12 m ρ c (Proc.devRef .tc main_arg3) = (m ((c : Thread nD τ).loc main_arg3)) :=
  (W12_of_ne m ρ c main_arg3 (by decide)).trans (at11_main_arg3 m ρ c)
theorem at13_main_arg3 : W13 m ρ c (Proc.devRef .tc main_arg3) = (m ((c : Thread nD τ).loc main_arg3)) :=
  (W13_of_ne m ρ c main_arg3 (by decide)).trans (at12_main_arg3 m ρ c)

theorem at10_main_arg4 : W10 m ρ c (Proc.devRef .tc main_arg4) = (m ((c : Thread nD τ).loc main_arg4)) :=
  (W10_of_ne m ρ c main_arg4 (by decide)).trans (at9_main_arg4 m ρ c)
theorem at11_main_arg4 : W11 m ρ c (Proc.devRef .tc main_arg4) = (m ((c : Thread nD τ).loc main_arg4)) :=
  (by host_keeps : StableHlo.after hostOps1 (W10 m ρ c) (Proc.devRef .tc main_arg4) = W10 m ρ c (Proc.devRef .tc main_arg4)).trans (at10_main_arg4 m ρ c)
theorem at12_main_arg4 : W12 m ρ c (Proc.devRef .tc main_arg4) = (m ((c : Thread nD τ).loc main_arg4)) :=
  (W12_of_ne m ρ c main_arg4 (by decide)).trans (at11_main_arg4 m ρ c)
theorem at13_main_arg4 : W13 m ρ c (Proc.devRef .tc main_arg4) = (m ((c : Thread nD τ).loc main_arg4)) :=
  (W13_of_ne m ρ c main_arg4 (by decide)).trans (at12_main_arg4 m ρ c)

theorem at10_main_arg5 : W10 m ρ c (Proc.devRef .tc main_arg5) = (m ((c : Thread nD τ).loc main_arg5)) :=
  (W10_of_ne m ρ c main_arg5 (by decide)).trans (at9_main_arg5 m ρ c)
theorem at11_main_arg5 : W11 m ρ c (Proc.devRef .tc main_arg5) = (m ((c : Thread nD τ).loc main_arg5)) :=
  (by host_keeps : StableHlo.after hostOps1 (W10 m ρ c) (Proc.devRef .tc main_arg5) = W10 m ρ c (Proc.devRef .tc main_arg5)).trans (at10_main_arg5 m ρ c)
theorem at12_main_arg5 : W12 m ρ c (Proc.devRef .tc main_arg5) = (m ((c : Thread nD τ).loc main_arg5)) :=
  (W12_of_ne m ρ c main_arg5 (by decide)).trans (at11_main_arg5 m ρ c)
theorem at13_main_arg5 : W13 m ρ c (Proc.devRef .tc main_arg5) = (m ((c : Thread nD τ).loc main_arg5)) :=
  (W13_of_ne m ρ c main_arg5 (by decide)).trans (at12_main_arg5 m ρ c)
theorem at14_main_arg5 : W14 m ρ c (Proc.devRef .tc main_arg5) = (m ((c : Thread nD τ).loc main_arg5)) :=
  (by host_keeps : StableHlo.after hostOps3 (W13 m ρ c) (Proc.devRef .tc main_arg5) = W13 m ρ c (Proc.devRef .tc main_arg5)).trans (at13_main_arg5 m ρ c)
theorem at15_main_arg5 : W15 m ρ c (Proc.devRef .tc main_arg5) = (m ((c : Thread nD τ).loc main_arg5)) :=
  (W15_of_ne m ρ c main_arg5 (by decide)).trans (at14_main_arg5 m ρ c)

theorem at10_main_arg6 : W10 m ρ c (Proc.devRef .tc main_arg6) = (m ((c : Thread nD τ).loc main_arg6)) :=
  (W10_of_ne m ρ c main_arg6 (by decide)).trans (at9_main_arg6 m ρ c)
theorem at11_main_arg6 : W11 m ρ c (Proc.devRef .tc main_arg6) = (m ((c : Thread nD τ).loc main_arg6)) :=
  (by host_keeps : StableHlo.after hostOps1 (W10 m ρ c) (Proc.devRef .tc main_arg6) = W10 m ρ c (Proc.devRef .tc main_arg6)).trans (at10_main_arg6 m ρ c)
theorem at12_main_arg6 : W12 m ρ c (Proc.devRef .tc main_arg6) = (m ((c : Thread nD τ).loc main_arg6)) :=
  (W12_of_ne m ρ c main_arg6 (by decide)).trans (at11_main_arg6 m ρ c)
theorem at13_main_arg6 : W13 m ρ c (Proc.devRef .tc main_arg6) = (m ((c : Thread nD τ).loc main_arg6)) :=
  (W13_of_ne m ρ c main_arg6 (by decide)).trans (at12_main_arg6 m ρ c)
theorem at14_main_arg6 : W14 m ρ c (Proc.devRef .tc main_arg6) = (m ((c : Thread nD τ).loc main_arg6)) :=
  (by host_keeps : StableHlo.after hostOps3 (W13 m ρ c) (Proc.devRef .tc main_arg6) = W13 m ρ c (Proc.devRef .tc main_arg6)).trans (at13_main_arg6 m ρ c)
theorem at15_main_arg6 : W15 m ρ c (Proc.devRef .tc main_arg6) = (m ((c : Thread nD τ).loc main_arg6)) :=
  (W15_of_ne m ρ c main_arg6 (by decide)).trans (at14_main_arg6 m ρ c)

theorem at10_main_v27 : W10 m ρ c (Proc.devRef .tc main_v27) = stackV (invDeg (F := Ideal) (m ((c : Thread nD τ).loc main_arg1))) (invDeg (F := Ideal) (m ((c : Thread nD τ).loc main_arg3))) :=
  ((W10_arr m ρ c 2).trans (((dat0 (V9 m ρ) c).arrAt_in 2 rfl _).trans (A_eq0 (V9 m ρ) c 2))).trans (at9_main_v27 m ρ c)
theorem at11_main_v27 : W11 m ρ c (Proc.devRef .tc main_v27) = stackV (invDeg (F := Ideal) (m ((c : Thread nD τ).loc main_arg1))) (invDeg (F := Ideal) (m ((c : Thread nD τ).loc main_arg3))) :=
  (by host_keeps : StableHlo.after hostOps1 (W10 m ρ c) (Proc.devRef .tc main_v27) = W10 m ρ c (Proc.devRef .tc main_v27)).trans (at10_main_v27 m ρ c)
theorem at12_main_v27 : W12 m ρ c (Proc.devRef .tc main_v27) = stackV (invDeg (F := Ideal) (m ((c : Thread nD τ).loc main_arg1))) (invDeg (F := Ideal) (m ((c : Thread nD τ).loc main_arg3))) :=
  (W12_of_ne m ρ c main_v27 (by decide)).trans (at11_main_v27 m ρ c)

theorem at10_main_v28 : W10 m ρ c (Proc.devRef .tc main_v28) = (broadcastInDim S100000x1 ![0] bcast_S100000_S100000x1_0 (invDeg (F := Ideal) (m ((c : Thread nD τ).loc main_arg2)))) :=
  (W10_of_ne m ρ c main_v28 (by decide)).trans (at9_main_v28 m ρ c)
theorem at11_main_v28 : W11 m ρ c (Proc.devRef .tc main_v28) = (broadcastInDim S100000x1 ![0] bcast_S100000_S100000x1_0 (invDeg (F := Ideal) (m ((c : Thread nD τ).loc main_arg2)))) :=
  (by host_keeps : StableHlo.after hostOps1 (W10 m ρ c) (Proc.devRef .tc main_v28) = W10 m ρ c (Proc.devRef .tc main_v28)).trans (at10_main_v28 m ρ c)
theorem at12_main_v28 : W12 m ρ c (Proc.devRef .tc main_v28) = (broadcastInDim S100000x1 ![0] bcast_S100000_S100000x1_0 (invDeg (F := Ideal) (m ((c : Thread nD τ).loc main_arg2)))) :=
  ((W12_arr m ρ c 2).trans (((dat1 (V11 m ρ) c).arrAt_in 2 rfl _).trans (A_eq1 (V11 m ρ) c 2))).trans (at11_main_v28 m ρ c)
theorem at13_main_v28 : W13 m ρ c (Proc.devRef .tc main_v28) = (broadcastInDim S100000x1 ![0] bcast_S100000_S100000x1_0 (invDeg (F := Ideal) (m ((c : Thread nD τ).loc main_arg2)))) :=
  (W13_of_ne m ρ c main_v28 (by decide)).trans (at12_main_v28 m ρ c)
theorem at14_main_v28 : W14 m ρ c (Proc.devRef .tc main_v28) = (broadcastInDim S100000x1 ![0] bcast_S100000_S100000x1_0 (invDeg (F := Ideal) (m ((c : Thread nD τ).loc main_arg2)))) :=
  (by host_keeps : StableHlo.after hostOps3 (W13 m ρ c) (Proc.devRef .tc main_v28) = W13 m ρ c (Proc.devRef .tc main_v28)).trans (at13_main_v28 m ρ c)

theorem at10_main_v29 : W10 m ρ c (Proc.devRef .tc main_v29) = (broadcastInDim S100000x1 ![0] bcast_S100000_S100000x1_0 (invDeg (F := Ideal) (m ((c : Thread nD τ).loc main_arg4)))) :=
  (W10_of_ne m ρ c main_v29 (by decide)).trans (at9_main_v29 m ρ c)
theorem at11_main_v29 : W11 m ρ c (Proc.devRef .tc main_v29) = (broadcastInDim S100000x1 ![0] bcast_S100000_S100000x1_0 (invDeg (F := Ideal) (m ((c : Thread nD τ).loc main_arg4)))) :=
  (by host_keeps : StableHlo.after hostOps1 (W10 m ρ c) (Proc.devRef .tc main_v29) = W10 m ρ c (Proc.devRef .tc main_v29)).trans (at10_main_v29 m ρ c)
theorem at12_main_v29 : W12 m ρ c (Proc.devRef .tc main_v29) = (broadcastInDim S100000x1 ![0] bcast_S100000_S100000x1_0 (invDeg (F := Ideal) (m ((c : Thread nD τ).loc main_arg4)))) :=
  ((W12_arr m ρ c 3).trans (((dat1 (V11 m ρ) c).arrAt_in 3 rfl _).trans (A_eq1 (V11 m ρ) c 3))).trans (at11_main_v29 m ρ c)
theorem at13_main_v29 : W13 m ρ c (Proc.devRef .tc main_v29) = (broadcastInDim S100000x1 ![0] bcast_S100000_S100000x1_0 (invDeg (F := Ideal) (m ((c : Thread nD τ).loc main_arg4)))) :=
  (W13_of_ne m ρ c main_v29 (by decide)).trans (at12_main_v29 m ρ c)
theorem at14_main_v29 : W14 m ρ c (Proc.devRef .tc main_v29) = (broadcastInDim S100000x1 ![0] bcast_S100000_S100000x1_0 (invDeg (F := Ideal) (m ((c : Thread nD τ).loc main_arg4)))) :=
  (by host_keeps : StableHlo.after hostOps3 (W13 m ρ c) (Proc.devRef .tc main_v29) = W13 m ρ c (Proc.devRef .tc main_v29)).trans (at13_main_v29 m ρ c)

theorem at10_main_v35 : W10 m ρ c (Proc.devRef .tc main_v35) = stackW (m ((c : Thread nD τ).loc main_arg9)) (m ((c : Thread nD τ).loc main_arg10)) :=
  (W10_of_ne m ρ c main_v35 (by decide)).trans (at9_main_v35 m ρ c)
theorem at11_main_v35 : W11 m ρ c (Proc.devRef .tc main_v35) = stackW (m ((c : Thread nD τ).loc main_arg9)) (m ((c : Thread nD τ).loc main_arg10)) :=
  (by host_keeps : StableHlo.after hostOps1 (W10 m ρ c) (Proc.devRef .tc main_v35) = W10 m ρ c (Proc.devRef .tc main_v35)).trans (at10_main_v35 m ρ c)
theorem at12_main_v35 : W12 m ρ c (Proc.devRef .tc main_v35) = stackW (m ((c : Thread nD τ).loc main_arg9)) (m ((c : Thread nD τ).loc main_arg10)) :=
  (W12_of_ne m ρ c main_v35 (by decide)).trans (at11_main_v35 m ρ c)

theorem at10_main_v36 : W10 m ρ c (Proc.devRef .tc main_v36) = (broadcastInDim S1x64 ![1] bcast_S64_S1x64_1 (m ((c : Thread nD τ).loc main_arg11))) :=
  (W10_of_ne m ρ c main_v36 (by decide)).trans (at9_main_v36 m ρ c)
theorem at11_main_v36 : W11 m ρ c (Proc.devRef .tc main_v36) = (broadcastInDim S1x64 ![1] bcast_S64_S1x64_1 (m ((c : Thread nD τ).loc main_arg11))) :=
  (by host_keeps : StableHlo.after hostOps1 (W10 m ρ c) (Proc.devRef .tc main_v36) = W10 m ρ c (Proc.devRef .tc main_v36)).trans (at10_main_v36 m ρ c)

theorem at10_main_v37 : W10 m ρ c (Proc.devRef .tc main_v37) = (broadcastInDim S1x64 ![1] bcast_S64_S1x64_1 (m ((c : Thread nD τ).loc main_arg12))) :=
  (W10_of_ne m ρ c main_v37 (by decide)).trans (at9_main_v37 m ρ c)
theorem at11_main_v37 : W11 m ρ c (Proc.devRef .tc main_v37) = (broadcastInDim S1x64 ![1] bcast_S64_S1x64_1 (m ((c : Thread nD τ).loc main_arg12))) :=
  (by host_keeps : StableHlo.after hostOps1 (W10 m ρ c) (Proc.devRef .tc main_v37) = W10 m ρ c (Proc.devRef .tc main_v37)).trans (at10_main_v37 m ρ c)

theorem at10_main_v38 : W10 m ρ c (Proc.devRef .tc main_v38) = (broadcastInDim S1x64 ![1] bcast_S64_S1x64_1 (m ((c : Thread nD τ).loc main_arg13))) :=
  (W10_of_ne m ρ c main_v38 (by decide)).trans (at9_main_v38 m ρ c)
theorem at11_main_v38 : W11 m ρ c (Proc.devRef .tc main_v38) = (broadcastInDim S1x64 ![1] bcast_S64_S1x64_1 (m ((c : Thread nD τ).loc main_arg13))) :=
  (by host_keeps : StableHlo.after hostOps1 (W10 m ρ c) (Proc.devRef .tc main_v38) = W10 m ρ c (Proc.devRef .tc main_v38)).trans (at10_main_v38 m ρ c)
theorem at12_main_v38 : W12 m ρ c (Proc.devRef .tc main_v38) = (broadcastInDim S1x64 ![1] bcast_S64_S1x64_1 (m ((c : Thread nD τ).loc main_arg13))) :=
  (W12_of_ne m ρ c main_v38 (by decide)).trans (at11_main_v38 m ρ c)
theorem at13_main_v38 : W13 m ρ c (Proc.devRef .tc main_v38) = (broadcastInDim S1x64 ![1] bcast_S64_S1x64_1 (m ((c : Thread nD τ).loc main_arg13))) :=
  (W13_of_ne m ρ c main_v38 (by decide)).trans (at12_main_v38 m ρ c)
theorem at14_main_v38 : W14 m ρ c (Proc.devRef .tc main_v38) = (broadcastInDim S1x64 ![1] bcast_S64_S1x64_1 (m ((c : Thread nD τ).loc main_arg13))) :=
  (by host_keeps : StableHlo.after hostOps3 (W13 m ρ c) (Proc.devRef .tc main_v38) = W13 m ρ c (Proc.devRef .tc main_v38)).trans (at13_main_v38 m ρ c)

theorem at10_main_v39 : W10 m ρ c (Proc.devRef .tc main_v39) = (broadcastInDim S1x64 ![1] bcast_S64_S1x64_1 (m ((c : Thread nD τ).loc main_arg14))) :=
  (W10_of_ne m ρ c main_v39 (by decide)).trans (at9_main_v39 m ρ c)
theorem at11_main_v39 : W11 m ρ c (Proc.devRef .tc main_v39) = (broadcastInDim S1x64 ![1] bcast_S64_S1x64_1 (m ((c : Thread nD τ).loc main_arg14))) :=
  (by host_keeps : StableHlo.after hostOps1 (W10 m ρ c) (Proc.devRef .tc main_v39) = W10 m ρ c (Proc.devRef .tc main_v39)).trans (at10_main_v39 m ρ c)
theorem at12_main_v39 : W12 m ρ c (Proc.devRef .tc main_v39) = (broadcastInDim S1x64 ![1] bcast_S64_S1x64_1 (m ((c : Thread nD τ).loc main_arg14))) :=
  (W12_of_ne m ρ c main_v39 (by decide)).trans (at11_main_v39 m ρ c)
theorem at13_main_v39 : W13 m ρ c (Proc.devRef .tc main_v39) = (broadcastInDim S1x64 ![1] bcast_S64_S1x64_1 (m ((c : Thread nD τ).loc main_arg14))) :=
  (W13_of_ne m ρ c main_v39 (by decide)).trans (at12_main_v39 m ρ c)
theorem at14_main_v39 : W14 m ρ c (Proc.devRef .tc main_v39) = (broadcastInDim S1x64 ![1] bcast_S64_S1x64_1 (m ((c : Thread nD τ).loc main_arg14))) :=
  (by host_keeps : StableHlo.after hostOps3 (W13 m ρ c) (Proc.devRef .tc main_v39) = W13 m ρ c (Proc.devRef .tc main_v39)).trans (at13_main_v39 m ρ c)

/-! ## The first layer -/

/-- Region 0 leaves both relations' scaled products of the input features, stacked. -/
theorem at10_main_v40 : W10 m ρ c (Proc.devRef .tc main_v40) = Cert.Spec.linScale (m ((c : Thread nD τ).loc main_arg0)) (stackW (m ((c : Thread nD τ).loc main_arg7)) (m ((c : Thread nD τ).loc main_arg8))) (stackV (invDeg (F := Ideal) (m ((c : Thread nD τ).loc main_arg1))) (invDeg (F := Ideal) (m ((c : Thread nD τ).loc main_arg3)))) := by
  refine (W10_arr m ρ c 3).trans ?_
  rw [Cert.KernelIdeal.RegionValue.final0 (V9 m ρ) c]
  show Cert.Spec.linScale (W9 m ρ c (Proc.devRef .tc main_arg0)) (W9 m ρ c (Proc.devRef .tc main_v32)) (W9 m ρ c (Proc.devRef .tc main_v27)) = _
  rw [at9_main_arg0, at9_main_v32, at9_main_v27]

/-- The host aggregates relation 0's slab along its edges. -/
theorem at11_main_v52 : W11 m ρ c (Proc.devRef .tc main_v52) = aggregate (F := Ideal) (scaledLinear (F := Ideal) (m ((c : Thread nD τ).loc main_arg0)) (m ((c : Thread nD τ).loc main_arg7)) (m ((c : Thread nD τ).loc main_arg1))) (m ((c : Thread nD τ).loc main_arg1)) (m ((c : Thread nD τ).loc main_arg2)) := by
  show StableHlo.after hostOps1 (W10 m ρ c) (Proc.devRef .tc main_v52) = _
  after_results_simp
  rw [at10_main_v40, at10_main_arg1, at10_main_arg2]
  unfold aggregate scaledLinear rowsAt
  rw [← slab0 (m ((c : Thread nD τ).loc main_arg0)) (m ((c : Thread nD τ).loc main_arg7)) (m ((c : Thread nD τ).loc main_arg8)) (invDeg (F := Ideal) (m ((c : Thread nD τ).loc main_arg1))) (invDeg (F := Ideal) (m ((c : Thread nD τ).loc main_arg3)))]
  rfl

/-- … and relation 1's. -/
theorem at11_main_v64 : W11 m ρ c (Proc.devRef .tc main_v64) = aggregate (F := Ideal) (scaledLinear (F := Ideal) (m ((c : Thread nD τ).loc main_arg0)) (m ((c : Thread nD τ).loc main_arg8)) (m ((c : Thread nD τ).loc main_arg3))) (m ((c : Thread nD τ).loc main_arg3)) (m ((c : Thread nD τ).loc main_arg4)) := by
  show StableHlo.after hostOps1 (W10 m ρ c) (Proc.devRef .tc main_v64) = _
  after_results_simp
  rw [at10_main_v40, at10_main_arg3, at10_main_arg4]
  unfold aggregate scaledLinear rowsAt
  rw [← slab1 (m ((c : Thread nD τ).loc main_arg0)) (m ((c : Thread nD τ).loc main_arg7)) (m ((c : Thread nD τ).loc main_arg8)) (invDeg (F := Ideal) (m ((c : Thread nD τ).loc main_arg1))) (invDeg (F := Ideal) (m ((c : Thread nD τ).loc main_arg3)))]
  rfl

/-- Region 1 leaves the hidden layer. -/
theorem at12_main_v65 : W12 m ρ c (Proc.devRef .tc main_v65) = (hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12))) := by
  refine (W12_arr m ρ c 6).trans ?_
  rw [Cert.KernelIdeal.RegionValue.final1 (V11 m ρ) c]
  show Cert.Spec.combine true (W11 m ρ c (Proc.devRef .tc main_v52)) (W11 m ρ c (Proc.devRef .tc main_v64)) (W11 m ρ c (Proc.devRef .tc main_v28)) (W11 m ρ c (Proc.devRef .tc main_v29)) (W11 m ρ c (Proc.devRef .tc main_v36)) (W11 m ρ c (Proc.devRef .tc main_v37)) = _
  rw [at11_main_v52, at11_main_v64, at11_main_v28, at11_main_v29, at11_main_v36, at11_main_v37]
  exact combine_relu _ _ _ _ _ _

/-! ## The second layer -/

/-- Region 2 leaves both relations' scaled products of the hidden features, stacked. -/
theorem at13_main_v66 : W13 m ρ c (Proc.devRef .tc main_v66) = Cert.Spec.linScale (hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12))) (stackW (m ((c : Thread nD τ).loc main_arg9)) (m ((c : Thread nD τ).loc main_arg10))) (stackV (invDeg (F := Ideal) (m ((c : Thread nD τ).loc main_arg1))) (invDeg (F := Ideal) (m ((c : Thread nD τ).loc main_arg3)))) := by
  refine (W13_arr m ρ c 3).trans ?_
  rw [Cert.KernelIdeal.RegionValue.final2 (V12 m ρ) c]
  show Cert.Spec.linScale (W12 m ρ c (Proc.devRef .tc main_v65)) (W12 m ρ c (Proc.devRef .tc main_v35)) (W12 m ρ c (Proc.devRef .tc main_v27)) = _
  rw [at12_main_v65, at12_main_v35, at12_main_v27]

theorem at14_main_v78 : W14 m ρ c (Proc.devRef .tc main_v78) = aggregate (F := Ideal) (scaledLinear (F := Ideal) (hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12))) (m ((c : Thread nD τ).loc main_arg9)) (m ((c : Thread nD τ).loc main_arg1))) (m ((c : Thread nD τ).loc main_arg1)) (m ((c : Thread nD τ).loc main_arg2)) := by
  show StableHlo.after hostOps3 (W13 m ρ c) (Proc.devRef .tc main_v78) = _
  after_results_simp
  rw [at13_main_v66, at13_main_arg1, at13_main_arg2]
  unfold aggregate scaledLinear rowsAt
  rw [← slab0 (hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12))) (m ((c : Thread nD τ).loc main_arg9)) (m ((c : Thread nD τ).loc main_arg10)) (invDeg (F := Ideal) (m ((c : Thread nD τ).loc main_arg1))) (invDeg (F := Ideal) (m ((c : Thread nD τ).loc main_arg3)))]
  rfl

theorem at14_main_v90 : W14 m ρ c (Proc.devRef .tc main_v90) = aggregate (F := Ideal) (scaledLinear (F := Ideal) (hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12))) (m ((c : Thread nD τ).loc main_arg10)) (m ((c : Thread nD τ).loc main_arg3))) (m ((c : Thread nD τ).loc main_arg3)) (m ((c : Thread nD τ).loc main_arg4)) := by
  show StableHlo.after hostOps3 (W13 m ρ c) (Proc.devRef .tc main_v90) = _
  after_results_simp
  rw [at13_main_v66, at13_main_arg3, at13_main_arg4]
  unfold aggregate scaledLinear rowsAt
  rw [← slab1 (hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12))) (m ((c : Thread nD τ).loc main_arg9)) (m ((c : Thread nD τ).loc main_arg10)) (invDeg (F := Ideal) (m ((c : Thread nD τ).loc main_arg1))) (invDeg (F := Ideal) (m ((c : Thread nD τ).loc main_arg3)))]
  rfl

/-- Region 3 leaves the network's node features. -/
theorem at15_main_v91 : W15 m ρ c (Proc.devRef .tc main_v91) = (network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W15_arr m ρ c 6).trans ?_
  rw [Cert.KernelIdeal.RegionValue.final3 (V14 m ρ) c]
  show Cert.Spec.combine false (W14 m ρ c (Proc.devRef .tc main_v78)) (W14 m ρ c (Proc.devRef .tc main_v90)) (W14 m ρ c (Proc.devRef .tc main_v28)) (W14 m ρ c (Proc.devRef .tc main_v29)) (W14 m ρ c (Proc.devRef .tc main_v38)) (W14 m ρ c (Proc.devRef .tc main_v39)) = _
  rw [at14_main_v78, at14_main_v90, at14_main_v28, at14_main_v29, at14_main_v38, at14_main_v39]
  exact combine_plain _ _ _ _ _ _

/-! ## The scores -/

theorem at16_main_v98 : W16 m ρ c (Proc.devRef .tc main_v98) = rowsAt (F := Ideal) (network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg1)) := by
  show StableHlo.after hostOps4 (W15 m ρ c) (Proc.devRef .tc main_v98) = _
  after_results_simp
  rw [at15_main_v91, at15_main_arg1]
  rfl

theorem at16_main_v105 : W16 m ρ c (Proc.devRef .tc main_v105) = rowsAt (F := Ideal) (network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg2)) := by
  show StableHlo.after hostOps4 (W15 m ρ c) (Proc.devRef .tc main_v105) = _
  after_results_simp
  rw [at15_main_v91, at15_main_arg2]
  rfl

theorem at16_main_v112 : W16 m ρ c (Proc.devRef .tc main_v112) = rowsAt (F := Ideal) (network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg5)) := by
  show StableHlo.after hostOps4 (W15 m ρ c) (Proc.devRef .tc main_v112) = _
  after_results_simp
  rw [at15_main_v91, at15_main_arg5]
  rfl

theorem at16_main_v119 : W16 m ρ c (Proc.devRef .tc main_v119) = rowsAt (F := Ideal) (network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg6)) := by
  show StableHlo.after hostOps4 (W15 m ρ c) (Proc.devRef .tc main_v119) = _
  after_results_simp
  rw [at15_main_v91, at15_main_arg6]
  rfl

/-- Region 4 leaves the scores of the first relation's edges. -/
theorem at17_main_v120 : W17 m ρ c (Proc.devRef .tc main_v120) = edgeScore (F := Ideal) (network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg1)) (m ((c : Thread nD τ).loc main_arg2)) := by
  refine (W17_arr m ρ c 2).trans ?_
  rw [Cert.KernelIdeal.RegionValue.final4 (V16 m ρ) c]
  show Cert.Spec.score (W16 m ρ c (Proc.devRef .tc main_v98)) (W16 m ρ c (Proc.devRef .tc main_v105)) = _
  rw [at16_main_v98, at16_main_v105]
  exact score_host _ _

theorem at17_main_v112 : W17 m ρ c (Proc.devRef .tc main_v112) = rowsAt (F := Ideal) (network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg5)) :=
  (W17_of_ne m ρ c main_v112 (by decide)).trans (at16_main_v112 m ρ c)
theorem at17_main_v119 : W17 m ρ c (Proc.devRef .tc main_v119) = rowsAt (F := Ideal) (network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg6)) :=
  (W17_of_ne m ρ c main_v119 (by decide)).trans (at16_main_v119 m ρ c)

/-- Region 5 leaves the scores of the sampled negative edges. -/
theorem at18_main_v121 : W18 m ρ c (Proc.devRef .tc main_v121) = edgeScore (F := Ideal) (network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg5)) (m ((c : Thread nD τ).loc main_arg6)) := by
  refine (W18_arr m ρ c 2).trans ?_
  rw [Cert.KernelIdeal.RegionValue.final5 (V17 m ρ) c]
  show Cert.Spec.score (W17 m ρ c (Proc.devRef .tc main_v112)) (W17 m ρ c (Proc.devRef .tc main_v119)) = _
  rw [at17_main_v112, at17_main_v119]
  exact score_host _ _

theorem at18_main_v120 : W18 m ρ c (Proc.devRef .tc main_v120) = edgeScore (F := Ideal) (network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg1)) (m ((c : Thread nD τ).loc main_arg2)) :=
  (W18_of_ne m ρ c main_v120 (by decide)).trans (at17_main_v120 m ρ c)

end Cert.KernelIdeal.Fold

end
-- ==== Proof.lean ====
/-
  A two-layer relational graph convolution with dot-product edge scores, on 100000 nodes of 64 features and two
  relations of 1200000 edges each: the kernel program against its plain reference, on the extended reals.

  Both programs compute, for each relation, the degree factors `rsqrt (max 1 deg)` of the edge lists, the features times
  the relation's weight scaled per source node, the sum of those rows over the edges into each destination node, scaled
  per destination node, plus the bias; the two relations are added (positive part after the first layer); an edge's
  score is the inner product of its endpoints' final rows. The kernel program does the three dense steps in six
  pipelined regions — both relations' products at once on stacked operands, the two-relation combination, the
  row-wise inner product — and leaves the gathers and scatter-adds to the host; the reference does everything with host
  operations. On the extended reals the dense steps are the same functions index by index (a change of float format
  is the identity, a blocked matrix product into a zero accumulator is the plain sum over the contracted axis, a lane
  sum is the host's sum), and the host steps around them are the same operations on the same operands, so no law of
  arithmetic beyond `0 + s = s` is used and finiteness of the inputs is never needed.

  The modules: `Spec` (the three dense functions), `RefSpec` (the reference as named stages), `HostForms` (a dense
  function of the host's stacked operands is the reference's host expression), `RegionLin` / `RegionCombine` /
  `RegionScore` (what each region leaves in its output array), `RunResults` (the kernel program's run with its results
  named), `Fold` (the results as the reference's stages of the arguments).
-/
import proofs.«176044_j68092411510979_2_alg».proof.Defs
import proofs.«176044_j68092411510979_2_alg».proof.Proof.Gen.Kernel
import proofs.«176044_j68092411510979_2_alg».proof.Proof.Gen.Kernel.Skeleton
import proofs.«176044_j68092411510979_2_alg».proof.Proof.Gen.Kernel.Launch
import proofs.«176044_j68092411510979_2_alg».proof.Proof.Gen.Kernel.Points
import proofs.«176044_j68092411510979_2_alg».proof.Proof.Gen.Kernel.Frame
import proofs.«176044_j68092411510979_2_alg».proof.Proof.Gen.KernelIdeal
import proofs.«176044_j68092411510979_2_alg».proof.Proof.Gen.KernelIdeal.Skeleton
import proofs.«176044_j68092411510979_2_alg».proof.Proof.Gen.KernelIdeal.Launch
import proofs.«176044_j68092411510979_2_alg».proof.Proof.Gen.KernelIdeal.Points
import proofs.«176044_j68092411510979_2_alg».proof.Proof.Gen.KernelIdeal.Frame
import proofs.«176044_j68092411510979_2_alg».proof.Proof.Gen.ReferenceIdeal
import proofs.«176044_j68092411510979_2_alg».proof.Proof.Gen.Pre_finite_inputs
import proofs.«176044_j68092411510979_2_alg».proof.Proof.Gen.ReferenceIdeal.Run
import proofs.«176044_j68092411510979_2_alg».proof.Proof.Gen.ReferenceIdeal.Read
import proofs.«176044_j68092411510979_2_alg».proof.Proof.RefSpec
import proofs.«176044_j68092411510979_2_alg».proof.Proof.RunResults
import proofs.«176044_j68092411510979_2_alg».proof.Proof.Fold
import Idealize.ShloMosaic.Adequacy
import Idealize.ShloMosaic.Init

set_option maxRecDepth 16384

noncomputable section

namespace Cert.Proof

open Idealize.ShloMosaic Idealize.SL.Sem
open Cert.ReferenceIdeal.RefSpec

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the two results dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2) (Cert.ReferenceIdeal.Value.run (F := Ideal) m ρ)

/-- Both programs end with the scores of the first relation's edges and of the sampled negative edges under the same
    network of the same argument arrays. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => edgeScore (F := Ideal) (network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => edgeScore (F := Ideal) (network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.at18_main_v120 m ρ c), (h c).2.1.trans (Cert.KernelIdeal.Fold.at18_main_v121 m ρ c), (h c).2.2⟩)
      (Cert.KernelIdeal.RunResults.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [res_pos]
      simp only [networkOf, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    · rw [res_neg]
      simp only [networkOf, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
